-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S1x512x1 : Shape := ⟨3, ![1, 512, 1]⟩
abbrev S1x512x512 : Shape := ⟨3, ![1, 512, 512]⟩
abbrev S1x512 : Shape := ⟨2, ![1, 512]⟩

abbrev nBuf : Space → Nat
  | .hbm => 18
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1, .f32⟩
  | .local _ .vmem, ⟨20, _⟩ => ⟨S1x512x1, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x2048x1024_S1x512x1024_0_0_0 : ∀ a, (![0, 0, 0] : Fin 3 → Nat) a + S1x512x1024.size a ≤ S1x2048x1024.size a
  iota_S1x512x512_d1_w32 : S1x512x512.Iotas .tc 32 [1]
  iota_S1x512x512_d2_w32 : S1x512x512.Iotas .tc 32 [2]
  reduces_S1x512x512_S1x512 : S1x512x512.Reduces [2] S1x512
  shapeCasts_S1x512_S1x512x1 : S1x512.ShapeCasts S1x512x1
  broadcasts_S1x512x1_S1x512x512 : S1x512x1.Broadcasts S1x512x512
  broadcasts_S1x512x1_S1x512x1024 : S1x512x1.Broadcasts S1x512x1024
  inb_S1x2048x1024_S1x512x1024_0_512_0 : ∀ a, (![0, 512, 0] : Fin 3 → Nat) a + S1x512x1024.size a ≤ S1x2048x1024.size a
  inb_S1x2048x1024_S1x512x1024_0_1024_0 : ∀ a, (![0, 1024, 0] : Fin 3 → Nat) a + S1x512x1024.size a ≤ S1x2048x1024.size a
  inb_S1x2048x1024_S1x512x1024_0_1536_0 : ∀ a, (![0, 1536, 0] : Fin 3 → Nat) a + S1x512x1024.size a ≤ S1x2048x1024.size a
  dot_S512x1024_S1024x1024_S512x1024_1_0_0_1_n_n_wf : DotDims.WF S512x1024 S1024x1024 S512x1024 [1] [0] [0] [1] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S_S2048x1 : S_.BroadcastsInDim S2048x1 (![] : Fin 0 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KProjBody.lean ====
/-
  The projection region (the first kernel call): a grid of 16 points, point t taking rows 512·t … 512·t+511 of the
  flattened input [8192, 1024] and the three transposed weight matrices whole, and leaving in each of three output
  blocks [512, 1024] the product of the row block with one weight matrix. This module states what the body leaves in
  each output block as a function of the input blocks, proves the body's triple by symbolic execution, and packages
  the per-point facts the pipeline's launch theorem takes. Everything here holds at any float instance.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index has not moved then). One statement per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output block -/

/-- The whole row block [512, 1024] and the whole weight matrix [1024, 1024], as the rectangles the body loads and stores through. -/
abbrev rRows : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0

/-- The query block: the row block times the first weight matrix, stored whole. -/
def outQ (x : Vec F S512x1024 .f32) (w : Vec F S1024x1024 .bf16) : Vec F S512x1024 .bf16 :=
  View.canon [⟨rRows, k0_pay2 (View.ld x rRows) (View.ld w rMat)⟩]
/-- The key block: the row block times the second weight matrix. -/
def outK (x : Vec F S512x1024 .f32) (w : Vec F S1024x1024 .bf16) : Vec F S512x1024 .bf16 :=
  View.canon [⟨rRows, k0_pay3 (View.ld x rRows) (View.ld w rMat)⟩]
/-- The value block: the row block times the third weight matrix. -/
def outV (x : Vec F S512x1024 .f32) (w : Vec F S1024x1024 .bf16) : Vec F S512x1024 .bf16 :=
  View.canon [⟨rRows, k0_pay4 (View.ld x rRows) (View.ld w rMat)⟩]

/-- One store of the whole block covers the block. -/
theorem cover (p : Vec F S512x1024 .bf16) (y : S512x1024.Idx) :
    ∃ pc ∈ ([⟨rRows, p⟩] : List (View.Piece (Elt F) S512x1024 .bf16)), y ∈ pc.1.set :=
  View.cover_of_tiled [⟨rRows, p⟩] S512x1024.size (by rfl) y

/-! ## The body's triple -/

set_option maxHeartbeats 1000000 in
/-- The body, called on whole staging buffers — the four inputs' at known contents, the three outputs' at anything —
    runs to its end leaving the inputs as they were and each output at the product block above. -/
theorem sound_kernel (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x : Vec F S512x1024 .f32) (wq wk wv : Vec F S1024x1024 .bf16) (K : PUnit → sProp 𝕄) :
    iprop(owns (c : Thread nD τ) arg1 fullShare x ∗ owns (c : Thread nD τ) arg2 fullShare wq ∗ owns (c : Thread nD τ) arg3 fullShare wk
        ∗ owns (c : Thread nD τ) arg4 fullShare wv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare wk
            ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _)
  isplitl [H6]
  · iexists _; isplitr
    swap; · iexact H6
    ipureintro
    exact View.read_writes_eq_canon _ _ _ (cover _)
  iexists _; isplitr
  swap; · iexact H7
  ipureintro
  exact View.read_writes_eq_canon _ _ _ (cover _)

end Cert.Kernel.Proj

end
-- ==== Proof.KProjData.lean ====
/-
  The projection region's proof data: the arrays as the region finds them; after the body at point t, each input's
  staging buffer at its block and each output's at the product block of the input blocks; nothing owed, full shares,
  and as invariant the scoped buffers no window stages beside the generator register. And the per-point obligation:
  the body called by the pipeline at point t finds the inputs' blocks and leaves those outputs.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import proofs.«176692_j9783935500852_2_alg».proof.Proof.KProjBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the projection pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outQ (iblk V c 0 t) (iblk V c 1 t)
    | ⟨5, _⟩ => outK (iblk V c 0 t) (iblk V c 2 t)
    | ⟨6, _⟩ => outV (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outQ (iblk V c 0 t) (iblk V c 1 t) := by dsimp only [dat]
theorem after_5 (c : Dev nD) (t : Fin cfg0.N) : (dat V c).after 5 t = outK (iblk V c 0 t) (iblk V c 2 t) := by dsimp only [dat]
theorem after_6 (c : Dev nD) (t : Fin cfg0.N) : (dat V c).after 6 t = outV (iblk V c 0 t) (iblk V c 3 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.KAttnConds.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four guards, as the printed scalar chains over the query-tile coordinate -/

/-- Tile j is visited when (query tile) + 1 ≥ j, as the body computes it on 32-bit words. -/
abbrev guard (j : BitVec 32) (i : grid1.Coords) : Prop :=
  (Scalar.cmpi .ne (Scalar.extui (Scalar.cmpi .sge (Scalar.addi (BitVec.ofNat 32 (i 1).val) 1#32) j)) 0#32) = 1#1

/-- Tiles 0 and 1 are visited at every point; tile 2 off query tile 0; tile 3 off query tiles 0 and 1. -/
theorem guard0 : ∀ t : Fin cfg1.N, guard 0#32 (grid1.coords t) := (by decide +kernel : ∀ t : Fin grid1.N, guard 0#32 (grid1.coords t))
theorem guard1 : ∀ t : Fin cfg1.N, guard 1#32 (grid1.coords t) := (by decide +kernel : ∀ t : Fin grid1.N, guard 1#32 (grid1.coords t))
theorem guard2_iff : ∀ t : Fin cfg1.N, guard 2#32 (grid1.coords t) ↔ 1 ≤ t.val % 4 := (by decide +kernel : ∀ t : Fin grid1.N, guard 2#32 (grid1.coords t) ↔ 1 ≤ t.val % 4)
theorem guard3_iff : ∀ t : Fin cfg1.N, guard 3#32 (grid1.coords t) ↔ 2 ≤ t.val % 4 := (by decide +kernel : ∀ t : Fin grid1.N, guard 3#32 (grid1.coords t) ↔ 2 ≤ t.val % 4)

/-- The zero offsets of a rank-three rectangle, however they are spelt. -/
theorem hz3 : (![0, 0, 0] : Fin 3 → Nat) = fun _ => 0 := by funext a; fin_cases a <;> rfl

/-- A memref held at some contents is a memref owned at what those contents read as. -/
theorem owned_of_pt {sp : Space} {sh : Shape} {e : EltTy} (c : Dev nD) (m : Memref sig .tc sp sh e) (f : m.view.ty.Contents (Elt F)) :
    (iprop(m.view.loc (c : Thread nD τ) ↦[m.view.set]{fullShare} f) : sProp 𝕄)
      ⊢ iprop(∃ d, owns (c : Thread nD τ) m fullShare d) := by
  unfold owns
  iintro H
  iexists (m.view.read (Elt F) f); iexists f; isplitr; · ipureintro; rfl
  iexact H

end Cert.Kernel.Attn

end
-- ==== Proof.KAttnChain.lean ====
/-
  What the attention body computes, as one term over its three input blocks.

  The body keeps a state (row maximum m, denominator l, numerator acc), starts it at (−∞, 0, 0), and updates it once per
  visited key/value tile of 512 keys: the tile's masked scores against the scaled queries give the new maximum, the
  rescaling factor, the tile's weights, and from them the new denominator and numerator.  The output is the numerator
  divided by the denominator.  Query block qi visits tiles 0 … min (qi + 1, 3): two tiles for qi = 0 (chainA), three
  for qi = 1 (chainB), all four for qi ≥ 2 (chainC).
-/
import proofs.«176692_j9783935500852_2_alg».proof.Proof.Gen.Kernel.Skeleton
import Idealize.ShloMosaic.Lib.Pipeline.FrameBody

noncomputable section

namespace Cert.Kernel.Attn

open Idealize.ShloMosaic Idealize.SL.Sem Cert.Kernel Cert.Kernel.Gen

variable {F : FTy → Type} [FloatOps F]

/-- The whole query / output block. -/
abbrev rO : Rect S1x512x1024 := Rect.unit (s := S1x512x1024) ![0, 0, 0] S1x512x1024.size inb_S1x512x1024_S1x512x1024_0_0_0

/-- Key/value tile 0: keys 0 … 511. -/
abbrev rT0 : Rect S1x2048x1024 := Rect.unit (s := S1x2048x1024) ![0, 0, 0] S1x512x1024.size inb_S1x2048x1024_S1x512x1024_0_0_0

/-- Key/value tile 1: keys 512 … 1023. -/
abbrev rT1 : Rect S1x2048x1024 := Rect.unit (s := S1x2048x1024) ![0, 512, 0] S1x512x1024.size inb_S1x2048x1024_S1x512x1024_0_512_0

/-- Key/value tile 2: keys 1024 … 1535. -/
abbrev rT2 : Rect S1x2048x1024 := Rect.unit (s := S1x2048x1024) ![0, 1024, 0] S1x512x1024.size inb_S1x2048x1024_S1x512x1024_0_1024_0

/-- Key/value tile 3: keys 1536 … 2047. -/
abbrev rT3 : Rect S1x2048x1024 := Rect.unit (s := S1x2048x1024) ![0, 1536, 0] S1x512x1024.size inb_S1x2048x1024_S1x512x1024_0_1536_0

/-- The query block's number as a 32-bit word: grid coordinate 1. -/
def word (i : grid1.Coords) : BitVec 32 := BitVec.ofNat 32 (i 1).val

/-- The scaled queries: the loaded query block times 1/√1024. -/
def qs (q : Vec F S1x512x1024 .bf16) : FVec F S1x512x1024 .bf16 := k1_pay33 (View.ld q rO)

/-- The accumulation state: row maximum, denominator, numerator. -/
structure St (F : FTy → Type) where
  m : FVec F S1x512x1 .f32
  l : FVec F S1x512x1 .f32
  acc : FVec F S1x512x1024 .f32

/-- The start state (−∞, 0, 0). -/
def st0 : St F := ⟨k1_pay30, k1_pay31, k1_pay32⟩

/-- The state after key/value tile 0: the new row maximum, the new denominator and the new numerator, from the tile's
    keys kt and values vt and the state before. -/
def step1 (a : BitVec 32) (qs : FVec F S1x512x1024 .bf16) (kt vt : Vec F S1x512x1024 .bf16) (s : St F) : St F :=
  ⟨k1_pay35 (k1_pay8 a qs kt s.m), k1_pay11 a qs kt s.m s.m s.l,
    k1_pay34 (k1_pay6 vt) (k1_pay9 a qs kt s.m s.m) (k1_pay10 a qs kt s.m) s.acc⟩

/-- The state after key/value tile 1: the new row maximum, the new denominator and the new numerator, from the tile's
    keys kt and values vt and the state before. -/
def step2 (a : BitVec 32) (qs : FVec F S1x512x1024 .bf16) (kt vt : Vec F S1x512x1024 .bf16) (s : St F) : St F :=
  ⟨k1_pay37 (k1_pay14 a qs kt s.m), k1_pay17 a qs kt s.m s.m s.l,
    k1_pay36 (k1_pay12 vt) (k1_pay15 a qs kt s.m s.m) (k1_pay16 a qs kt s.m) s.acc⟩

/-- The state after key/value tile 2: the new row maximum, the new denominator and the new numerator, from the tile's
    keys kt and values vt and the state before. -/
def step3 (a : BitVec 32) (qs : FVec F S1x512x1024 .bf16) (kt vt : Vec F S1x512x1024 .bf16) (s : St F) : St F :=
  ⟨k1_pay2 (k1_pay20 a qs kt s.m), k1_pay23 a qs kt s.m s.m s.l,
    k1_pay1 (k1_pay18 vt) (k1_pay21 a qs kt s.m s.m) (k1_pay22 a qs kt s.m) s.acc⟩

/-- The state after key/value tile 3: the new row maximum, the new denominator and the new numerator, from the tile's
    keys kt and values vt and the state before. -/
def step4 (a : BitVec 32) (qs : FVec F S1x512x1024 .bf16) (kt vt : Vec F S1x512x1024 .bf16) (s : St F) : St F :=
  ⟨k1_pay4 (k1_pay26 a qs kt s.m), k1_pay29 a qs kt s.m s.m s.l,
    k1_pay3 (k1_pay24 vt) (k1_pay27 a qs kt s.m s.m) (k1_pay28 a qs kt s.m) s.acc⟩

/-- The output of a state: numerator over denominator. -/
def outOf (s : St F) : FVec F S1x512x1024 .f32 := k1_pay5 s.acc s.l

/-- Query block 0: tiles 0 and 1. -/
def chainA (i : grid1.Coords) (q : Vec F S1x512x1024 .bf16) (kk vv : Vec F S1x2048x1024 .bf16) : FVec F S1x512x1024 .f32 :=
  outOf (step2 (word i) (qs q) (View.ld kk rT1) (View.ld vv rT1)
    (step1 (word i) (qs q) (View.ld kk rT0) (View.ld vv rT0) st0))

/-- Query block 1: tiles 0, 1 and 2. -/
def chainB (i : grid1.Coords) (q : Vec F S1x512x1024 .bf16) (kk vv : Vec F S1x2048x1024 .bf16) : FVec F S1x512x1024 .f32 :=
  outOf (step3 (word i) (qs q) (View.ld kk rT2) (View.ld vv rT2)
    (step2 (word i) (qs q) (View.ld kk rT1) (View.ld vv rT1)
      (step1 (word i) (qs q) (View.ld kk rT0) (View.ld vv rT0) st0)))

/-- Query blocks 2 and 3: all four tiles. -/
def chainC (i : grid1.Coords) (q : Vec F S1x512x1024 .bf16) (kk vv : Vec F S1x2048x1024 .bf16) : FVec F S1x512x1024 .f32 :=
  outOf (step4 (word i) (qs q) (View.ld kk rT3) (View.ld vv rT3)
    (step3 (word i) (qs q) (View.ld kk rT2) (View.ld vv rT2)
      (step2 (word i) (qs q) (View.ld kk rT1) (View.ld vv rT1)
        (step1 (word i) (qs q) (View.ld kk rT0) (View.ld vv rT0) st0))))

end Cert.Kernel.Attn

end
-- ==== Proof.KAttnRunA.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import proofs.«176692_j9783935500852_2_alg».proof.Proof.KAttnConds
import proofs.«176692_j9783935500852_2_alg».proof.Proof.KAttnChain
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Query tile 0: tiles 0 and 1 are visited, tiles 2 and 3 skipped. The body runs to its end leaving the inputs as they were, the output block at the case's chain of tile
    steps over the input blocks, and the scratch buffers at something. -/
theorem runA (c : Dev nD) (i : grid1.Coords) (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S1x512x1024 .f32) (harg8 : arg8.IsWhole)
    (h0 : guard 0#32 i) (h1 : guard 1#32 i) (h2 : ¬ guard 2#32 i) (h3 : ¬ guard 3#32 i)
    (q : Vec F S1x512x1024 .bf16) (kk vv : Vec F S1x2048x1024 .bf16) (E : Set ℕ) (K : PUnit → sProp 𝕄) :
    iprop(owns (c : Thread nD τ) arg2 fullShare q ∗ owns (c : Thread nD τ) arg3 fullShare kk ∗ owns (c : Thread nD τ) arg4 fullShare vv
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare kk ∗ owns (c : Thread nD τ) arg4 fullShare vv
            ∗ owns (c : Thread nD τ) arg5 fullShare (chainA i q kk vv)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2
  obtain rfl := harg3.eq_unread hf3
  obtain rfl := harg4.eq_unread hf4
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (fun y => ⟨_, List.mem_singleton_self _, View.mem_set_unit_zero hz3 inb_S1x512x1024_S1x512x1024_0_0_0 y⟩)).trans ?_
    rw [View.canon_unit_zero hz3]
    symm
    unfold chainA outOf step2 step1 st0 qs word
    sl_unfold_run_names
    simp only [View.readCov_cons_toLoadRect, View.readAt_eq_ld, harg2.read_unread, harg3.read_unread, harg4.read_unread]
  isplitl [H6]; · iapply (owned_of_pt c arg6 _); iexact H6
  isplitl [H7]; · iapply (owned_of_pt c arg7 _); iexact H7
  iapply (owned_of_pt c arg8 _); iexact H8

end Cert.Kernel.Attn

end
-- ==== Proof.KAttnRunB.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import proofs.«176692_j9783935500852_2_alg».proof.Proof.KAttnConds
import proofs.«176692_j9783935500852_2_alg».proof.Proof.KAttnChain
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Query tile 1: tiles 0, 1 and 2 are visited, tile 3 skipped. The body runs to its end leaving the inputs as they were, the output block at the case's chain of tile
    steps over the input blocks, and the scratch buffers at something. -/
theorem runB (c : Dev nD) (i : grid1.Coords) (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S1x512x1024 .f32) (harg8 : arg8.IsWhole)
    (h0 : guard 0#32 i) (h1 : guard 1#32 i) (h2 : guard 2#32 i) (h3 : ¬ guard 3#32 i)
    (q : Vec F S1x512x1024 .bf16) (kk vv : Vec F S1x2048x1024 .bf16) (E : Set ℕ) (K : PUnit → sProp 𝕄) :
    iprop(owns (c : Thread nD τ) arg2 fullShare q ∗ owns (c : Thread nD τ) arg3 fullShare kk ∗ owns (c : Thread nD τ) arg4 fullShare vv
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare kk ∗ owns (c : Thread nD τ) arg4 fullShare vv
            ∗ owns (c : Thread nD τ) arg5 fullShare (chainB i q kk vv)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2
  obtain rfl := harg3.eq_unread hf3
  obtain rfl := harg4.eq_unread hf4
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (fun y => ⟨_, List.mem_singleton_self _, View.mem_set_unit_zero hz3 inb_S1x512x1024_S1x512x1024_0_0_0 y⟩)).trans ?_
    rw [View.canon_unit_zero hz3]
    symm
    unfold chainB outOf step3 step2 step1 st0 qs word
    sl_unfold_run_names
    simp only [View.readCov_cons_toLoadRect, View.readAt_eq_ld, harg2.read_unread, harg3.read_unread, harg4.read_unread]
  isplitl [H6]; · iapply (owned_of_pt c arg6 _); iexact H6
  isplitl [H7]; · iapply (owned_of_pt c arg7 _); iexact H7
  iapply (owned_of_pt c arg8 _); iexact H8

end Cert.Kernel.Attn

end
-- ==== Proof.KAttnRunC.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import proofs.«176692_j9783935500852_2_alg».proof.Proof.KAttnConds
import proofs.«176692_j9783935500852_2_alg».proof.Proof.KAttnChain
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Query tiles 2 and 3: all four tiles are visited. The body runs to its end leaving the inputs as they were, the output block at the case's chain of tile
    steps over the input blocks, and the scratch buffers at something. -/
theorem runC (c : Dev nD) (i : grid1.Coords) (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S1x512x1024 .f32) (harg8 : arg8.IsWhole)
    (h0 : guard 0#32 i) (h1 : guard 1#32 i) (h2 : guard 2#32 i) (h3 : guard 3#32 i)
    (q : Vec F S1x512x1024 .bf16) (kk vv : Vec F S1x2048x1024 .bf16) (E : Set ℕ) (K : PUnit → sProp 𝕄) :
    iprop(owns (c : Thread nD τ) arg2 fullShare q ∗ owns (c : Thread nD τ) arg3 fullShare kk ∗ owns (c : Thread nD τ) arg4 fullShare vv
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare kk ∗ owns (c : Thread nD τ) arg4 fullShare vv
            ∗ owns (c : Thread nD τ) arg5 fullShare (chainC i q kk vv)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2
  obtain rfl := harg3.eq_unread hf3
  obtain rfl := harg4.eq_unread hf4
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (fun y => ⟨_, List.mem_singleton_self _, View.mem_set_unit_zero hz3 inb_S1x512x1024_S1x512x1024_0_0_0 y⟩)).trans ?_
    rw [View.canon_unit_zero hz3]
    symm
    unfold chainC outOf step4 step3 step2 step1 st0 qs word
    sl_unfold_run_names
    simp only [View.readCov_cons_toLoadRect, View.readAt_eq_ld, harg2.read_unread, harg3.read_unread, harg4.read_unread]
  isplitl [H6]; · iapply (owned_of_pt c arg6 _); iexact H6
  isplitl [H7]; · iapply (owned_of_pt c arg7 _); iexact H7
  iapply (owned_of_pt c arg8 _); iexact H8

end Cert.Kernel.Attn

end
-- ==== Proof.KAttnData.lean ====
/-
  The attention region's proof data. After the body at point t each input's staging buffer holds its block (the
  query block of the point, the key and value blocks of the point's batch) and the output's holds the chain of tile
  steps of the point's control case; the invariant is the scoped buffers no window stages — among them the three scratch
  buffers, which the body overwrites before it reads them — beside the generator register.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import proofs.«176692_j9783935500852_2_alg».proof.Proof.KAttnRunA
import proofs.«176692_j9783935500852_2_alg».proof.Proof.KAttnRunB
import proofs.«176692_j9783935500852_2_alg».proof.Proof.KAttnRunC
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or kept. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A visited tile 3 means a visited tile 2. -/
theorem not_guard3 (t : Fin cfg1.N) (h2 : ¬ guard 2#32 (grid1.coords t)) : ¬ guard 3#32 (grid1.coords t) := fun h3 =>
  h2 ((guard2_iff t).mpr (by have := (guard3_iff t).mp h3; omega))

/-- What the output block holds after the body at point `t`: the chain of tile steps of the point's control case, over
    the point's three input blocks. -/
def outAt (c : Dev nD) (t : Fin cfg1.N) : Vec F S1x512x1024 .f32 :=
  if guard 2#32 (grid1.coords t) then
    if guard 3#32 (grid1.coords t) then chainC (grid1.coords t) (iblk V c 0 t) (iblk V c 1 t) (iblk V c 2 t)
    else chainB (grid1.coords t) (iblk V c 0 t) (iblk V c 1 t) (iblk V c 2 t)
  else chainA (grid1.coords t) (iblk V c 0 t) (iblk V c 1 t) (iblk V c 2 t)

/-- The proof data of the attention pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- A scoped buffer held whole at something is a whole memref owned at something, and back. -/
theorem scratch_in (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩
  iexists f; iexists f; isplitr; · ipureintro; rfl
  iexact H
theorem scratch_out (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩
  iexists f; iexact H

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 2000000 in
/-- The body at any point, by the point's control case: the inputs' buffers hold their blocks and the three scratch
    buffers are lent out of the invariant, so the case's run applies; the scratch buffers go back at something. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3,
    show (dat V c).Φ t.castSucc = Pipeline.ΦA spec1 c from rfl]
  unfold Pipeline.ΦA
  rw [scopedRest1_eq]
  iintro ⟨⟨⟨R0, R1, R2, R3, R4, R5, R6, R7, R8, R9, R10, Hs0, Hs1, Hs2⟩, Hp⟩, Ho, ⟨%d0, H0⟩, ⟨%d1, H1⟩, ⟨%d2, H2⟩, ⟨%d3, H3⟩⟩
  by_cases h2 : guard 2#32 (grid1.coords t)
  · by_cases h3 : guard 3#32 (grid1.coords t)
    · rw [show outAt V c t = chainC (grid1.coords t) (iblk V c 0 t) (iblk V c 1 t) (iblk V c 2 t) from by unfold outAt; rw [if_pos h2, if_pos h3]]
      iapply (runC c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) (guard0 t) (guard1 t) h2 h3 (iblk V c 0 t) (iblk V c 1 t) (iblk V c 2 t) Set.univ _)
      isplitl [H0]; · iexact H0
      isplitl [H1]; · iexact H1
      isplitl [H2]; · iexact H2
      isplitl [H3]; · iexists _; iexact H3
      isplitl [Hs0]; · iapply (scratch_in c cc1_scratch0); iexact Hs0
      isplitl [Hs1]; · iapply (scratch_in c cc1_scratch1); iexact Hs1
      isplitl [Hs2]; · iapply (scratch_in c cc1_scratch2); iexact Hs2
      iintro ⟨H0, H1, H2, H3, Hs0, Hs1, Hs2⟩
      isplitl [R0 R1 R2 R3 R4 R5 R6 R7 R8 R9 R10 Hs0 Hs1 Hs2 Hp]
      · isplitr [Hp]; swap; · iexact Hp
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [Hs0]; · iapply (scratch_out c cc1_scratch0); iexact Hs0
        isplitl [Hs1]; · iapply (scratch_out c cc1_scratch1); iexact Hs1
        iapply (scratch_out c cc1_scratch2); iexact Hs2
      isplitl [Ho]; · iexact Ho
      isplitl [H0]; · iexact H0
      isplitl [H1]; · iexact H1
      isplitl [H2]; · iexact H2
      iexact H3
    · rw [show outAt V c t = chainB (grid1.coords t) (iblk V c 0 t) (iblk V c 1 t) (iblk V c 2 t) from by unfold outAt; rw [if_pos h2, if_neg h3]]
      iapply (runB c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) (guard0 t) (guard1 t) h2 h3 (iblk V c 0 t) (iblk V c 1 t) (iblk V c 2 t) Set.univ _)
      isplitl [H0]; · iexact H0
      isplitl [H1]; · iexact H1
      isplitl [H2]; · iexact H2
      isplitl [H3]; · iexists _; iexact H3
      isplitl [Hs0]; · iapply (scratch_in c cc1_scratch0); iexact Hs0
      isplitl [Hs1]; · iapply (scratch_in c cc1_scratch1); iexact Hs1
      isplitl [Hs2]; · iapply (scratch_in c cc1_scratch2); iexact Hs2
      iintro ⟨H0, H1, H2, H3, Hs0, Hs1, Hs2⟩
      isplitl [R0 R1 R2 R3 R4 R5 R6 R7 R8 R9 R10 Hs0 Hs1 Hs2 Hp]
      · isplitr [Hp]; swap; · iexact Hp
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [Hs0]; · iapply (scratch_out c cc1_scratch0); iexact Hs0
        isplitl [Hs1]; · iapply (scratch_out c cc1_scratch1); iexact Hs1
        iapply (scratch_out c cc1_scratch2); iexact Hs2
      isplitl [Ho]; · iexact Ho
      isplitl [H0]; · iexact H0
      isplitl [H1]; · iexact H1
      isplitl [H2]; · iexact H2
      iexact H3
  · rw [show outAt V c t = chainA (grid1.coords t) (iblk V c 0 t) (iblk V c 1 t) (iblk V c 2 t) from by unfold outAt; rw [if_neg h2]]
    iapply (runA c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) (guard0 t) (guard1 t) h2 (not_guard3 t h2) (iblk V c 0 t) (iblk V c 1 t) (iblk V c 2 t) Set.univ _)
    isplitl [H0]; · iexact H0
    isplitl [H1]; · iexact H1
    isplitl [H2]; · iexact H2
    isplitl [H3]; · iexists _; iexact H3
    isplitl [Hs0]; · iapply (scratch_in c cc1_scratch0); iexact Hs0
    isplitl [Hs1]; · iapply (scratch_in c cc1_scratch1); iexact Hs1
    isplitl [Hs2]; · iapply (scratch_in c cc1_scratch2); iexact Hs2
    iintro ⟨H0, H1, H2, H3, Hs0, Hs1, Hs2⟩
    isplitl [R0 R1 R2 R3 R4 R5 R6 R7 R8 R9 R10 Hs0 Hs1 Hs2 Hp]
    · isplitr [Hp]; swap; · iexact Hp
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [Hs0]; · iapply (scratch_out c cc1_scratch0); iexact Hs0
      isplitl [Hs1]; · iapply (scratch_out c cc1_scratch1); iexact Hs1
      iapply (scratch_out c cc1_scratch2); iexact Hs2
    isplitl [Ho]; · iexact Ho
    isplitl [H0]; · iexact H0
    isplitl [H1]; · iexact H1
    isplitl [H2]; · iexact H2
    iexact H3

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.Kernel.Attn

end
-- ==== Proof.KWholeRun.lean ====
/-
  The whole program's run. @main is four items — seven host operations (three transposes and conversions of the
  weights, the flattening of the input), the projection region, three host reshapes of its outputs, the attention
  region — and the run threads one valuation of the TensorCore's unscoped buffers through them: the launch memory,
  then each host stretch applied, then at each region's exit the region's arrays at what its pipeline leaves and
  every other buffer as it was. Its conclusion: every weakly fair execution from zero counters terminates, nothing
  faulting, with every unscoped buffer at the last valuation. Everything here holds at any float instance.
-/
import proofs.«176692_j9783935500852_2_alg».proof.Proof.Gen.Kernel.Launch
import proofs.«176692_j9783935500852_2_alg».proof.Proof.Gen.Kernel.Skeleton
import proofs.«176692_j9783935500852_2_alg».proof.Proof.Gen.Kernel.Points
import proofs.«176692_j9783935500852_2_alg».proof.Proof.KProjData
import proofs.«176692_j9783935500852_2_alg».proof.Proof.KAttnData
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last valuation, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its windows' arrays
    are split out of the unscoped buffers and put back at the contents the pipeline leaves; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays
    are split out of the unscoped buffers and put back at the contents the pipeline leaves; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Whole

end
-- ==== Proof.KWholeFrame.lean ====
import proofs.«176692_j9783935500852_2_alg».proof.Proof.KWholeRun
import proofs.«176692_j9783935500852_2_alg».proof.Proof.Gen.Kernel.Regions

/-!
The arguments survive the whole program: no host operation writes an argument buffer and no region's window is
over one, so at the last valuation each argument buffer holds what the launch memory held. With the whole run,
every execution ends with the four argument arrays unchanged. This holds at any float instance.
-/

noncomputable section

namespace Cert.Kernel.WholeFrame

open Cert.Kernel Cert.Kernel.Gen Cert.Kernel.Whole
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that neither host stretch writes and that is no window's array of either region holds at the end what
    the launch memory held. -/
theorem W4_of_untouched (c : Dev nD) (r : Ref sig .tc) (h0 : r ∉ (hostOps0_W : List (Ref sig .tc))) (h1 : r ∉ (hostOps1_W : List (Ref sig .tc)))
    (hs0 : ∀ w, Pipeline.arrRef spec0 w ≠ r) (hs1 : ∀ w, Pipeline.arrRef spec1 w ≠ r) :
    W4 m ρ c (Proc.devRef .tc r) = m ((c : Thread nD τ).loc r) :=
  (W4_of_ne m ρ c r hs1).trans <|
    (StableHlo.after_of_writes_sub hostOps1 _ hostOps1_writes h1).trans <|
      (W2_of_ne m ρ c r hs0).trans <|
        (StableHlo.after_of_writes_sub hostOps0 _ hostOps0_writes h0).trans rfl

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)

/-- A TensorCore reference that is not scoped is among the buffers the run's post speaks of. -/
theorem mem_ucRefs (b : Ref sig .tc) (h : ¬ (Proc.devRef (τ := τ) .tc b).isScoped = true) :
    Proc.devRef (τ := τ) .tc b ∈ Pipeline.ucRefs τ sig :=
  Finset.mem_filter.mpr ⟨StableHlo.devRef_mem_tcRefs b, h⟩

/-- Every weakly fair execution from zero counters terminates with the four argument arrays as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c (Proc.devRef .tc main_arg0) (mem_ucRefs main_arg0 (by decide))).trans (W4_main_arg0 m ρ c),
        (h c (Proc.devRef .tc main_arg1) (mem_ucRefs main_arg1 (by decide))).trans (W4_main_arg1 m ρ c),
        (h c (Proc.devRef .tc main_arg2) (mem_ucRefs main_arg2 (by decide))).trans (W4_main_arg2 m ρ c),
        (h c (Proc.devRef .tc main_arg3) (mem_ucRefs main_arg3 (by decide))).trans (W4_main_arg3 m ρ c)⟩)
    (run_all m ρ)

end Cert.Kernel.WholeFrame

end
-- ==== Proof.ProjBody.lean ====
/-
  The projection region (the first kernel call): a grid of 16 points, point t taking rows 512·t … 512·t+511 of the
  flattened input [8192, 1024] and the three transposed weight matrices whole, and leaving in each of three output
  blocks [512, 1024] the product of the row block with one weight matrix. This module states what the body leaves in
  each output block as a function of the input blocks, proves the body's triple by symbolic execution, and packages
  the per-point facts the pipeline's launch theorem takes. Everything here holds at any float instance.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The contents of the TensorCore's buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index has not moved then). One statement per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output block -/

/-- The whole row block [512, 1024] and the whole weight matrix [1024, 1024], as the rectangles the body loads and stores through. -/
abbrev rRows : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0

/-- The query block: the row block times the first weight matrix, stored whole. -/
def outQ (x : Vec F S512x1024 .f32) (w : Vec F S1024x1024 .bf16) : Vec F S512x1024 .bf16 :=
  View.canon [⟨rRows, k0_pay2 (View.ld x rRows) (View.ld w rMat)⟩]
/-- The key block: the row block times the second weight matrix. -/
def outK (x : Vec F S512x1024 .f32) (w : Vec F S1024x1024 .bf16) : Vec F S512x1024 .bf16 :=
  View.canon [⟨rRows, k0_pay3 (View.ld x rRows) (View.ld w rMat)⟩]
/-- The value block: the row block times the third weight matrix. -/
def outV (x : Vec F S512x1024 .f32) (w : Vec F S1024x1024 .bf16) : Vec F S512x1024 .bf16 :=
  View.canon [⟨rRows, k0_pay4 (View.ld x rRows) (View.ld w rMat)⟩]

/-- One store of the whole block covers the block. -/
theorem cover (p : Vec F S512x1024 .bf16) (y : S512x1024.Idx) :
    ∃ pc ∈ ([⟨rRows, p⟩] : List (View.Piece (Elt F) S512x1024 .bf16)), y ∈ pc.1.set :=
  View.cover_of_tiled [⟨rRows, p⟩] S512x1024.size (by rfl) y

/-! ## The body's triple -/

set_option maxHeartbeats 1000000 in
/-- The body, called on whole staging buffers — the four inputs' at known contents, the three outputs' at anything —
    runs to its end leaving the inputs as they were and each output at the product block above. -/
theorem sound_kernel (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x : Vec F S512x1024 .f32) (wq wk wv : Vec F S1024x1024 .bf16) (K : PUnit → sProp 𝕄) :
    iprop(owns (c : Thread nD τ) arg1 fullShare x ∗ owns (c : Thread nD τ) arg2 fullShare wq ∗ owns (c : Thread nD τ) arg3 fullShare wk
        ∗ owns (c : Thread nD τ) arg4 fullShare wv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare wk
            ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _)
  isplitl [H6]
  · iexists _; isplitr
    swap; · iexact H6
    ipureintro
    exact View.read_writes_eq_canon _ _ _ (cover _)
  iexists _; isplitr
  swap; · iexact H7
  ipureintro
  exact View.read_writes_eq_canon _ _ _ (cover _)

end Cert.KernelIdeal.Proj

end
-- ==== Proof.ProjData.lean ====
/-
  The projection region's proof data: the arrays as the region finds them; after the body at point t, each input's
  staging buffer at its block and each output's at the product block of the input blocks; nothing owed, full shares,
  and as invariant the scoped buffers no window stages beside the generator register. And the per-point obligation:
  the body called by the pipeline at point t finds the inputs' blocks and leaves those outputs.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import proofs.«176692_j9783935500852_2_alg».proof.Proof.ProjBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The proof data of the projection pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outQ (iblk V c 0 t) (iblk V c 1 t)
    | ⟨5, _⟩ => outK (iblk V c 0 t) (iblk V c 2 t)
    | ⟨6, _⟩ => outV (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outQ (iblk V c 0 t) (iblk V c 1 t) := by dsimp only [dat]
theorem after_5 (c : Dev nD) (t : Fin cfg0.N) : (dat V c).after 5 t = outK (iblk V c 0 t) (iblk V c 2 t) := by dsimp only [dat]
theorem after_6 (c : Dev nD) (t : Fin cfg0.N) : (dat V c).after 6 t = outV (iblk V c 0 t) (iblk V c 3 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.AttnConds.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The four guards, as the printed scalar chains over the query-tile coordinate -/

/-- Tile j is visited when (query tile) + 1 ≥ j, as the body computes it on 32-bit words. -/
abbrev guard (j : BitVec 32) (i : grid1.Coords) : Prop :=
  (Scalar.cmpi .ne (Scalar.extui (Scalar.cmpi .sge (Scalar.addi (BitVec.ofNat 32 (i 1).val) 1#32) j)) 0#32) = 1#1

/-- Tiles 0 and 1 are visited at every point; tile 2 off query tile 0; tile 3 off query tiles 0 and 1. -/
theorem guard0 : ∀ t : Fin cfg1.N, guard 0#32 (grid1.coords t) := (by decide +kernel : ∀ t : Fin grid1.N, guard 0#32 (grid1.coords t))
theorem guard1 : ∀ t : Fin cfg1.N, guard 1#32 (grid1.coords t) := (by decide +kernel : ∀ t : Fin grid1.N, guard 1#32 (grid1.coords t))
theorem guard2_iff : ∀ t : Fin cfg1.N, guard 2#32 (grid1.coords t) ↔ 1 ≤ t.val % 4 := (by decide +kernel : ∀ t : Fin grid1.N, guard 2#32 (grid1.coords t) ↔ 1 ≤ t.val % 4)
theorem guard3_iff : ∀ t : Fin cfg1.N, guard 3#32 (grid1.coords t) ↔ 2 ≤ t.val % 4 := (by decide +kernel : ∀ t : Fin grid1.N, guard 3#32 (grid1.coords t) ↔ 2 ≤ t.val % 4)

/-- The zero offsets of a rank-three rectangle, however they are spelt. -/
theorem hz3 : (![0, 0, 0] : Fin 3 → Nat) = fun _ => 0 := by funext a; fin_cases a <;> rfl

/-- A memref held at some contents is a memref owned at what those contents read as. -/
theorem owned_of_pt {sp : Space} {sh : Shape} {e : EltTy} (c : Dev nD) (m : Memref sig .tc sp sh e) (f : m.view.ty.Contents (Elt F)) :
    (iprop(m.view.loc (c : Thread nD τ) ↦[m.view.set]{fullShare} f) : sProp 𝕄)
      ⊢ iprop(∃ d, owns (c : Thread nD τ) m fullShare d) := by
  unfold owns
  iintro H
  iexists (m.view.read (Elt F) f); iexists f; isplitr; · ipureintro; rfl
  iexact H

end Cert.KernelIdeal.Attn

end
-- ==== Proof.AttnChain.lean ====
/-
  What the attention body computes, as one term over its three input blocks.

  The body keeps a state (row maximum m, denominator l, numerator acc), starts it at (−∞, 0, 0), and updates it once per
  visited key/value tile of 512 keys: the tile's masked scores against the scaled queries give the new maximum, the
  rescaling factor, the tile's weights, and from them the new denominator and numerator.  The output is the numerator
  divided by the denominator.  Query block qi visits tiles 0 … min (qi + 1, 3): two tiles for qi = 0 (chainA), three
  for qi = 1 (chainB), all four for qi ≥ 2 (chainC).
-/
import proofs.«176692_j9783935500852_2_alg».proof.Proof.Gen.KernelIdeal.Skeleton
import Idealize.ShloMosaic.Lib.Pipeline.FrameBody

noncomputable section

namespace Cert.KernelIdeal.Attn

open Idealize.ShloMosaic Idealize.SL.Sem Cert.KernelIdeal Cert.KernelIdeal.Gen

variable {F : FTy → Type} [FloatOps F] [Named F]

/-- The whole query / output block. -/
abbrev rO : Rect S1x512x1024 := Rect.unit (s := S1x512x1024) ![0, 0, 0] S1x512x1024.size inb_S1x512x1024_S1x512x1024_0_0_0

/-- Key/value tile 0: keys 0 … 511. -/
abbrev rT0 : Rect S1x2048x1024 := Rect.unit (s := S1x2048x1024) ![0, 0, 0] S1x512x1024.size inb_S1x2048x1024_S1x512x1024_0_0_0

/-- Key/value tile 1: keys 512 … 1023. -/
abbrev rT1 : Rect S1x2048x1024 := Rect.unit (s := S1x2048x1024) ![0, 512, 0] S1x512x1024.size inb_S1x2048x1024_S1x512x1024_0_512_0

/-- Key/value tile 2: keys 1024 … 1535. -/
abbrev rT2 : Rect S1x2048x1024 := Rect.unit (s := S1x2048x1024) ![0, 1024, 0] S1x512x1024.size inb_S1x2048x1024_S1x512x1024_0_1024_0

/-- Key/value tile 3: keys 1536 … 2047. -/
abbrev rT3 : Rect S1x2048x1024 := Rect.unit (s := S1x2048x1024) ![0, 1536, 0] S1x512x1024.size inb_S1x2048x1024_S1x512x1024_0_1536_0

/-- The query block's number as a 32-bit word: grid coordinate 1. -/
def word (i : grid1.Coords) : BitVec 32 := BitVec.ofNat 32 (i 1).val

/-- The scaled queries: the loaded query block times 1/√1024. -/
def qs (q : Vec F S1x512x1024 .bf16) : FVec F S1x512x1024 .bf16 := k1_pay33 (View.ld q rO)

/-- The accumulation state: row maximum, denominator, numerator. -/
structure St (F : FTy → Type) where
  m : FVec F S1x512x1 .f32
  l : FVec F S1x512x1 .f32
  acc : FVec F S1x512x1024 .f32

/-- The start state (−∞, 0, 0). -/
def st0 : St F := ⟨k1_pay30, k1_pay31, k1_pay32⟩

/-- The state after key/value tile 0: the new row maximum, the new denominator and the new numerator, from the tile's
    keys kt and values vt and the state before. -/
def step1 (a : BitVec 32) (qs : FVec F S1x512x1024 .bf16) (kt vt : Vec F S1x512x1024 .bf16) (s : St F) : St F :=
  ⟨k1_pay35 (k1_pay8 a qs kt s.m), k1_pay11 a qs kt s.m s.m s.l,
    k1_pay34 (k1_pay6 vt) (k1_pay9 a qs kt s.m s.m) (k1_pay10 a qs kt s.m) s.acc⟩

/-- The state after key/value tile 1: the new row maximum, the new denominator and the new numerator, from the tile's
    keys kt and values vt and the state before. -/
def step2 (a : BitVec 32) (qs : FVec F S1x512x1024 .bf16) (kt vt : Vec F S1x512x1024 .bf16) (s : St F) : St F :=
  ⟨k1_pay37 (k1_pay14 a qs kt s.m), k1_pay17 a qs kt s.m s.m s.l,
    k1_pay36 (k1_pay12 vt) (k1_pay15 a qs kt s.m s.m) (k1_pay16 a qs kt s.m) s.acc⟩

/-- The state after key/value tile 2: the new row maximum, the new denominator and the new numerator, from the tile's
    keys kt and values vt and the state before. -/
def step3 (a : BitVec 32) (qs : FVec F S1x512x1024 .bf16) (kt vt : Vec F S1x512x1024 .bf16) (s : St F) : St F :=
  ⟨k1_pay2 (k1_pay20 a qs kt s.m), k1_pay23 a qs kt s.m s.m s.l,
    k1_pay1 (k1_pay18 vt) (k1_pay21 a qs kt s.m s.m) (k1_pay22 a qs kt s.m) s.acc⟩

/-- The state after key/value tile 3: the new row maximum, the new denominator and the new numerator, from the tile's
    keys kt and values vt and the state before. -/
def step4 (a : BitVec 32) (qs : FVec F S1x512x1024 .bf16) (kt vt : Vec F S1x512x1024 .bf16) (s : St F) : St F :=
  ⟨k1_pay4 (k1_pay26 a qs kt s.m), k1_pay29 a qs kt s.m s.m s.l,
    k1_pay3 (k1_pay24 vt) (k1_pay27 a qs kt s.m s.m) (k1_pay28 a qs kt s.m) s.acc⟩

/-- The output of a state: numerator over denominator. -/
def outOf (s : St F) : FVec F S1x512x1024 .f32 := k1_pay5 s.acc s.l

/-- Query block 0: tiles 0 and 1. -/
def chainA (i : grid1.Coords) (q : Vec F S1x512x1024 .bf16) (kk vv : Vec F S1x2048x1024 .bf16) : FVec F S1x512x1024 .f32 :=
  outOf (step2 (word i) (qs q) (View.ld kk rT1) (View.ld vv rT1)
    (step1 (word i) (qs q) (View.ld kk rT0) (View.ld vv rT0) st0))

/-- Query block 1: tiles 0, 1 and 2. -/
def chainB (i : grid1.Coords) (q : Vec F S1x512x1024 .bf16) (kk vv : Vec F S1x2048x1024 .bf16) : FVec F S1x512x1024 .f32 :=
  outOf (step3 (word i) (qs q) (View.ld kk rT2) (View.ld vv rT2)
    (step2 (word i) (qs q) (View.ld kk rT1) (View.ld vv rT1)
      (step1 (word i) (qs q) (View.ld kk rT0) (View.ld vv rT0) st0)))

/-- Query blocks 2 and 3: all four tiles. -/
def chainC (i : grid1.Coords) (q : Vec F S1x512x1024 .bf16) (kk vv : Vec F S1x2048x1024 .bf16) : FVec F S1x512x1024 .f32 :=
  outOf (step4 (word i) (qs q) (View.ld kk rT3) (View.ld vv rT3)
    (step3 (word i) (qs q) (View.ld kk rT2) (View.ld vv rT2)
      (step2 (word i) (qs q) (View.ld kk rT1) (View.ld vv rT1)
        (step1 (word i) (qs q) (View.ld kk rT0) (View.ld vv rT0) st0))))

end Cert.KernelIdeal.Attn

end
-- ==== Proof.AttnRunA.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import proofs.«176692_j9783935500852_2_alg».proof.Proof.AttnConds
import proofs.«176692_j9783935500852_2_alg».proof.Proof.AttnChain
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Query tile 0: tiles 0 and 1 are visited, tiles 2 and 3 skipped. The body runs to its end leaving the inputs as they were, the output block at the case's chain of tile
    steps over the input blocks, and the scratch buffers at something. -/
theorem runA (c : Dev nD) (i : grid1.Coords) (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S1x512x1024 .f32) (harg8 : arg8.IsWhole)
    (h0 : guard 0#32 i) (h1 : guard 1#32 i) (h2 : ¬ guard 2#32 i) (h3 : ¬ guard 3#32 i)
    (q : Vec F S1x512x1024 .bf16) (kk vv : Vec F S1x2048x1024 .bf16) (E : Set ℕ) (K : PUnit → sProp 𝕄) :
    iprop(owns (c : Thread nD τ) arg2 fullShare q ∗ owns (c : Thread nD τ) arg3 fullShare kk ∗ owns (c : Thread nD τ) arg4 fullShare vv
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare kk ∗ owns (c : Thread nD τ) arg4 fullShare vv
            ∗ owns (c : Thread nD τ) arg5 fullShare (chainA i q kk vv)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2
  obtain rfl := harg3.eq_unread hf3
  obtain rfl := harg4.eq_unread hf4
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (fun y => ⟨_, List.mem_singleton_self _, View.mem_set_unit_zero hz3 inb_S1x512x1024_S1x512x1024_0_0_0 y⟩)).trans ?_
    rw [View.canon_unit_zero hz3]
    symm
    unfold chainA outOf step2 step1 st0 qs word
    sl_unfold_run_names
    simp only [View.readCov_cons_toLoadRect, View.readAt_eq_ld, harg2.read_unread, harg3.read_unread, harg4.read_unread]
  isplitl [H6]; · iapply (owned_of_pt c arg6 _); iexact H6
  isplitl [H7]; · iapply (owned_of_pt c arg7 _); iexact H7
  iapply (owned_of_pt c arg8 _); iexact H8

end Cert.KernelIdeal.Attn

end
-- ==== Proof.AttnRunB.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import proofs.«176692_j9783935500852_2_alg».proof.Proof.AttnConds
import proofs.«176692_j9783935500852_2_alg».proof.Proof.AttnChain
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Query tile 1: tiles 0, 1 and 2 are visited, tile 3 skipped. The body runs to its end leaving the inputs as they were, the output block at the case's chain of tile
    steps over the input blocks, and the scratch buffers at something. -/
theorem runB (c : Dev nD) (i : grid1.Coords) (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S1x512x1024 .f32) (harg8 : arg8.IsWhole)
    (h0 : guard 0#32 i) (h1 : guard 1#32 i) (h2 : guard 2#32 i) (h3 : ¬ guard 3#32 i)
    (q : Vec F S1x512x1024 .bf16) (kk vv : Vec F S1x2048x1024 .bf16) (E : Set ℕ) (K : PUnit → sProp 𝕄) :
    iprop(owns (c : Thread nD τ) arg2 fullShare q ∗ owns (c : Thread nD τ) arg3 fullShare kk ∗ owns (c : Thread nD τ) arg4 fullShare vv
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare kk ∗ owns (c : Thread nD τ) arg4 fullShare vv
            ∗ owns (c : Thread nD τ) arg5 fullShare (chainB i q kk vv)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2
  obtain rfl := harg3.eq_unread hf3
  obtain rfl := harg4.eq_unread hf4
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (fun y => ⟨_, List.mem_singleton_self _, View.mem_set_unit_zero hz3 inb_S1x512x1024_S1x512x1024_0_0_0 y⟩)).trans ?_
    rw [View.canon_unit_zero hz3]
    symm
    unfold chainB outOf step3 step2 step1 st0 qs word
    sl_unfold_run_names
    simp only [View.readCov_cons_toLoadRect, View.readAt_eq_ld, harg2.read_unread, harg3.read_unread, harg4.read_unread]
  isplitl [H6]; · iapply (owned_of_pt c arg6 _); iexact H6
  isplitl [H7]; · iapply (owned_of_pt c arg7 _); iexact H7
  iapply (owned_of_pt c arg8 _); iexact H8

end Cert.KernelIdeal.Attn

end
-- ==== Proof.AttnRunC.lean ====
/-
  The attention region's body, run symbolically in each of its three control cases. The body resets three scratch
  buffers (running maximum, denominator, numerator), then visits the four key tiles of 512 keys in order, tile j only
  when j ≤ (query tile) + 1: tiles 0 and 1 always, tile 2 from query tile 1 on, tile 3 from query tile 2 on; at the
  end it stores numerator / denominator into the output block. Each case's run finds the pieces the output block
  ends with; the scratch buffers end at something.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import proofs.«176692_j9783935500852_2_alg».proof.Proof.AttnConds
import proofs.«176692_j9783935500852_2_alg».proof.Proof.AttnChain
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Query tiles 2 and 3: all four tiles are visited. The body runs to its end leaving the inputs as they were, the output block at the case's chain of tile
    steps over the input blocks, and the scratch buffers at something. -/
theorem runC (c : Dev nD) (i : grid1.Coords) (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S1x512x1024 .f32) (harg8 : arg8.IsWhole)
    (h0 : guard 0#32 i) (h1 : guard 1#32 i) (h2 : guard 2#32 i) (h3 : guard 3#32 i)
    (q : Vec F S1x512x1024 .bf16) (kk vv : Vec F S1x2048x1024 .bf16) (E : Set ℕ) (K : PUnit → sProp 𝕄) :
    iprop(owns (c : Thread nD τ) arg2 fullShare q ∗ owns (c : Thread nD τ) arg3 fullShare kk ∗ owns (c : Thread nD τ) arg4 fullShare vv
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare kk ∗ owns (c : Thread nD τ) arg4 fullShare vv
            ∗ owns (c : Thread nD τ) arg5 fullShare (chainC i q kk vv)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2
  obtain rfl := harg3.eq_unread hf3
  obtain rfl := harg4.eq_unread hf4
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (fun y => ⟨_, List.mem_singleton_self _, View.mem_set_unit_zero hz3 inb_S1x512x1024_S1x512x1024_0_0_0 y⟩)).trans ?_
    rw [View.canon_unit_zero hz3]
    symm
    unfold chainC outOf step4 step3 step2 step1 st0 qs word
    sl_unfold_run_names
    simp only [View.readCov_cons_toLoadRect, View.readAt_eq_ld, harg2.read_unread, harg3.read_unread, harg4.read_unread]
  isplitl [H6]; · iapply (owned_of_pt c arg6 _); iexact H6
  isplitl [H7]; · iapply (owned_of_pt c arg7 _); iexact H7
  iapply (owned_of_pt c arg8 _); iexact H8

end Cert.KernelIdeal.Attn

end
-- ==== Proof.AttnData.lean ====
/-
  The attention region's proof data. After the body at point t each input's staging buffer holds its block (the
  query block of the point, the key and value blocks of the point's batch) and the output's holds the chain of tile
  steps of the point's control case; the invariant is the scoped buffers no window stages — among them the three scratch
  buffers, which the body overwrites before it reads them — beside the generator register.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import proofs.«176692_j9783935500852_2_alg».proof.Proof.AttnRunA
import proofs.«176692_j9783935500852_2_alg».proof.Proof.AttnRunB
import proofs.«176692_j9783935500852_2_alg».proof.Proof.AttnRunC
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or kept. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A visited tile 3 means a visited tile 2. -/
theorem not_guard3 (t : Fin cfg1.N) (h2 : ¬ guard 2#32 (grid1.coords t)) : ¬ guard 3#32 (grid1.coords t) := fun h3 =>
  h2 ((guard2_iff t).mpr (by have := (guard3_iff t).mp h3; omega))

/-- What the output block holds after the body at point `t`: the chain of tile steps of the point's control case, over
    the point's three input blocks. -/
def outAt (c : Dev nD) (t : Fin cfg1.N) : Vec F S1x512x1024 .f32 :=
  if guard 2#32 (grid1.coords t) then
    if guard 3#32 (grid1.coords t) then chainC (grid1.coords t) (iblk V c 0 t) (iblk V c 1 t) (iblk V c 2 t)
    else chainB (grid1.coords t) (iblk V c 0 t) (iblk V c 1 t) (iblk V c 2 t)
  else chainA (grid1.coords t) (iblk V c 0 t) (iblk V c 1 t) (iblk V c 2 t)

/-- The proof data of the attention pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- A scoped buffer held whole at something is a whole memref owned at something, and back. -/
theorem scratch_in (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩
  iexists f; iexists f; isplitr; · ipureintro; rfl
  iexact H
theorem scratch_out (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩
  iexists f; iexact H

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 2000000 in
/-- The body at any point, by the point's control case: the inputs' buffers hold their blocks and the three scratch
    buffers are lent out of the invariant, so the case's run applies; the scratch buffers go back at something. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3,
    show (dat V c).Φ t.castSucc = Pipeline.ΦA spec1 c from rfl]
  unfold Pipeline.ΦA
  rw [scopedRest1_eq]
  iintro ⟨⟨⟨R0, R1, R2, R3, R4, R5, R6, R7, R8, R9, R10, Hs0, Hs1, Hs2⟩, Hp⟩, Ho, ⟨%d0, H0⟩, ⟨%d1, H1⟩, ⟨%d2, H2⟩, ⟨%d3, H3⟩⟩
  by_cases h2 : guard 2#32 (grid1.coords t)
  · by_cases h3 : guard 3#32 (grid1.coords t)
    · rw [show outAt V c t = chainC (grid1.coords t) (iblk V c 0 t) (iblk V c 1 t) (iblk V c 2 t) from by unfold outAt; rw [if_pos h2, if_pos h3]]
      iapply (runC c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) (guard0 t) (guard1 t) h2 h3 (iblk V c 0 t) (iblk V c 1 t) (iblk V c 2 t) Set.univ _)
      isplitl [H0]; · iexact H0
      isplitl [H1]; · iexact H1
      isplitl [H2]; · iexact H2
      isplitl [H3]; · iexists _; iexact H3
      isplitl [Hs0]; · iapply (scratch_in c cc1_scratch0); iexact Hs0
      isplitl [Hs1]; · iapply (scratch_in c cc1_scratch1); iexact Hs1
      isplitl [Hs2]; · iapply (scratch_in c cc1_scratch2); iexact Hs2
      iintro ⟨H0, H1, H2, H3, Hs0, Hs1, Hs2⟩
      isplitl [R0 R1 R2 R3 R4 R5 R6 R7 R8 R9 R10 Hs0 Hs1 Hs2 Hp]
      · isplitr [Hp]; swap; · iexact Hp
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [Hs0]; · iapply (scratch_out c cc1_scratch0); iexact Hs0
        isplitl [Hs1]; · iapply (scratch_out c cc1_scratch1); iexact Hs1
        iapply (scratch_out c cc1_scratch2); iexact Hs2
      isplitl [Ho]; · iexact Ho
      isplitl [H0]; · iexact H0
      isplitl [H1]; · iexact H1
      isplitl [H2]; · iexact H2
      iexact H3
    · rw [show outAt V c t = chainB (grid1.coords t) (iblk V c 0 t) (iblk V c 1 t) (iblk V c 2 t) from by unfold outAt; rw [if_pos h2, if_neg h3]]
      iapply (runB c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) (guard0 t) (guard1 t) h2 h3 (iblk V c 0 t) (iblk V c 1 t) (iblk V c 2 t) Set.univ _)
      isplitl [H0]; · iexact H0
      isplitl [H1]; · iexact H1
      isplitl [H2]; · iexact H2
      isplitl [H3]; · iexists _; iexact H3
      isplitl [Hs0]; · iapply (scratch_in c cc1_scratch0); iexact Hs0
      isplitl [Hs1]; · iapply (scratch_in c cc1_scratch1); iexact Hs1
      isplitl [Hs2]; · iapply (scratch_in c cc1_scratch2); iexact Hs2
      iintro ⟨H0, H1, H2, H3, Hs0, Hs1, Hs2⟩
      isplitl [R0 R1 R2 R3 R4 R5 R6 R7 R8 R9 R10 Hs0 Hs1 Hs2 Hp]
      · isplitr [Hp]; swap; · iexact Hp
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [Hs0]; · iapply (scratch_out c cc1_scratch0); iexact Hs0
        isplitl [Hs1]; · iapply (scratch_out c cc1_scratch1); iexact Hs1
        iapply (scratch_out c cc1_scratch2); iexact Hs2
      isplitl [Ho]; · iexact Ho
      isplitl [H0]; · iexact H0
      isplitl [H1]; · iexact H1
      isplitl [H2]; · iexact H2
      iexact H3
  · rw [show outAt V c t = chainA (grid1.coords t) (iblk V c 0 t) (iblk V c 1 t) (iblk V c 2 t) from by unfold outAt; rw [if_neg h2]]
    iapply (runA c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) (guard0 t) (guard1 t) h2 (not_guard3 t h2) (iblk V c 0 t) (iblk V c 1 t) (iblk V c 2 t) Set.univ _)
    isplitl [H0]; · iexact H0
    isplitl [H1]; · iexact H1
    isplitl [H2]; · iexact H2
    isplitl [H3]; · iexists _; iexact H3
    isplitl [Hs0]; · iapply (scratch_in c cc1_scratch0); iexact Hs0
    isplitl [Hs1]; · iapply (scratch_in c cc1_scratch1); iexact Hs1
    isplitl [Hs2]; · iapply (scratch_in c cc1_scratch2); iexact Hs2
    iintro ⟨H0, H1, H2, H3, Hs0, Hs1, Hs2⟩
    isplitl [R0 R1 R2 R3 R4 R5 R6 R7 R8 R9 R10 Hs0 Hs1 Hs2 Hp]
    · isplitr [Hp]; swap; · iexact Hp
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [Hs0]; · iapply (scratch_out c cc1_scratch0); iexact Hs0
      isplitl [Hs1]; · iapply (scratch_out c cc1_scratch1); iexact Hs1
      iapply (scratch_out c cc1_scratch2); iexact Hs2
    isplitl [Ho]; · iexact Ho
    isplitl [H0]; · iexact H0
    isplitl [H1]; · iexact H1
    isplitl [H2]; · iexact H2
    iexact H3

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Attn

end
-- ==== Proof.WholeRun.lean ====
/-
  The whole program's run. @main is four items — seven host operations (three transposes and conversions of the
  weights, the flattening of the input), the projection region, three host reshapes of its outputs, the attention
  region — and the run threads one valuation of the TensorCore's unscoped buffers through them: the launch memory,
  then each host stretch applied, then at each region's exit the region's arrays at what its pipeline leaves and
  every other buffer as it was. Its conclusion: every weakly fair execution from zero counters terminates, nothing
  faulting, with every unscoped buffer at the last valuation. Everything here holds at any float instance.
-/
import proofs.«176692_j9783935500852_2_alg».proof.Proof.Gen.KernelIdeal.Launch
import proofs.«176692_j9783935500852_2_alg».proof.Proof.Gen.KernelIdeal.Skeleton
import proofs.«176692_j9783935500852_2_alg».proof.Proof.Gen.KernelIdeal.Points
import proofs.«176692_j9783935500852_2_alg».proof.Proof.ProjData
import proofs.«176692_j9783935500852_2_alg».proof.Proof.AttnData
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last valuation, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its windows' arrays
    are split out of the unscoped buffers and put back at the contents the pipeline leaves; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays
    are split out of the unscoped buffers and put back at the contents the pipeline leaves; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.WholeFrame.lean ====
import proofs.«176692_j9783935500852_2_alg».proof.Proof.WholeRun
import proofs.«176692_j9783935500852_2_alg».proof.Proof.Gen.KernelIdeal.Regions

/-!
The arguments survive the whole program: no host operation writes an argument buffer and no region's window is
over one, so at the last valuation each argument buffer holds what the launch memory held. With the whole run,
every execution ends with the four argument arrays unchanged. This holds at any float instance.
-/

noncomputable section

namespace Cert.KernelIdeal.WholeFrame

open Cert.KernelIdeal Cert.KernelIdeal.Gen Cert.KernelIdeal.Whole
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- A buffer that neither host stretch writes and that is no window's array of either region holds at the end what
    the launch memory held. -/
theorem W4_of_untouched (c : Dev nD) (r : Ref sig .tc) (h0 : r ∉ (hostOps0_W : List (Ref sig .tc))) (h1 : r ∉ (hostOps1_W : List (Ref sig .tc)))
    (hs0 : ∀ w, Pipeline.arrRef spec0 w ≠ r) (hs1 : ∀ w, Pipeline.arrRef spec1 w ≠ r) :
    W4 m ρ c (Proc.devRef .tc r) = m ((c : Thread nD τ).loc r) :=
  (W4_of_ne m ρ c r hs1).trans <|
    (StableHlo.after_of_writes_sub hostOps1 _ hostOps1_writes h1).trans <|
      (W2_of_ne m ρ c r hs0).trans <|
        (StableHlo.after_of_writes_sub hostOps0 _ hostOps0_writes h0).trans rfl

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)

/-- A TensorCore reference that is not scoped is among the buffers the run's post speaks of. -/
theorem mem_ucRefs (b : Ref sig .tc) (h : ¬ (Proc.devRef (τ := τ) .tc b).isScoped = true) :
    Proc.devRef (τ := τ) .tc b ∈ Pipeline.ucRefs τ sig :=
  Finset.mem_filter.mpr ⟨StableHlo.devRef_mem_tcRefs b, h⟩

/-- Every weakly fair execution from zero counters terminates with the four argument arrays as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c (Proc.devRef .tc main_arg0) (mem_ucRefs main_arg0 (by decide))).trans (W4_main_arg0 m ρ c),
        (h c (Proc.devRef .tc main_arg1) (mem_ucRefs main_arg1 (by decide))).trans (W4_main_arg1 m ρ c),
        (h c (Proc.devRef .tc main_arg2) (mem_ucRefs main_arg2 (by decide))).trans (W4_main_arg2 m ρ c),
        (h c (Proc.devRef .tc main_arg3) (mem_ucRefs main_arg3 (by decide))).trans (W4_main_arg3 m ρ c)⟩)
    (run_all m ρ)

end Cert.KernelIdeal.WholeFrame

end
-- ==== Proof.LibOnlineSoftmax.lean ====
/-
  The running-shift ("online") softmax accumulation on the extended reals.

  A softmax-weighted sum  ∑ᵢ (exp tᵢ / ∑ₖ exp tₖ) · wᵢ  over a finite set can be accumulated block by block
  while only shifted exponentials are ever formed: keep a shift μ, a denominator  L = ∑ exp (tᵢ − μ)  and a
  numerator  A = ∑ exp (tᵢ − μ) · wᵢ  over the indices seen so far; on a new block choose ANY new finite shift
  μ' (a running maximum is the usual choice, but nothing below uses that it is one), rescale both sums by
  exp (μ − μ') and add the block's terms shifted by μ'; at the end divide.  Multiplying by exp (μ − μ') turns
  every exp (tᵢ − μ) into exp (tᵢ − μ'), so the two sums stay of the same form over the growing set
  (`rescale`, `rescale_weighted`), and the common factor exp (−μ) cancels in the final quotient
  (`normalize_real`).

  The statements are about the ideal float operations on `EReal`: `Ideal.exp` (with exp ⊥ = 0),
  `Ideal.div`, and EReal's own `+`, `-`, `*`.  The logits `t` and the weights `w` are real (finite), which is
  what makes the algebra valid; the start of the accumulation is the state (⊥, _, _): the first rescaling
  factor is exp (⊥ − μ') = 0, and 0 · x = 0 for every extended real x (`first_den`, `first_num`).
-/
import Idealize.ShloMosaic.PureOps.Ideal

noncomputable section

namespace LibOnlineSoftmax

open Idealize.ShloMosaic
open scoped BigOperators

variable {ι : Type*}

/-- The coercion of a finite real sum is the extended-real sum of the coercions. -/
theorem coe_sum (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- exp of a difference of two finite values is the real exponential of the real difference. -/
theorem exp_coe_sub (a b : ℝ) : Ideal.exp ((a : EReal) - (b : EReal)) = ((Real.exp (a - b) : ℝ) : EReal) := by
  rw [← EReal.coe_sub]; rfl

/-- From the empty start (shift ⊥) the rescaling factor towards any finite shift is exp ⊥ = 0. -/
theorem exp_bot_sub (b : ℝ) : Ideal.exp ((⊥ : EReal) - (b : EReal)) = 0 := by
  rw [sub_eq_add_neg, EReal.bot_add]; rfl

/-! ## The real identities -/

/-- Rescaling a sum of exponentials shifted by μ by the factor exp (μ − μ') shifts it by μ' instead. -/
theorem rescale (μ μ' : ℝ) (t : ι → ℝ) (S : Finset ι) :
    Real.exp (μ - μ') * ∑ i ∈ S, Real.exp (t i - μ) = ∑ i ∈ S, Real.exp (t i - μ') := by
  rw [Finset.mul_sum]
  refine Finset.sum_congr rfl fun i _ => ?_
  rw [← Real.exp_add]; congr 1; ring

/-- The same for the weighted sum. -/
theorem rescale_weighted (μ μ' : ℝ) (t w : ι → ℝ) (S : Finset ι) :
    Real.exp (μ - μ') * ∑ i ∈ S, Real.exp (t i - μ) * w i = ∑ i ∈ S, Real.exp (t i - μ') * w i := by
  rw [Finset.mul_sum]
  refine Finset.sum_congr rfl fun i _ => ?_
  rw [← mul_assoc, ← Real.exp_add]; congr 2; ring

/-- The quotient of the two shifted sums does not depend on the shift: it is the softmax-weighted sum. -/
theorem normalize_real (μ : ℝ) (t w : ι → ℝ) (S : Finset ι) :
    (∑ i ∈ S, Real.exp (t i - μ) * w i) / (∑ i ∈ S, Real.exp (t i - μ))
      = ∑ i ∈ S, Real.exp (t i) / (∑ k ∈ S, Real.exp (t k)) * w i := by
  have e : Real.exp (-μ) ≠ 0 := (Real.exp_pos _).ne'
  have hden : ∑ i ∈ S, Real.exp (t i - μ) = (∑ i ∈ S, Real.exp (t i)) * Real.exp (-μ) := by
    rw [Finset.sum_mul]
    exact Finset.sum_congr rfl fun i _ => by rw [sub_eq_add_neg, Real.exp_add]
  have hnum : ∑ i ∈ S, Real.exp (t i - μ) * w i = (∑ i ∈ S, Real.exp (t i) * w i) * Real.exp (-μ) := by
    rw [Finset.sum_mul]
    exact Finset.sum_congr rfl fun i _ => by rw [sub_eq_add_neg, Real.exp_add]; ring
  rw [hden, hnum, mul_div_mul_right _ _ e, Finset.sum_div]
  exact Finset.sum_congr rfl fun i _ => by ring

/-! ## One accumulation step, on the extended reals -/

/-- The denominator after the FIRST block `B`, from the empty start: whatever the stored denominator `x` was,
    the factor exp (⊥ − μ') = 0 annihilates it. -/
theorem first_den (μ' : ℝ) (t : ι → ℝ) (B : Finset ι) (x : EReal) :
    Ideal.exp ((⊥ : EReal) - (μ' : EReal)) * x + ∑ j ∈ B, Ideal.exp ((t j : EReal) - (μ' : EReal))
      = ((∑ j ∈ B, Real.exp (t j - μ') : ℝ) : EReal) := by
  rw [exp_bot_sub, zero_mul, zero_add, coe_sum]
  exact Finset.sum_congr rfl fun j _ => exp_coe_sub _ _

/-- The numerator after the FIRST block. -/
theorem first_num (μ' : ℝ) (t w : ι → ℝ) (B : Finset ι) (x : EReal) :
    Ideal.exp ((⊥ : EReal) - (μ' : EReal)) * x + ∑ j ∈ B, Ideal.exp ((t j : EReal) - (μ' : EReal)) * (w j : EReal)
      = ((∑ j ∈ B, Real.exp (t j - μ') * w j : ℝ) : EReal) := by
  rw [exp_bot_sub, zero_mul, zero_add, coe_sum]
  exact Finset.sum_congr rfl fun j _ => by rw [exp_coe_sub, EReal.coe_mul]

/-- The denominator after a LATER block `B`, disjoint from the indices `S` seen so far: rescaled from the shift μ
    to the shift μ' and extended by the block's terms, it is the sum over `S ∪ B` at the shift μ'. -/
theorem next_den (μ μ' : ℝ) (t : ι → ℝ) [DecidableEq ι] (S B : Finset ι) (h : Disjoint S B) :
    Ideal.exp ((μ : EReal) - (μ' : EReal)) * ((∑ i ∈ S, Real.exp (t i - μ) : ℝ) : EReal)
        + ∑ j ∈ B, Ideal.exp ((t j : EReal) - (μ' : EReal))
      = ((∑ i ∈ S ∪ B, Real.exp (t i - μ') : ℝ) : EReal) := by
  have hB : ∑ j ∈ B, Ideal.exp ((t j : EReal) - (μ' : EReal)) = ((∑ j ∈ B, Real.exp (t j - μ') : ℝ) : EReal) := by
    rw [coe_sum]; exact Finset.sum_congr rfl fun j _ => exp_coe_sub _ _
  rw [hB, exp_coe_sub, ← EReal.coe_mul, rescale, ← EReal.coe_add, Finset.sum_union h]

/-- The numerator after a LATER block. -/
theorem next_num (μ μ' : ℝ) (t w : ι → ℝ) [DecidableEq ι] (S B : Finset ι) (h : Disjoint S B) :
    Ideal.exp ((μ : EReal) - (μ' : EReal)) * ((∑ i ∈ S, Real.exp (t i - μ) * w i : ℝ) : EReal)
        + ∑ j ∈ B, Ideal.exp ((t j : EReal) - (μ' : EReal)) * (w j : EReal)
      = ((∑ i ∈ S ∪ B, Real.exp (t i - μ') * w i : ℝ) : EReal) := by
  have hB : ∑ j ∈ B, Ideal.exp ((t j : EReal) - (μ' : EReal)) * (w j : EReal)
      = ((∑ j ∈ B, Real.exp (t j - μ') * w j : ℝ) : EReal) := by
    rw [coe_sum]; exact Finset.sum_congr rfl fun j _ => by rw [exp_coe_sub, EReal.coe_mul]
  rw [hB, exp_coe_sub, ← EReal.coe_mul, rescale_weighted, ← EReal.coe_add, Finset.sum_union h]

/-! ## The final quotient -/

/-- Dividing the accumulated numerator by the accumulated denominator (over a nonempty set, at any finite shift)
    gives the plain softmax-weighted sum: each weight times exp tᵢ over the sum of all exp tₖ, every operation
    the ideal one on the extended reals. -/
theorem normalize (μ : ℝ) (t w : ι → ℝ) (S : Finset ι) (hS : S.Nonempty) :
    Ideal.div ((∑ i ∈ S, Real.exp (t i - μ) * w i : ℝ) : EReal) ((∑ i ∈ S, Real.exp (t i - μ) : ℝ) : EReal)
      = ∑ i ∈ S, Ideal.div (Ideal.exp (t i : EReal)) (∑ k ∈ S, Ideal.exp (t k : EReal)) * (w i : EReal) := by
  have hZ : (∑ k ∈ S, Real.exp (t k)) ≠ 0 := (Finset.sum_pos (fun i _ => Real.exp_pos _) hS).ne'
  have hZμ : (∑ k ∈ S, Real.exp (t k - μ)) ≠ 0 := (Finset.sum_pos (fun i _ => Real.exp_pos _) hS).ne'
  have hsum : ∑ k ∈ S, Ideal.exp (t k : EReal) = ((∑ k ∈ S, Real.exp (t k) : ℝ) : EReal) := by
    rw [coe_sum]; exact Finset.sum_congr rfl fun k _ => rfl
  have hterm : ∀ i, Ideal.div (Ideal.exp (t i : EReal)) ((∑ k ∈ S, Real.exp (t k) : ℝ) : EReal) * (w i : EReal)
      = ((Real.exp (t i) / (∑ k ∈ S, Real.exp (t k)) * w i : ℝ) : EReal) := fun i => by
    rw [Ideal.div_coe hZ, Ideal.exp_coe, ← EReal.coe_mul, ← EReal.coe_mul, mul_one_div]
  rw [hsum, Ideal.div_coe hZμ, ← EReal.coe_mul, mul_one_div, normalize_real, coe_sum]
  exact Finset.sum_congr rfl fun i _ => (hterm i).symm

end LibOnlineSoftmax

end
-- ==== Proof.LibMaskedSoftmax.lean ====
/-
  The softmax-weighted sum over a MASKED index set, on the extended reals: the one-pass form with the shift
  max (−∞, maxₖ σₖ), and the block-by-block ("online", running-maximum) accumulation, both equal to the plain
  softmax-weighted sum over the unmasked indices.

  Setting.  ι is a finite index type, S ⊆ ι the set of LEGAL indices, t : ι → ℝ the logits and w : ι → ℝ the
  weights.  The masked logit is  σₖ = tₖ for k ∈ S  and  σₖ = −∞ (⊥) for k ∉ S  (IsMasked S t σ).  Everything is
  about the ideal float operations on EReal: Ideal.exp (with exp ⊥ = 0), Ideal.div, and EReal's +, −, *, max.

  Three facts carry the whole file.
   • A masked term vanishes: for a real shift μ, exp (⊥ − μ) = exp ⊥ = 0, so
       ∑_{k ∈ U} exp (σₖ − μ) = ∑_{k ∈ U ∩ S} exp (tₖ − μ)          (sum_exp_masked, and the weighted form),
     a real number.
   • The maximum of the masked logits over U (a fold of max from ⊥) is one of its arguments or ⊥
     (fold_max_masked_cases): it is ⊥ when U has no legal index, and the real number max_{U ∩ S} t otherwise
     (fold_max_masked_eq_bot, fold_max_masked_real).  In particular max (μ, that maximum) is REAL for real μ
     (max_coe_fold_real): once one legal index has been seen the running maximum stays finite for ever, also over
     a block with no legal index.
   • For real shifts the accumulation algebra is the unmasked one (rescale, rescale_weighted of LibOnlineSoftmax).

  The online accumulation.  A state (m, l, a) REPRESENTS the set P of indices seen so far (Represents) when P has a
  legal index and, for some real μ,  m = μ,  l = ∑_{P ∩ S} exp (tₖ − μ),  a = ∑_{P ∩ S} exp (tₖ − μ)·wₖ.  One step
  on a block B disjoint from P:
        m' = max m (max_B σ),   α = exp (m − m'),
        l' = α·l + (0 + ∑_{j ∈ B} exp (σⱼ − m')),     a' = α·a + ∑_{j ∈ B} exp (σⱼ − m')·wⱼ.
  From the start state (⊥, x, y), x and y ARBITRARY, a block with a legal index leads to a state representing B:
  the factor α = exp (⊥ − m') = 0 annihilates whatever x and y are (step_first).  From a state representing P, any
  block B disjoint from P — with or without a legal index — leads to a state representing P ∪ B (step_later): by
  exp (μ − μ')·exp (tₖ − μ) = exp (tₖ − μ') the old sums are re-shifted to the new maximum and the block's legal
  terms are added.  When every legal index has been seen, a / l is the softmax-weighted sum over S (finish): the
  common factor exp (−μ) cancels.

  The one-pass form (reference_form).  With M = max ⊥ (max_U σ) for S ⊆ U, S nonempty, M is real, the denominator
  0 + ∑_{j ∈ U} exp (σⱼ − M) is the positive real L = ∑_S exp (tⱼ − M), a masked term is (0 / L)·w = 0, and a
  legal one is exp (tₖ − M)/L · wₖ; their sum is again the softmax-weighted sum over S.

  finish and reference_form have literally the same right-hand side, so they chain (online_eq_reference).
-/
import Idealize.ShloMosaic.PureOps.Ideal
import proofs.«176692_j9783935500852_2_alg».proof.Proof.LibOnlineSoftmax

noncomputable section

namespace LibMaskedSoftmax

open Idealize.ShloMosaic
open scoped BigOperators

variable {ι : Type*} [DecidableEq ι] {S : Finset ι} {t : ι → ℝ} {σ : ι → EReal}

/-! ## The masked logit -/

/-- σ is the logit t masked outside S: it is t on the legal set S and ⊥ (−∞) elsewhere. -/
def IsMasked (S : Finset ι) (t : ι → ℝ) (σ : ι → EReal) : Prop :=
  ∀ k, σ k = if k ∈ S then ((t k : ℝ) : EReal) else ⊥

/-- The masked logit written as a conditional is masked. -/
theorem isMasked_ite (S : Finset ι) (t : ι → ℝ) :
    IsMasked S t (fun k => if k ∈ S then ((t k : ℝ) : EReal) else ⊥) := fun _ => rfl

/-- To be masked it is enough to be t on S and ⊥ off S. -/
theorem IsMasked.of_cases (hin : ∀ k ∈ S, σ k = ((t k : ℝ) : EReal)) (hout : ∀ k, k ∉ S → σ k = ⊥) :
    IsMasked S t σ := fun k => by
  by_cases hk : k ∈ S
  · rw [if_pos hk]; exact hin k hk
  · rw [if_neg hk]; exact hout k hk

/-- A masked logit at a legal index is the real logit. -/
theorem IsMasked.of_mem (h : IsMasked S t σ) {k : ι} (hk : k ∈ S) : σ k = ((t k : ℝ) : EReal) := by
  rw [h k, if_pos hk]

/-- A masked logit at an illegal index is ⊥. -/
theorem IsMasked.of_not_mem (h : IsMasked S t σ) {k : ι} (hk : k ∉ S) : σ k = ⊥ := by
  rw [h k, if_neg hk]

/-- The exponential of a masked logit shifted by a real: the real exponential at a legal index, 0 at an illegal
    one (exp (⊥ − μ) = exp ⊥ = 0). -/
theorem exp_masked_sub (h : IsMasked S t σ) (μ : ℝ) (k : ι) :
    Ideal.exp (σ k - ((μ : ℝ) : EReal)) = if k ∈ S then ((Real.exp (t k - μ) : ℝ) : EReal) else 0 := by
  by_cases hk : k ∈ S
  · rw [h.of_mem hk, if_pos hk]; exact LibOnlineSoftmax.exp_coe_sub _ _
  · rw [h.of_not_mem hk, if_neg hk]; exact LibOnlineSoftmax.exp_bot_sub _

/-! ## Masked sums -/

/-- The sum over U of the exponentials of the masked logits shifted by a real μ is the REAL sum over the legal
    indices of U: the masked terms are exp (⊥ − μ) = 0. -/
theorem sum_exp_masked (h : IsMasked S t σ) (μ : ℝ) (U : Finset ι) :
    ∑ k ∈ U, Ideal.exp (σ k - ((μ : ℝ) : EReal)) = ((∑ k ∈ U ∩ S, Real.exp (t k - μ) : ℝ) : EReal) := by
  rw [LibOnlineSoftmax.coe_sum, ← Finset.filter_mem_eq_inter, Finset.sum_filter]
  exact Finset.sum_congr rfl fun k _ => exp_masked_sub h μ k

/-- The same for the weighted sum. -/
theorem sum_exp_masked_weighted (h : IsMasked S t σ) (w : ι → ℝ) (μ : ℝ) (U : Finset ι) :
    ∑ k ∈ U, Ideal.exp (σ k - ((μ : ℝ) : EReal)) * ((w k : ℝ) : EReal)
      = ((∑ k ∈ U ∩ S, Real.exp (t k - μ) * w k : ℝ) : EReal) := by
  rw [LibOnlineSoftmax.coe_sum, ← Finset.filter_mem_eq_inter, Finset.sum_filter]
  refine Finset.sum_congr rfl fun k _ => ?_
  rw [exp_masked_sub h μ k]
  by_cases hk : k ∈ S
  · rw [if_pos hk, if_pos hk, EReal.coe_mul]
  · rw [if_neg hk, if_neg hk, zero_mul]

/-! ## The masked maximum -/

/-- The maximum of the masked logits over U, folded from ⊥, is ⊥ or the logit of a legal index of U. -/
theorem fold_max_masked_cases (h : IsMasked S t σ) (U : Finset ι) :
    U.fold max ⊥ σ = ⊥ ∨ ∃ k ∈ U ∩ S, U.fold max ⊥ σ = ((t k : ℝ) : EReal) := by
  induction U using Finset.induction_on with
  | empty => exact Or.inl (Finset.fold_empty)
  | insert a U ha ih =>
    rw [Finset.fold_insert ha]
    rcases max_choice (σ a) (U.fold max ⊥ σ) with e | e
    · rw [e]
      by_cases haS : a ∈ S
      · exact Or.inr ⟨a, Finset.mem_inter.mpr ⟨Finset.mem_insert_self a U, haS⟩, h.of_mem haS⟩
      · exact Or.inl (h.of_not_mem haS)
    · rw [e]
      rcases ih with ih | ⟨k, hk, ih⟩
      · exact Or.inl ih
      · have hk' := Finset.mem_inter.mp hk
        exact Or.inr ⟨k, Finset.mem_inter.mpr ⟨Finset.mem_insert_of_mem hk'.1, hk'.2⟩, ih⟩

/-- Every legal logit of U is below the masked maximum over U. -/
theorem le_fold_max_masked (h : IsMasked S t σ) {U : Finset ι} {k : ι} (hk : k ∈ U ∩ S) :
    ((t k : ℝ) : EReal) ≤ U.fold max ⊥ σ := by
  have hk' := Finset.mem_inter.mp hk
  exact (Finset.le_fold_max _).mpr (Or.inr ⟨k, hk'.1, (h.of_mem hk'.2).ge⟩)

/-- Over a set with no legal index the masked maximum is ⊥. -/
theorem fold_max_masked_eq_bot (h : IsMasked S t σ) {U : Finset ι} (hU : U ∩ S = ∅) :
    U.fold max ⊥ σ = ⊥ := by
  rcases fold_max_masked_cases h U with e | ⟨k, hk, _⟩
  · exact e
  · rw [hU] at hk; simp at hk

/-- Over a set with a legal index the masked maximum is a real number, an upper bound of the legal logits. -/
theorem fold_max_masked_real (h : IsMasked S t σ) {U : Finset ι} (hU : (U ∩ S).Nonempty) :
    ∃ r : ℝ, U.fold max ⊥ σ = ((r : ℝ) : EReal) ∧ ∀ k ∈ U ∩ S, t k ≤ r := by
  rcases fold_max_masked_cases h U with e | ⟨k, _, e⟩
  · obtain ⟨j, hj⟩ := hU
    have hle := le_fold_max_masked h hj
    rw [e, le_bot_iff] at hle
    exact absurd hle (EReal.coe_ne_bot _)
  · refine ⟨t k, e, fun j hj => ?_⟩
    have hle := le_fold_max_masked h hj
    rw [e] at hle
    exact EReal.coe_le_coe_iff.mp hle

/-- The larger of a real number and a masked maximum is a real number: a finite running maximum stays finite,
    whether or not the new block has a legal index. -/
theorem max_coe_fold_real (h : IsMasked S t σ) (μ : ℝ) (B : Finset ι) :
    ∃ μ' : ℝ, max ((μ : ℝ) : EReal) (B.fold max ⊥ σ) = ((μ' : ℝ) : EReal) := by
  rcases max_choice ((μ : ℝ) : EReal) (B.fold max ⊥ σ) with e | e
  · exact ⟨μ, e⟩
  · rcases fold_max_masked_cases h B with e' | ⟨k, _, e'⟩
    · exfalso
      have hle : ((μ : ℝ) : EReal) ≤ ⊥ :=
        calc ((μ : ℝ) : EReal) ≤ max ((μ : ℝ) : EReal) (B.fold max ⊥ σ) := le_max_left _ _
          _ = B.fold max ⊥ σ := e
          _ = ⊥ := e'
      exact EReal.coe_ne_bot _ (le_bot_iff.mp hle)
    · exact ⟨t k, e.trans e'⟩

/-! ## The online accumulation -/

/-- The state (m, l, a) represents the set P of indices seen so far: P has a legal index and, for a real shift μ,
    m = μ, l is the sum of exp (tₖ − μ) over the legal indices of P, and a the same sum weighted by w. -/
def Represents (S : Finset ι) (t w : ι → ℝ) (P : Finset ι) (m l a : EReal) : Prop :=
  (P ∩ S).Nonempty ∧ ∃ μ : ℝ, m = ((μ : ℝ) : EReal)
    ∧ l = ((∑ k ∈ P ∩ S, Real.exp (t k - μ) : ℝ) : EReal)
    ∧ a = ((∑ k ∈ P ∩ S, Real.exp (t k - μ) * w k : ℝ) : EReal)

/-- One step of the denominator at real shifts: the sum over the legal indices of P at the shift μ, rescaled by
    exp (μ − μ'), plus the block's masked terms at the shift μ' (added onto an initial 0), is the sum over the
    legal indices of P ∪ B at the shift μ'. -/
theorem step_den (h : IsMasked S t σ) {P B : Finset ι} (hPB : Disjoint P B) (μ μ' : ℝ) {z : EReal} (hz : z = 0) :
    Ideal.exp (((μ : ℝ) : EReal) - ((μ' : ℝ) : EReal)) * ((∑ k ∈ P ∩ S, Real.exp (t k - μ) : ℝ) : EReal)
        + (z + ∑ j ∈ B, Ideal.exp (σ j - ((μ' : ℝ) : EReal)))
      = ((∑ k ∈ (P ∪ B) ∩ S, Real.exp (t k - μ') : ℝ) : EReal) := by
  have hd : Disjoint (P ∩ S) (B ∩ S) := hPB.mono Finset.inter_subset_left Finset.inter_subset_left
  rw [hz, zero_add, sum_exp_masked h μ' B, LibOnlineSoftmax.exp_coe_sub, ← EReal.coe_mul, LibOnlineSoftmax.rescale,
    ← EReal.coe_add, Finset.union_inter_distrib_right, Finset.sum_union hd]

/-- One step of the numerator at real shifts. -/
theorem step_num (h : IsMasked S t σ) (w : ι → ℝ) {P B : Finset ι} (hPB : Disjoint P B) (μ μ' : ℝ) :
    Ideal.exp (((μ : ℝ) : EReal) - ((μ' : ℝ) : EReal)) * ((∑ k ∈ P ∩ S, Real.exp (t k - μ) * w k : ℝ) : EReal)
        + ∑ j ∈ B, Ideal.exp (σ j - ((μ' : ℝ) : EReal)) * ((w j : ℝ) : EReal)
      = ((∑ k ∈ (P ∪ B) ∩ S, Real.exp (t k - μ') * w k : ℝ) : EReal) := by
  have hd : Disjoint (P ∩ S) (B ∩ S) := hPB.mono Finset.inter_subset_left Finset.inter_subset_left
  rw [sum_exp_masked_weighted h w μ' B, LibOnlineSoftmax.exp_coe_sub, ← EReal.coe_mul,
    LibOnlineSoftmax.rescale_weighted, ← EReal.coe_add, Finset.union_inter_distrib_right, Finset.sum_union hd]

/-- THE FIRST STEP.  From the start state (⊥, x, y) — x and y arbitrary extended reals — one step on a block B
    that has a legal index gives a state representing B: the new maximum m' is real, the rescaling factor is
    exp (⊥ − m') = 0, and 0·x = 0 for every extended real x. -/
theorem step_first (h : IsMasked S t σ) (w : ι → ℝ) {B : Finset ι} (hB : (B ∩ S).Nonempty)
    {x y z m' l' a' : EReal} (hz : z = 0)
    (hm' : m' = max ⊥ (B.fold max ⊥ σ))
    (hl' : l' = Ideal.exp (⊥ - m') * x + (z + ∑ j ∈ B, Ideal.exp (σ j - m')))
    (ha' : a' = Ideal.exp (⊥ - m') * y + ∑ j ∈ B, Ideal.exp (σ j - m') * ((w j : ℝ) : EReal)) :
    Represents S t w B m' l' a' := by
  obtain ⟨r, hr, _⟩ := fold_max_masked_real h hB
  have hm : m' = ((r : ℝ) : EReal) := by rw [hm', hr, max_eq_right bot_le]
  refine ⟨hB, r, hm, ?_, ?_⟩
  · rw [hl', hm, LibOnlineSoftmax.exp_bot_sub, zero_mul, zero_add, hz, zero_add, sum_exp_masked h r B]
  · rw [ha', hm, LibOnlineSoftmax.exp_bot_sub, zero_mul, zero_add, sum_exp_masked_weighted h w r B]

/-- A LATER STEP.  From a state representing P, one step on ANY block B disjoint from P — with or without a legal
    index — gives a state representing P ∪ B. -/
theorem step_later (h : IsMasked S t σ) (w : ι → ℝ) {P B : Finset ι} (hPB : Disjoint P B)
    {m l a z m' l' a' : EReal} (hz : z = 0) (hrep : Represents S t w P m l a)
    (hm' : m' = max m (B.fold max ⊥ σ))
    (hl' : l' = Ideal.exp (m - m') * l + (z + ∑ j ∈ B, Ideal.exp (σ j - m')))
    (ha' : a' = Ideal.exp (m - m') * a + ∑ j ∈ B, Ideal.exp (σ j - m') * ((w j : ℝ) : EReal)) :
    Represents S t w (P ∪ B) m' l' a' := by
  obtain ⟨hne, μ, hm, hl, ha⟩ := hrep
  obtain ⟨μ', hμ'⟩ := max_coe_fold_real h μ B
  have hm'' : m' = ((μ' : ℝ) : EReal) := by rw [hm', hm, hμ']
  refine ⟨hne.mono (Finset.inter_subset_inter Finset.subset_union_left (Finset.Subset.refl S)), μ', hm'', ?_, ?_⟩
  · rw [hl', hm'', hm, hl]; exact step_den h hPB μ μ' hz
  · rw [ha', hm'', hm, ha]; exact step_num h w hPB μ μ'

/-! ## The end of the accumulation -/

/-- THE END.  If the state represents P and every legal index has been seen (P ∩ S = S), the quotient a / l is
    the softmax-weighted sum over the legal indices. -/
theorem finish (w : ι → ℝ) {P : Finset ι} {m l a : EReal} (hrep : Represents S t w P m l a) (hP : P ∩ S = S) :
    Ideal.div a l
      = ∑ i ∈ S, Ideal.div (Ideal.exp ((t i : ℝ) : EReal)) (∑ k ∈ S, Ideal.exp ((t k : ℝ) : EReal))
          * ((w i : ℝ) : EReal) := by
  obtain ⟨hne, μ, _, hl, ha⟩ := hrep
  rw [hP] at hne hl ha
  rw [hl, ha]
  exact LibOnlineSoftmax.normalize μ t w S hne

/-- The same, with "every legal index has been seen" stated as S ⊆ P. -/
theorem finish_of_subset (w : ι → ℝ) {P : Finset ι} {m l a : EReal} (hrep : Represents S t w P m l a)
    (hP : S ⊆ P) :
    Ideal.div a l
      = ∑ i ∈ S, Ideal.div (Ideal.exp ((t i : ℝ) : EReal)) (∑ k ∈ S, Ideal.exp ((t k : ℝ) : EReal))
          * ((w i : ℝ) : EReal) :=
  finish w hrep (Finset.inter_eq_right.mpr hP)

/-! ## The one-pass form -/

/-- THE ONE-PASS FORM over a set U containing the (nonempty) legal set S: with the shift M = max ⊥ (max_U σ) and
    the denominator z + ∑_U exp (σⱼ − M), z = 0, the sum over U of (exp (σₖ − M) / denominator)·wₖ is the
    softmax-weighted sum over the legal indices (a masked term is (0 / L)·w = 0). -/
theorem reference_form (h : IsMasked S t σ) (w : ι → ℝ) {U : Finset ι} (hSU : S ⊆ U) (hS : S.Nonempty)
    {z : EReal} (hz : z = 0) :
    ∑ k ∈ U, Ideal.div (Ideal.exp (σ k - max ⊥ (U.fold max ⊥ σ)))
          (z + ∑ j ∈ U, Ideal.exp (σ j - max ⊥ (U.fold max ⊥ σ))) * ((w k : ℝ) : EReal)
      = ∑ i ∈ S, Ideal.div (Ideal.exp ((t i : ℝ) : EReal)) (∑ k ∈ S, Ideal.exp ((t k : ℝ) : EReal))
          * ((w i : ℝ) : EReal) := by
  have hUS : U ∩ S = S := Finset.inter_eq_right.mpr hSU
  obtain ⟨r, hr, _⟩ := fold_max_masked_real h (U := U) (by rw [hUS]; exact hS)
  have hL : (∑ k ∈ S, Real.exp (t k - r)) ≠ 0 := (Finset.sum_pos (fun i _ => Real.exp_pos _) hS).ne'
  rw [hr, max_eq_right bot_le, hz, zero_add, sum_exp_masked h r U, hUS,
    ← LibOnlineSoftmax.normalize r t w S hS, Ideal.div_coe hL]
  simp only [Ideal.div_coe hL]
  rw [← Finset.sum_subset hSU (fun k _ hk => by rw [exp_masked_sub h r k, if_neg hk, zero_mul, zero_mul]),
    ← EReal.coe_mul, Finset.sum_mul, LibOnlineSoftmax.coe_sum]
  refine Finset.sum_congr rfl fun k hk => ?_
  rw [exp_masked_sub h r k, if_pos hk, ← EReal.coe_mul, ← EReal.coe_mul]
  congr 1; ring

/-- The one-pass form over the whole (finite) index type. -/
theorem reference_form_univ [Fintype ι] (h : IsMasked S t σ) (w : ι → ℝ) (hS : S.Nonempty)
    {z : EReal} (hz : z = 0) :
    ∑ k, Ideal.div (Ideal.exp (σ k - max ⊥ (Finset.univ.fold max ⊥ σ)))
          (z + ∑ j, Ideal.exp (σ j - max ⊥ (Finset.univ.fold max ⊥ σ))) * ((w k : ℝ) : EReal)
      = ∑ i ∈ S, Ideal.div (Ideal.exp ((t i : ℝ) : EReal)) (∑ k ∈ S, Ideal.exp ((t k : ℝ) : EReal))
          * ((w i : ℝ) : EReal) :=
  reference_form h w (Finset.subset_univ S) hS hz

/-- The online accumulation, once every legal index has been seen, equals the one-pass form over the whole index
    type: both are the softmax-weighted sum over the legal indices. -/
theorem online_eq_reference [Fintype ι] (h : IsMasked S t σ) (w : ι → ℝ) {P : Finset ι} {m l a z : EReal}
    (hz : z = 0) (hrep : Represents S t w P m l a) (hP : S ⊆ P) :
    Ideal.div a l
      = ∑ k, Ideal.div (Ideal.exp (σ k - max ⊥ (Finset.univ.fold max ⊥ σ)))
          (z + ∑ j, Ideal.exp (σ j - max ⊥ (Finset.univ.fold max ⊥ σ))) * ((w k : ℝ) : EReal) := by
  have hS : S.Nonempty := by
    have hne := hrep.1
    rwa [Finset.inter_eq_right.mpr hP] at hne
  exact (finish_of_subset w hrep hP).trans (reference_form_univ h w hS hz).symm

end LibMaskedSoftmax

end
-- ==== Proof.AttnMathTiles.lean ====
/-
  The 2048 keys cut into tiles of 512, and one accumulation step read over a tile.

  A tile at offset off is the set of keys off, off + 1, …, off + 511: the image of the embedding c ↦ off + c of Fin 512
  into Fin 2048, so a sum (or a fold of max) over the tile's 512 positions is the sum (fold) over the tile as a set of
  keys.  The keys below a bound c ("seen c") grow by one tile at a time: seen (off + 512) = seen off ∪ tile off, the two
  disjoint.  The keys legal for a query are those up to a bound n ("legal n"); they are all seen once n < c.

  One accumulation step over a tile — new maximum, rescaling factor, weights, new denominator, new numerator — written
  over the tile's 512 positions is the step of the masked online softmax over the tile as a set of keys: from the
  start state it represents the first tile (tile_first), from a state representing a seen set disjoint from the tile
  it represents the union (tile_later).
-/
import Idealize.ShloMosaic.PureOps.Ideal
import proofs.«176692_j9783935500852_2_alg».proof.Proof.LibMaskedSoftmax

noncomputable section

open scoped BigOperators

namespace Cert.KernelIdeal.Attn

open Idealize.ShloMosaic LibMaskedSoftmax

/-- Position c of the tile at offset off, as a key. -/
def emb (off : ℕ) (hoff : off + 512 ≤ 2048) : Fin 512 ↪ Fin 2048 :=
  ⟨fun cc => ⟨off + cc.val, by have := cc.isLt; omega⟩, fun a b hab => Fin.ext (by
    have := congrArg Fin.val hab
    simp only at this
    omega)⟩

/-- The key at position c of the tile is off + c. -/
theorem emb_val (off : ℕ) (hoff : off + 512 ≤ 2048) (cc : Fin 512) : (emb off hoff cc).val = off + cc.val := rfl

/-- The tile at offset off: the keys off … off + 511. -/
def tile (off : ℕ) (hoff : off + 512 ≤ 2048) : Finset (Fin 2048) := Finset.univ.map (emb off hoff)

/-- The keys below c. -/
def seen (c : ℕ) : Finset (Fin 2048) := Finset.univ.filter fun k => k.val < c

/-- The keys up to n. -/
def legal (n : ℕ) : Finset (Fin 2048) := Finset.univ.filter fun k => k.val ≤ n

theorem mem_tile {off : ℕ} {hoff : off + 512 ≤ 2048} {k : Fin 2048} :
    k ∈ tile off hoff ↔ off ≤ k.val ∧ k.val < off + 512 := by
  unfold tile
  rw [Finset.mem_map]
  constructor
  · rintro ⟨cc, _, rfl⟩
    rw [emb_val]
    have := cc.isLt
    omega
  · rintro ⟨h1, h2⟩
    exact ⟨⟨k.val - off, by omega⟩, Finset.mem_univ _, Fin.ext (by rw [emb_val]; show off + (k.val - off) = k.val; omega)⟩

theorem mem_seen {c : ℕ} {k : Fin 2048} : k ∈ seen c ↔ k.val < c := by
  unfold seen; rw [Finset.mem_filter]; exact ⟨fun h => h.2, fun h => ⟨Finset.mem_univ _, h⟩⟩

theorem mem_legal {n : ℕ} {k : Fin 2048} : k ∈ legal n ↔ k.val ≤ n := by
  unfold legal; rw [Finset.mem_filter]; exact ⟨fun h => h.2, fun h => ⟨Finset.mem_univ _, h⟩⟩

/-- A sum over the tile's positions is the sum over the tile. -/
theorem sum_tile {M : Type*} [AddCommMonoid M] (off : ℕ) (hoff : off + 512 ≤ 2048) (f : Fin 2048 → M) :
    ∑ k ∈ tile off hoff, f k = ∑ cc : Fin 512, f (emb off hoff cc) :=
  Finset.sum_map _ _ _

/-- A fold of max over the tile's positions is the fold over the tile. -/
theorem fold_tile (off : ℕ) (hoff : off + 512 ≤ 2048) (f : Fin 2048 → EReal) :
    (tile off hoff).fold max ⊥ f = (Finset.univ : Finset (Fin 512)).fold max ⊥ (fun cc => f (emb off hoff cc)) :=
  Finset.fold_map

/-- The first tile is the keys below 512. -/
theorem tile_zero : tile 0 (by omega) = seen 512 := by
  ext k; rw [mem_tile, mem_seen]; omega

/-- The keys below off + 512 are the keys below off together with the tile at off. -/
theorem seen_union_tile (off : ℕ) (hoff : off + 512 ≤ 2048) : seen off ∪ tile off hoff = seen (off + 512) := by
  ext k; rw [Finset.mem_union, mem_seen, mem_tile, mem_seen]; omega

/-- The keys below off are disjoint from the tile at off. -/
theorem disjoint_seen_tile (off : ℕ) (hoff : off + 512 ≤ 2048) : Disjoint (seen off) (tile off hoff) := by
  rw [Finset.disjoint_left]
  intro k hk hk'
  rw [mem_seen] at hk; rw [mem_tile] at hk'
  omega

/-- Once the bound of the legal keys is below c, every legal key is below c. -/
theorem legal_subset_seen {n c : ℕ} (h : n < c) : legal n ⊆ seen c := by
  intro k hk
  rw [mem_legal] at hk; rw [mem_seen]
  omega

/-- Key 0 is legal and in the first tile. -/
theorem tile_zero_inter_legal_nonempty (n : ℕ) : (tile 0 (by omega) ∩ legal n).Nonempty :=
  ⟨⟨0, by omega⟩, Finset.mem_inter.mpr ⟨mem_tile.mpr ⟨Nat.le_refl _, by show 0 < 0 + 512; omega⟩, mem_legal.mpr (Nat.zero_le _)⟩⟩

variable {S : Finset (Fin 2048)} {t w : Fin 2048 → ℝ} {σ : Fin 2048 → EReal}

/-- The tile's masked maximum and sums over its positions, rewritten over the tile as a set of keys. -/
theorem tile_forms (off : ℕ) (hoff : off + 512 ≤ 2048) (sc pw vt : Fin 512 → EReal) (m' : EReal)
    (hsc : ∀ cc, sc cc = σ (emb off hoff cc))
    (hvt : ∀ cc, vt cc = ((w (emb off hoff cc) : ℝ) : EReal))
    (hpw : ∀ cc, pw cc = Ideal.exp (sc cc - m')) :
    (Finset.univ : Finset (Fin 512)).fold max ⊥ sc = (tile off hoff).fold max ⊥ σ
      ∧ ∑ cc, pw cc = ∑ j ∈ tile off hoff, Ideal.exp (σ j - m')
      ∧ ∑ cc, pw cc * vt cc = ∑ j ∈ tile off hoff, Ideal.exp (σ j - m') * ((w j : ℝ) : EReal) := by
  refine ⟨?_, ?_, ?_⟩
  · rw [fold_tile]
    exact congrArg (fun f : Fin 512 → EReal => (Finset.univ : Finset (Fin 512)).fold max ⊥ f) (funext hsc)
  · rw [sum_tile]; exact Finset.sum_congr rfl fun cc _ => by rw [hpw cc, hsc cc]
  · rw [sum_tile]; exact Finset.sum_congr rfl fun cc _ => by rw [hpw cc, hsc cc, hvt cc]

/-- THE FIRST TILE.  From a state whose maximum is −∞ (denominator and numerator arbitrary), one step over a tile that
    has a legal key gives a state representing the tile. -/
theorem tile_first (h : IsMasked S t σ) (off : ℕ) (hoff : off + 512 ≤ 2048) (hB : (tile off hoff ∩ S).Nonempty)
    (sc pw vt : Fin 512 → EReal) (m l a m' al l' a' : EReal) (hm : m = ⊥)
    (hsc : ∀ cc, sc cc = σ (emb off hoff cc))
    (hvt : ∀ cc, vt cc = ((w (emb off hoff cc) : ℝ) : EReal))
    (hm' : m' = max m ((Finset.univ : Finset (Fin 512)).fold max ⊥ sc))
    (hal : al = Ideal.exp (m - m'))
    (hpw : ∀ cc, pw cc = Ideal.exp (sc cc - m'))
    (hl' : l' = al * l + (0 + ∑ cc, pw cc))
    (ha' : a' = al * a + ∑ cc, pw cc * vt cc) :
    Represents S t w (tile off hoff) m' l' a' := by
  obtain ⟨e1, e2, e3⟩ := tile_forms (w := w) off hoff sc pw vt m' hsc hvt hpw
  refine step_first h w hB (x := l) (y := a) (z := 0) rfl ?_ ?_ ?_
  · rw [hm', hm, e1]
  · rw [hl', hal, hm, e2]
  · rw [ha', hal, hm, e3]

/-- A LATER TILE.  From a state representing a set P of keys disjoint from the tile, one step over the tile — with or
    without a legal key — gives a state representing P together with the tile. -/
theorem tile_later (h : IsMasked S t σ) (off : ℕ) (hoff : off + 512 ≤ 2048) {P : Finset (Fin 2048)}
    (hPB : Disjoint P (tile off hoff))
    (sc pw vt : Fin 512 → EReal) (m l a m' al l' a' : EReal) (hrep : Represents S t w P m l a)
    (hsc : ∀ cc, sc cc = σ (emb off hoff cc))
    (hvt : ∀ cc, vt cc = ((w (emb off hoff cc) : ℝ) : EReal))
    (hm' : m' = max m ((Finset.univ : Finset (Fin 512)).fold max ⊥ sc))
    (hal : al = Ideal.exp (m - m'))
    (hpw : ∀ cc, pw cc = Ideal.exp (sc cc - m'))
    (hl' : l' = al * l + (0 + ∑ cc, pw cc))
    (ha' : a' = al * a + ∑ cc, pw cc * vt cc) :
    Represents S t w (P ∪ tile off hoff) m' l' a' := by
  obtain ⟨e1, e2, e3⟩ := tile_forms (w := w) off hoff sc pw vt m' hsc hvt hpw
  refine step_later h w hPB (z := 0) rfl hrep ?_ ?_ ?_
  · rw [hm', e1]
  · rw [hl', hal, e2]
  · rw [ha', hal, e3]

end Cert.KernelIdeal.Attn

end
-- ==== Proof.PayReadLayout.lean ====
/-
  Layout and integer lemmas for reading a rank-3 tile [m, a, b] at an index.

  • A reduction of an [m, a, b] array over its LAST axis leaves one entry per (u, p): for a sum, the sum of the b
    entries (u, p, ·); for a maximum, the fold of max over them from the initial value.
  • An [m, a] array viewed as the keepdims column [m, a, 1] holds entry (u, p) at (u, p, 0): the row-major position of
    (u, p, z) in [m, a, 1] is (u·a + p)·1 + z = u·a + p.
  • A column [m, a, 1] broadcast to [m, a, b] holds, at (u, p, c), the column's entry (u, p, 0).
  • A signed 32-bit comparison x ≤ y of two words that are the natural numbers a, b < 2³¹ is the comparison a ≤ b.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.Affine

noncomputable section

open scoped BigOperators

namespace Cert.KernelIdeal.PayRead

open Idealize.ShloMosaic Idealize.ShloMosaic.ValueIdx

variable {φ : FTy} {α : Type}

/-- The reduced index (u, p) with coordinate k put back on the reduced last axis is (u, p, k). -/
theorem lift_last {m a b : ℕ} (h : (⟨3, ![m, a, b]⟩ : Shape).Reduces [2] ⟨2, ![m, a]⟩) (u : Fin m) (p : Fin a) (k : Fin b) :
    h.lift (ix2 u p) k = ix3 u p k :=
  funext fun ax => Fin.ext (by match ax with | ⟨0, _⟩ => rfl | ⟨1, _⟩ => rfl | ⟨2, _⟩ => rfl)

/-- A sum over the last axis: the add-reduction of an [m, a, b] array over axis 2, at (u, p). -/
theorem multiReduction_add_last {m a b : ℕ} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (u : Fin m) (p : Fin a) :
    multiReduction .add [2] ⟨2, ![m, a]⟩ src acc h hφ hacc (ix2 u p) = ∑ k : Fin b, src (ix3 u p k) :=
  (Ideal.multiReduction_add_single src acc h hφ hacc (ix2 u p)).trans
    (Finset.sum_congr rfl fun k _ => congrArg src (lift_last h u p k))

/-- A maximum over the last axis: the maximum-reduction of an [m, a, b] array over axis 2, at (u, p), is the fold of
    max from the initial value. -/
theorem multiReduction_maximumf_last {m a b : ℕ} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (u : Fin m) (p : Fin a) :
    multiReduction .maximumf [2] ⟨2, ![m, a]⟩ src acc h hφ hacc (ix2 u p)
      = (Finset.univ : Finset (Fin b)).fold max (Ideal.ofBits φ acc) (fun k => src (ix3 u p k)) :=
  (Ideal.multiReduction_maximumf_single src acc h hφ hacc (ix2 u p)).trans
    (congrArg ((Finset.univ : Finset (Fin b)).fold max (Ideal.ofBits φ acc)) (funext fun k => congrArg src (lift_last h u p k)))

/-- An [m, a] array cast to the column [m, a, 1] reads, at (u, p, z), the operand at (u, p). -/
theorem shapeCast_ma_ma1_apply {m a : ℕ} (x : (⟨2, ![m, a]⟩ : Shape).Idx → α)
    (h : (⟨2, ![m, a]⟩ : Shape).ShapeCasts ⟨3, ![m, a, 1]⟩) (u : Fin m) (p : Fin a) (z : Fin 1) :
    shapeCast ⟨3, ![m, a, 1]⟩ x h (ix3 u p z) = x (ix2 u p) :=
  shapeCast_apply x h _ _ (by
    have hz : z.val = 0 := by omega
    rw [Shape.rowMajor_val_two, Shape.rowMajor_val_three]
    show u.val * a + p.val = (u.val * a + p.val) * 1 + z.val
    rw [hz, Nat.mul_one, Nat.add_zero])

/-- A column [m, a, 1] broadcast to [m, a, b] reads, at (u, p, c), the column's entry (u, p, 0). -/
theorem broadcastTo_ma1_mab_apply {m a b : ℕ} (v : (⟨3, ![m, a, 1]⟩ : Shape).Idx → α)
    (h : (⟨3, ![m, a, 1]⟩ : Shape).Broadcasts ⟨3, ![m, a, b]⟩) (u : Fin m) (p : Fin a) (c : Fin b) :
    broadcastTo ⟨3, ![m, a, b]⟩ v h (ix3 u p c) = v (ix3 u p (0 : Fin 1)) := by
  refine broadcastTo_apply v h (ix3 u p c) (ix3 u p (0 : Fin 1)) fun ax => ?_
  match ax with
  | ⟨0, _⟩ =>
    show u.val = if m = 1 then 0 else u.val
    split
    · have := u.isLt; omega
    · rfl
  | ⟨1, _⟩ =>
    show p.val = if a = 1 then 0 else p.val
    split
    · have := p.isLt; omega
    · rfl
  | ⟨2, _⟩ => rfl

/-- The signed comparison ≤ of two 32-bit words that are natural numbers below 2³¹ is the comparison of the numbers. -/
theorem sle_ofNat (a b : ℕ) (ha : a < 2147483648) (hb : b < 2147483648) :
    IntOp.cmpi .sle (BitVec.ofNat 32 a) (BitVec.ofNat 32 b) = 1#1 ↔ a ≤ b := by
  rw [IntOp.cmpi_sle, BitVec.toInt_eq_toNat_cond, BitVec.toInt_eq_toNat_cond, BitVec.toNat_ofNat, BitVec.toNat_ofNat]
  omega

/-- The f32 pattern 0xFF800000 denotes −∞. -/
theorem ofBits_neg_inf : Ideal.ofBits .f32 0xFF800000#32 = (⊥ : EReal) := by simp [Ideal.ofBits, Ideal.ieee]

/-- The f32 pattern 0 denotes 0. -/
theorem ofBits_zero : Ideal.ofBits .f32 0x00000000#32 = (0 : EReal) := by simp [Ideal.ofBits, Ideal.ieee]

end Cert.KernelIdeal.PayRead

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«176692_j9783935500852_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibBatchMatmul.lean ====
/-
  A batched matrix product: for every batch entry `b`, an `[M, K]` matrix times a `[K, N]` matrix.

  The operands are `[B, M, K]` and `[B, K, N]` arrays, the leading axis of both is the batch axis, and the last axis
  of the left operand is contracted with the middle axis of the right one. Read at `(b, p, q)` the product is the sum
  over `k` of the left operand at `(b, p, k)` times the right operand at `(b, k, q)`: entry `b` of the result depends on
  entry `b` of each operand only.
-/
import Idealize.ShloMosaic.PureOps.Ideal
import Idealize.ShloMosaic.PureOps.Ideal.Laws
import Idealize.ShloMosaic.Lib.ValueIdx
import proofs.«176692_j9783935500852_2_alg».proof.Proof.LibDotSum

noncomputable section

open scoped BigOperators

namespace Idealize.ShloMosaic.LibBatchMatmul

open Idealize.ShloMosaic Idealize.ShloMosaic.ValueIdx

/-- The contraction sum of a `[B, M, K] × [B, K, N]` batched product at `(b, p, q)`, over the contracted coordinate.
    The four facts about the free axes (the batch coordinate and the row of the left operand, the batch coordinate and
    the column of the right operand, are the result's) are read off a program's literal dimension numbers. -/
theorem contr_sum {B M K N : Nat} (D : DotDims ⟨3, ![B, M, K]⟩ ⟨3, ![B, K, N]⟩ ⟨3, ![B, M, N]⟩) (hr : D.contr.rank = 1)
    (hs : D.contr.size ⟨0, by omega⟩ = K) (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (x : (⟨3, ![B, M, K]⟩ : Shape).Idx → EReal) (y : (⟨3, ![B, K, N]⟩ : Shape).Idx → EReal)
    (b : Fin B) (p : Fin M) (q : Fin N) :
    ∑ c : D.contr.Idx, x (D.lhsIdx (ix3 b p q) c) * y (D.rhsIdx (ix3 b p q) c)
      = ∑ k : Fin K, x (ix3 b p k) * y (ix3 b k q) := by
  refine LibDotSum.sum_single D K hr hs x y (ix3 b p q) (fun k => x (ix3 b p k)) (fun k => y (ix3 b k q))
    (fun k => ?_) (fun k => ?_)
  · refine congrArg x (funext fun a => Fin.ext ?_)
    match a with
    | ⟨0, _⟩ => exact hl0 _ _
    | ⟨1, _⟩ => exact hl1 _ _
    | ⟨2, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k
    | ⟨2, _⟩ => exact hr2 _ _

/-- A kernel's batched matrix product into a zero accumulator, at `(b, p, q)`. -/
theorem matmul_zero_apply {B M K N : Nat} {φ₁ φ₂ : FTy} (D : DotDims ⟨3, ![B, M, K]⟩ ⟨3, ![B, K, N]⟩ ⟨3, ![B, M, N]⟩)
    (hr : D.contr.rank = 1) (hs : D.contr.size ⟨0, by omega⟩ = K) (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (prec : Option ContractPrecision) (x : FVec Ideal ⟨3, ![B, M, K]⟩ φ₁) (y : FVec Ideal ⟨3, ![B, K, N]⟩ φ₂)
    (b : Fin B) (p : Fin M) (q : Fin N) :
    FloatOps.matmul D prec x y (constant ⟨3, ![B, M, N]⟩ .f32 0x00000000#32) (ix3 b p q)
      = ∑ k : Fin K, x (ix3 b p k) * y (ix3 b k q) :=
  (Ideal.matmul_constant_zero_apply D prec x y (ix3 b p q)).trans
    (contr_sum D hr hs hlc hrc hl0 hl1 hr0 hr2 x y b p q)

/-- The host's batched `dot_general` of the same shape, at `(b, p, q)`. -/
theorem dotGeneral_apply {B M K N : Nat} {φ₁ φ₂ : FTy} (D : DotDims ⟨3, ![B, M, K]⟩ ⟨3, ![B, K, N]⟩ ⟨3, ![B, M, N]⟩)
    (hr : D.contr.rank = 1) (hs : D.contr.size ⟨0, by omega⟩ = K) (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (prec : Option ContractPrecision) (x : FVec Ideal ⟨3, ![B, M, K]⟩ φ₁) (y : FVec Ideal ⟨3, ![B, K, N]⟩ φ₂)
    (b : Fin B) (p : Fin M) (q : Fin N) :
    Host.dotGeneral D prec x y (ix3 b p q) = ∑ k : Fin K, x (ix3 b p k) * y (ix3 b k q) := by
  simp only [Host.dotGeneral]
  rw [Ideal.dotGeneral_apply]
  exact contr_sum D hr hs hlc hrc hl0 hl1 hr0 hr2 x y b p q

end Idealize.ShloMosaic.LibBatchMatmul

end
-- ==== Proof.LibBatchMatmulNT.lean ====
/-
  A batched matrix product that contracts the LAST axis of BOTH operands, read at an index.

  For `x : [B, M, K]` and `y : [B, N, K]` with the leading axis a batch axis, the product at `(b, p, q)` is
  `∑ₖ x (b, p, k) · y (b, q, k)`: the inner products of row `p` of batch `b` of the left operand with row `q` of the same
  batch of the right one (queries against keys). The four facts about the free axes — the batch coordinate and the row of
  each operand are the result's coordinates — are read off a program's literal dimension numbers.
-/
import Idealize.ShloMosaic.PureOps.Ideal
import Idealize.ShloMosaic.PureOps.Ideal.Laws
import Idealize.ShloMosaic.Lib.ValueIdx
import proofs.«176692_j9783935500852_2_alg».proof.Proof.LibDotSum

noncomputable section

open scoped BigOperators

namespace Idealize.ShloMosaic.LibBatchMatmulNT

open Idealize.ShloMosaic Idealize.ShloMosaic.ValueIdx

/-- The contraction sum of a `[B, M, K] × [B, N, K]` batched product at `(b, p, q)`, over the contracted coordinate. -/
theorem contr_sum {B M N K : Nat} (D : DotDims ⟨3, ![B, M, K]⟩ ⟨3, ![B, N, K]⟩ ⟨3, ![B, M, N]⟩) (hr : D.contr.rank = 1)
    (hs : D.contr.size ⟨0, by omega⟩ = K) (hlc : D.lhsContracting = [2]) (hrc : D.rhsContracting = [2])
    (hl0 : ∀ j q, (D.lhsIdx j q 0).val = (j 0).val) (hl1 : ∀ j q, (D.lhsIdx j q 1).val = (j 1).val)
    (hr0 : ∀ j q, (D.rhsIdx j q 0).val = (j 0).val) (hr1 : ∀ j q, (D.rhsIdx j q 1).val = (j 2).val)
    (x : (⟨3, ![B, M, K]⟩ : Shape).Idx → EReal) (y : (⟨3, ![B, N, K]⟩ : Shape).Idx → EReal)
    (b : Fin B) (p : Fin M) (q : Fin N) :
    ∑ c : D.contr.Idx, x (D.lhsIdx (ix3 b p q) c) * y (D.rhsIdx (ix3 b p q) c)
      = ∑ k : Fin K, x (ix3 b p k) * y (ix3 b q k) := by
  refine LibDotSum.sum_single D K hr hs x y (ix3 b p q) (fun k => x (ix3 b p k)) (fun k => y (ix3 b q k))
    (fun k => ?_) (fun k => ?_)
  · refine congrArg x (funext fun a => Fin.ext ?_)
    match a with
    | ⟨0, _⟩ => exact hl0 _ _
    | ⟨1, _⟩ => exact hl1 _ _
    | ⟨2, _⟩ => exact LibDotSum.lhs_contr_val D K hr hs hlc _ k
  · refine congrArg y (funext fun a => Fin.ext ?_)
    match a with
    | ⟨0, _⟩ => exact hr0 _ _
    | ⟨1, _⟩ => exact hr1 _ _
    | ⟨2, _⟩ => exact LibDotSum.rhs_contr_val D K hr hs hrc _ k

/-- A kernel's batched product of this kind into a zero accumulator, at `(b, p, q)`. -/
theorem matmul_zero_apply {B M N K : Nat} {φ₁ φ₂ : FTy} (D : DotDims ⟨3, ![B, M, K]⟩ ⟨3, ![B, N, K]⟩ ⟨3, ![B, M, N]⟩)
    (hr : D.contr.rank = 1) (hs : D.contr.size ⟨0, by omega⟩ = K) (hlc : D.lhsContracting = [2]) (hrc : D.rhsContracting = [2])
    (hl0 : ∀ j q, (D.lhsIdx j q 0).val = (j 0).val) (hl1 : ∀ j q, (D.lhsIdx j q 1).val = (j 1).val)
    (hr0 : ∀ j q, (D.rhsIdx j q 0).val = (j 0).val) (hr1 : ∀ j q, (D.rhsIdx j q 1).val = (j 2).val)
    (prec : Option ContractPrecision) (x : FVec Ideal ⟨3, ![B, M, K]⟩ φ₁) (y : FVec Ideal ⟨3, ![B, N, K]⟩ φ₂)
    (b : Fin B) (p : Fin M) (q : Fin N) :
    FloatOps.matmul D prec x y (constant ⟨3, ![B, M, N]⟩ .f32 0x00000000#32) (ix3 b p q)
      = ∑ k : Fin K, x (ix3 b p k) * y (ix3 b q k) :=
  (Ideal.matmul_constant_zero_apply D prec x y (ix3 b p q)).trans
    (contr_sum D hr hs hlc hrc hl0 hl1 hr0 hr1 x y b p q)

end Idealize.ShloMosaic.LibBatchMatmulNT

end
-- ==== Proof.PayReadDots.lean ====
/-
  The three matrix products of the kernel, read at an index.

  • projection: a [512, 1024] block times a [1024, 1024] matrix, contracted over the block's columns and the matrix's
    ROWS: at (r, e) the sum over d of x (r, d) · w (d, e);
  • scores: queries [1, 512, 1024] against keys [1, 512, 1024], both contracted over their last axis: at (0, r, c) the
    sum over d of q (0, r, d) · k (0, c, d);
  • weighted values: weights [1, 512, 512] times values [1, 512, 1024], the weights' last axis against the values'
    middle axis: at (0, r, d) the sum over c of p (0, r, c) · v (0, c, d).
  Each follows from the general reading of a one-axis contraction once the record's literal dimension numbers are read
  off: which operand axis follows which result axis.
-/
import proofs.«176692_j9783935500852_2_alg».proof.KernelIdeal
import proofs.«176692_j9783935500852_2_alg».proof.Proof.Gen.KernelIdeal
import proofs.«176692_j9783935500852_2_alg».proof.Proof.LibMatmul2
import proofs.«176692_j9783935500852_2_alg».proof.Proof.LibBatchMatmul
import proofs.«176692_j9783935500852_2_alg».proof.Proof.LibBatchMatmulNT

noncomputable section

open scoped BigOperators

namespace Cert.KernelIdeal.PayRead

open Idealize.ShloMosaic Idealize.ShloMosaic.ValueIdx Cert.KernelIdeal Cert.KernelIdeal.Gen

/-- The projection product at (r, e). -/
theorem matmul_proj_apply {φ₁ φ₂ : FTy} (x : FVec Ideal S512x1024 φ₁) (w : FVec Ideal S1024x1024 φ₂) (r : Fin 512) (e : Fin 1024) :
    FloatOps.matmul dot_S512x1024_S1024x1024_S512x1024_1_0_0_1_n_n none x w (constant S512x1024 .f32 0x00000000#32) (ix2 r e)
      = ∑ d : Fin 1024, x (ix2 r d) * w (ix2 d e) :=
  LibMatmul2.matmul_zero_apply (M := 512) (K := 1024) (N := 1024) dot_S512x1024_S1024x1024_S512x1024_1_0_0_1_n_n rfl rfl rfl rfl
    (fun j q => by
      unfold DotDims.lhsIdx
      rw [dif_neg (show ¬(0 : Fin S512x1024.rank) ∈ dot_S512x1024_S1024x1024_S512x1024_1_0_0_1_n_n.lhsBatch by decide),
        dif_pos (show (0 : Fin S512x1024.rank) ∈ dot_S512x1024_S1024x1024_S512x1024_1_0_0_1_n_n.lhsNonContracting by decide)]
      rfl)
    (fun j q => by
      unfold DotDims.rhsIdx
      rw [dif_neg (show ¬(1 : Fin S1024x1024.rank) ∈ dot_S512x1024_S1024x1024_S512x1024_1_0_0_1_n_n.rhsBatch by decide),
        dif_pos (show (1 : Fin S1024x1024.rank) ∈ dot_S512x1024_S1024x1024_S512x1024_1_0_0_1_n_n.rhsNonContracting by decide)]
      rfl)
    none x w r e

/-- The score product at (0, r, c): the inner product of query row r with key row c. -/
theorem matmul_score_apply {φ₁ φ₂ : FTy} (q : FVec Ideal S1x512x1024 φ₁) (k : FVec Ideal S1x512x1024 φ₂) (r c : Fin 512) :
    FloatOps.matmul dot_S1x512x1024_S1x512x1024_S1x512x512_2_2_1_1_0_0 none q k (constant S1x512x512 .f32 0x00000000#32)
        (ix3 (0 : Fin 1) r c)
      = ∑ d : Fin 1024, q (ix3 (0 : Fin 1) r d) * k (ix3 (0 : Fin 1) c d) :=
  LibBatchMatmulNT.matmul_zero_apply (B := 1) (M := 512) (N := 512) (K := 1024)
    dot_S1x512x1024_S1x512x1024_S1x512x512_2_2_1_1_0_0 rfl rfl rfl rfl
    (fun j q => by
      unfold DotDims.lhsIdx
      rw [dif_pos (show (0 : Fin S1x512x1024.rank) ∈ dot_S1x512x1024_S1x512x1024_S1x512x512_2_2_1_1_0_0.lhsBatch by decide)]
      rfl)
    (fun j q => by
      unfold DotDims.lhsIdx
      rw [dif_neg (show ¬(1 : Fin S1x512x1024.rank) ∈ dot_S1x512x1024_S1x512x1024_S1x512x512_2_2_1_1_0_0.lhsBatch by decide),
        dif_pos (show (1 : Fin S1x512x1024.rank) ∈ dot_S1x512x1024_S1x512x1024_S1x512x512_2_2_1_1_0_0.lhsNonContracting by decide)]
      rfl)
    (fun j q => by
      unfold DotDims.rhsIdx
      rw [dif_pos (show (0 : Fin S1x512x1024.rank) ∈ dot_S1x512x1024_S1x512x1024_S1x512x512_2_2_1_1_0_0.rhsBatch by decide)]
      rfl)
    (fun j q => by
      unfold DotDims.rhsIdx
      rw [dif_neg (show ¬(1 : Fin S1x512x1024.rank) ∈ dot_S1x512x1024_S1x512x1024_S1x512x512_2_2_1_1_0_0.rhsBatch by decide),
        dif_pos (show (1 : Fin S1x512x1024.rank) ∈ dot_S1x512x1024_S1x512x1024_S1x512x512_2_2_1_1_0_0.rhsNonContracting by decide)]
      rfl)
    none q k 0 r c

/-- The weighted-value product at (0, r, d): the weights of row r against column d of the values. -/
theorem matmul_pv_apply {φ₁ φ₂ : FTy} (p : FVec Ideal S1x512x512 φ₁) (v : FVec Ideal S1x512x1024 φ₂) (r : Fin 512) (d : Fin 1024) :
    FloatOps.matmul dot_S1x512x512_S1x512x1024_S1x512x1024_2_1_1_2_0_0 none p v (constant S1x512x1024 .f32 0x00000000#32)
        (ix3 (0 : Fin 1) r d)
      = ∑ c : Fin 512, p (ix3 (0 : Fin 1) r c) * v (ix3 (0 : Fin 1) c d) :=
  LibBatchMatmul.matmul_zero_apply (B := 1) (M := 512) (K := 512) (N := 1024)
    dot_S1x512x512_S1x512x1024_S1x512x1024_2_1_1_2_0_0 rfl rfl rfl rfl
    (fun j q => by
      unfold DotDims.lhsIdx
      rw [dif_pos (show (0 : Fin S1x512x512.rank) ∈ dot_S1x512x512_S1x512x1024_S1x512x1024_2_1_1_2_0_0.lhsBatch by decide)]
      rfl)
    (fun j q => by
      unfold DotDims.lhsIdx
      rw [dif_neg (show ¬(1 : Fin S1x512x512.rank) ∈ dot_S1x512x512_S1x512x1024_S1x512x1024_2_1_1_2_0_0.lhsBatch by decide),
        dif_pos (show (1 : Fin S1x512x512.rank) ∈ dot_S1x512x512_S1x512x1024_S1x512x1024_2_1_1_2_0_0.lhsNonContracting by decide)]
      rfl)
    (fun j q => by
      unfold DotDims.rhsIdx
      rw [dif_pos (show (0 : Fin S1x512x1024.rank) ∈ dot_S1x512x512_S1x512x1024_S1x512x1024_2_1_1_2_0_0.rhsBatch by decide)]
      rfl)
    (fun j q => by
      unfold DotDims.rhsIdx
      rw [dif_neg (show ¬(2 : Fin S1x512x1024.rank) ∈ dot_S1x512x512_S1x512x1024_S1x512x1024_2_1_1_2_0_0.rhsBatch by decide),
        dif_pos (show (2 : Fin S1x512x1024.rank) ∈ dot_S1x512x512_S1x512x1024_S1x512x1024_2_1_1_2_0_0.rhsNonContracting by decide)]
      rfl)
    none p v 0 r d

end Cert.KernelIdeal.PayRead

end
-- ==== Proof.PayReadScore.lean ====
/-
  The masked score tiles of the attention kernel, read at an index.

  Each of the four key tiles (offsets 0, 512, 1024, 1536) computes, for the query block qi (queries 512·qi + r) and the
  tile's keys off + c: the inner product of the scaled query row with the key row, kept where  off + c ≤ 512·qi + r + 1
  and replaced by the masking constant elsewhere.  The comparison is made on 32-bit words built from two iotas, the
  block's base 512·qi and the literals off and 1; all the numbers involved are below 2³¹, so the signed word
  comparison is the comparison of the natural numbers.  The masking constant is named −∞ at the extended reals.
-/
import proofs.«176692_j9783935500852_2_alg».proof.Proof.Gen.KernelIdeal.Skeleton
import proofs.«176692_j9783935500852_2_alg».proof.Proof.PayReadLayout
import proofs.«176692_j9783935500852_2_alg».proof.Proof.PayReadDots

noncomputable section

open scoped BigOperators

namespace Cert.KernelIdeal.PayRead

open Idealize.ShloMosaic Idealize.ShloMosaic.ValueIdx Cert.KernelIdeal Cert.KernelIdeal.Gen

/-- The masking constant is −∞ at the extended reals. -/
theorem neg_big : Named.named (F := Ideal) Cert.KernelIdeal.κ "neg_big" (φ := .f32) 0xFF333332#32 = (⊥ : EReal) :=
  IdealRules.named_const.ideal_named_scalar _ _ _ _ rfl

/-- A select on a one-bit word that is 1 exactly when P holds is the conditional on P. -/
theorem select_mask {c : BitVec 1} {P : Prop} [Decidable P] (h : c = 1#1 ↔ P) (a b : EReal) :
    Scalar.select c a b = if P then a else b := by
  unfold Scalar.select
  exact if_congr h rfl rfl

/-- The mask bit of a tile at (0, r, c): the word comparison  off + c ≤ (512·qi + r) + 1  of the iota sums is the
    comparison of the natural numbers. -/
theorem mask_bit (offW : BitVec 32) (off qi : ℕ) (hoff : offW = BitVec.ofNat 32 off) (hoffb : off ≤ 1536) (hq : qi < 4)
    (r cc : Fin 512) :
    cmpi .sle (addi (broadcast S1x512x512 offW) (iota .tc S1x512x512 32 [2] iota_S1x512x512_d2_w32))
        (addi (addi (broadcast S1x512x512 (Scalar.muli (BitVec.ofNat 32 qi) 512#32))
          (iota .tc S1x512x512 32 [1] iota_S1x512x512_d1_w32)) (broadcast S1x512x512 1#32)) (ix3 (0 : Fin 1) r cc) = 1#1
      ↔ off + cc.val ≤ 512 * qi + r.val + 1 := by
  have e2 : iota .tc S1x512x512 32 [2] iota_S1x512x512_d2_w32 (ix3 (0 : Fin 1) r cc) = BitVec.ofNat 32 cc.val :=
    iota_single_apply .tc S1x512x512 32 2 iota_S1x512x512_d2_w32 (ix3 (0 : Fin 1) r cc)
  have e1 : iota .tc S1x512x512 32 [1] iota_S1x512x512_d1_w32 (ix3 (0 : Fin 1) r cc) = BitVec.ofNat 32 r.val :=
    iota_single_apply .tc S1x512x512 32 1 iota_S1x512x512_d1_w32 (ix3 (0 : Fin 1) r cc)
  have hl : addi (broadcast S1x512x512 offW) (iota .tc S1x512x512 32 [2] iota_S1x512x512_d2_w32) (ix3 (0 : Fin 1) r cc)
      = BitVec.ofNat 32 (off + cc.val) := by
    show offW + iota .tc S1x512x512 32 [2] iota_S1x512x512_d2_w32 (ix3 (0 : Fin 1) r cc) = _
    rw [e2, hoff, BitVec.ofNat_add]
  have hr : addi (addi (broadcast S1x512x512 (Scalar.muli (BitVec.ofNat 32 qi) 512#32))
      (iota .tc S1x512x512 32 [1] iota_S1x512x512_d1_w32)) (broadcast S1x512x512 1#32) (ix3 (0 : Fin 1) r cc)
      = BitVec.ofNat 32 (512 * qi + r.val + 1) := by
    show BitVec.ofNat 32 qi * 512#32 + iota .tc S1x512x512 32 [1] iota_S1x512x512_d1_w32 (ix3 (0 : Fin 1) r cc) + 1#32 = _
    rw [e1, BitVec.ofNat_add, BitVec.ofNat_add, Nat.mul_comm, BitVec.ofNat_mul]
  show IntOp.cmpi .sle _ _ = 1#1 ↔ _
  rw [hl, hr]
  have := r.isLt; have := cc.isLt
  exact sle_ofNat _ _ (by omega) (by omega)

/-- The score product with the key tile passed through a same-shape cast. -/
theorem score_cast (qs kt : FVec Ideal S1x512x1024 .bf16) (h : S1x512x1024.ShapeCasts S1x512x1024) (r cc : Fin 512) :
    matmul dot_S1x512x1024_S1x512x1024_S1x512x512_2_2_1_1_0_0 none qs (shapeCast S1x512x1024 kt h)
        (constant (F := Ideal) S1x512x512 .f32 0x00000000#32) (ix3 (0 : Fin 1) r cc)
      = ∑ d : Fin 1024, qs (ix3 (0 : Fin 1) r d) * kt (ix3 (0 : Fin 1) cc d) :=
  (congrArg (fun k : FVec Ideal S1x512x1024 .bf16 =>
      matmul dot_S1x512x1024_S1x512x1024_S1x512x512_2_2_1_1_0_0 none qs k
        (constant (F := Ideal) S1x512x512 .f32 0x00000000#32) (ix3 (0 : Fin 1) r cc)) (shapeCast_self kt h)).trans
    (matmul_score_apply qs kt r cc)

/-- The masked score tile at key offset 0, at (0, r, c): the inner product of query row r with key row c where key
    0 + c is legal for query 512·qi + r (at most one past it), −∞ elsewhere. -/
theorem pay7_apply (qi : ℕ) (hq : qi < 4) (qs kt : FVec Ideal S1x512x1024 .bf16) (r cc : Fin 512) :
    k1_pay7 (F := Ideal) (BitVec.ofNat 32 qi) qs kt (ix3 (0 : Fin 1) r cc)
      = if 0 + cc.val ≤ 512 * qi + r.val + 1 then ∑ d : Fin 1024, qs (ix3 (0 : Fin 1) r d) * kt (ix3 (0 : Fin 1) cc d) else ⊥ := by
  unfold k1_pay7
  refine (select_mask (mask_bit 0#32 0 qi rfl (by omega) hq r cc) _ _).trans ?_
  exact congrArg₂ (fun a b : EReal => if 0 + cc.val ≤ 512 * qi + r.val + 1 then a else b)
    (score_cast qs kt _ r cc) neg_big

/-- The masked score tile at key offset 512, at (0, r, c): the inner product of query row r with key row c where key
    512 + c is legal for query 512·qi + r (at most one past it), −∞ elsewhere. -/
theorem pay13_apply (qi : ℕ) (hq : qi < 4) (qs kt : FVec Ideal S1x512x1024 .bf16) (r cc : Fin 512) :
    k1_pay13 (F := Ideal) (BitVec.ofNat 32 qi) qs kt (ix3 (0 : Fin 1) r cc)
      = if 512 + cc.val ≤ 512 * qi + r.val + 1 then ∑ d : Fin 1024, qs (ix3 (0 : Fin 1) r d) * kt (ix3 (0 : Fin 1) cc d) else ⊥ := by
  unfold k1_pay13
  refine (select_mask (mask_bit 512#32 512 qi rfl (by omega) hq r cc) _ _).trans ?_
  exact congrArg₂ (fun a b : EReal => if 512 + cc.val ≤ 512 * qi + r.val + 1 then a else b)
    (score_cast qs kt _ r cc) neg_big

/-- The masked score tile at key offset 1024, at (0, r, c): the inner product of query row r with key row c where key
    1024 + c is legal for query 512·qi + r (at most one past it), −∞ elsewhere. -/
theorem pay19_apply (qi : ℕ) (hq : qi < 4) (qs kt : FVec Ideal S1x512x1024 .bf16) (r cc : Fin 512) :
    k1_pay19 (F := Ideal) (BitVec.ofNat 32 qi) qs kt (ix3 (0 : Fin 1) r cc)
      = if 1024 + cc.val ≤ 512 * qi + r.val + 1 then ∑ d : Fin 1024, qs (ix3 (0 : Fin 1) r d) * kt (ix3 (0 : Fin 1) cc d) else ⊥ := by
  unfold k1_pay19
  refine (select_mask (mask_bit 1024#32 1024 qi rfl (by omega) hq r cc) _ _).trans ?_
  exact congrArg₂ (fun a b : EReal => if 1024 + cc.val ≤ 512 * qi + r.val + 1 then a else b)
    (score_cast qs kt _ r cc) neg_big

/-- The masked score tile at key offset 1536, at (0, r, c): the inner product of query row r with key row c where key
    1536 + c is legal for query 512·qi + r (at most one past it), −∞ elsewhere. -/
theorem pay25_apply (qi : ℕ) (hq : qi < 4) (qs kt : FVec Ideal S1x512x1024 .bf16) (r cc : Fin 512) :
    k1_pay25 (F := Ideal) (BitVec.ofNat 32 qi) qs kt (ix3 (0 : Fin 1) r cc)
      = if 1536 + cc.val ≤ 512 * qi + r.val + 1 then ∑ d : Fin 1024, qs (ix3 (0 : Fin 1) r d) * kt (ix3 (0 : Fin 1) cc d) else ⊥ := by
  unfold k1_pay25
  refine (select_mask (mask_bit 1536#32 1536 qi rfl (by omega) hq r cc) _ _).trans ?_
  exact congrArg₂ (fun a b : EReal => if 1536 + cc.val ≤ 512 * qi + r.val + 1 then a else b)
    (score_cast qs kt _ r cc) neg_big

end Cert.KernelIdeal.PayRead

end
-- ==== Proof.PayReadStep.lean ====
/-
  One tile's step of the running-maximum accumulation, read at an index.

  For a tile with masked scores s (0, r, c), the stored row maximum m and the stored denominator l:
    new maximum   M (r)   = max (m (r), max_c s (r, c))         (the row maximum is a fold of max from −∞),
    factor        α (r)   = exp (m' (r) − M (r))                (m' a second read of the stored maximum),
    weights       p (r,c) = exp (s (r, c) − M (r)),
    denominator   l' (r)  = α (r) · l (r) + ∑_c p (r, c).
  The row maximum and the row sum are reductions of the [1, 512, 512] tile over its last axis, kept as the column
  [1, 512, 1]; the new maximum is broadcast back along the tile's last axis.
-/
import proofs.«176692_j9783935500852_2_alg».proof.Proof.Gen.KernelIdeal.Skeleton
import proofs.«176692_j9783935500852_2_alg».proof.Proof.PayReadLayout

noncomputable section

open scoped BigOperators

namespace Cert.KernelIdeal.PayRead

open Idealize.ShloMosaic Idealize.ShloMosaic.ValueIdx Cert.KernelIdeal Cert.KernelIdeal.Gen

/-- The running maximum after this tile, at row r: the larger of the stored maximum and the tile's row maximum (the fold
    of max from −∞ over the tile's 512 masked scores). -/
theorem pay8_apply (arg1 : BitVec 32) (qs kt : FVec Ideal S1x512x1024 .bf16) (m : FVec Ideal S1x512x1 .f32) (r : Fin 512) :
    k1_pay8 (F := Ideal) arg1 qs kt m (ix3 (0 : Fin 1) r (0 : Fin 1))
      = max (m (ix3 (0 : Fin 1) r (0 : Fin 1)))
          ((Finset.univ : Finset (Fin 512)).fold max ⊥ fun cc => k1_pay7 (F := Ideal) arg1 qs kt (ix3 (0 : Fin 1) r cc)) := by
  unfold k1_pay8
  refine (maximumf_apply _ _ _).trans (congrArg (max (m (ix3 (0 : Fin 1) r (0 : Fin 1)))) ?_)
  refine (shapeCast_ma_ma1_apply _ _ (0 : Fin 1) r (0 : Fin 1)).trans ?_
  refine (multiReduction_maximumf_last _ _ _ _ _ (0 : Fin 1) r).trans ?_
  exact congrArg (fun b : EReal => (Finset.univ : Finset (Fin 512)).fold max b
    fun cc => k1_pay7 (F := Ideal) arg1 qs kt (ix3 (0 : Fin 1) r cc)) ofBits_neg_inf

/-- The rescaling factor: the exponential of (the second stored maximum minus the new maximum), at any index. -/
theorem pay9_apply (arg1 : BitVec 32) (qs kt : FVec Ideal S1x512x1024 .bf16) (m m' : FVec Ideal S1x512x1 .f32)
    (i : S1x512x1.Idx) :
    k1_pay9 (F := Ideal) arg1 qs kt m m' i = Ideal.exp (m' i - k1_pay8 (F := Ideal) arg1 qs kt m i) := rfl

/-- The tile's unnormalised weights at (0, r, c): the exponential of the masked score minus the new maximum of row r. -/
theorem pay10_apply (arg1 : BitVec 32) (qs kt : FVec Ideal S1x512x1024 .bf16) (m : FVec Ideal S1x512x1 .f32) (r cc : Fin 512) :
    k1_pay10 (F := Ideal) arg1 qs kt m (ix3 (0 : Fin 1) r cc)
      = Ideal.exp (k1_pay7 (F := Ideal) arg1 qs kt (ix3 (0 : Fin 1) r cc)
          - k1_pay8 (F := Ideal) arg1 qs kt m (ix3 (0 : Fin 1) r (0 : Fin 1))) := by
  unfold k1_pay10
  exact congrArg (fun b : EReal => Ideal.exp (k1_pay7 (F := Ideal) arg1 qs kt (ix3 (0 : Fin 1) r cc) - b))
    (broadcastTo_ma1_mab_apply _ _ (0 : Fin 1) r cc)

/-- The denominator after this tile, at row r: the stored denominator rescaled, plus the sum of the tile's weights. -/
theorem pay11_apply (arg1 : BitVec 32) (qs kt : FVec Ideal S1x512x1024 .bf16) (m m' l : FVec Ideal S1x512x1 .f32) (r : Fin 512) :
    k1_pay11 (F := Ideal) arg1 qs kt m m' l (ix3 (0 : Fin 1) r (0 : Fin 1))
      = k1_pay9 (F := Ideal) arg1 qs kt m m' (ix3 (0 : Fin 1) r (0 : Fin 1)) * l (ix3 (0 : Fin 1) r (0 : Fin 1))
          + ∑ cc : Fin 512, k1_pay10 (F := Ideal) arg1 qs kt m (ix3 (0 : Fin 1) r cc) := by
  unfold k1_pay11
  refine (congrFun (shapeCast_self _ _) _).trans ?_
  refine (addf_apply _ _ _).trans (congrArg (k1_pay9 (F := Ideal) arg1 qs kt m m' (ix3 (0 : Fin 1) r (0 : Fin 1))
    * l (ix3 (0 : Fin 1) r (0 : Fin 1)) + ·) ?_)
  refine (shapeCast_ma_ma1_apply _ _ (0 : Fin 1) r (0 : Fin 1)).trans ?_
  exact multiReduction_add_last _ _ _ _ _ (0 : Fin 1) r

/-- The same with the sum written onto an initial 0. -/
theorem pay11_apply_zero (arg1 : BitVec 32) (qs kt : FVec Ideal S1x512x1024 .bf16) (m m' l : FVec Ideal S1x512x1 .f32) (r : Fin 512) :
    k1_pay11 (F := Ideal) arg1 qs kt m m' l (ix3 (0 : Fin 1) r (0 : Fin 1))
      = k1_pay9 (F := Ideal) arg1 qs kt m m' (ix3 (0 : Fin 1) r (0 : Fin 1)) * l (ix3 (0 : Fin 1) r (0 : Fin 1))
          + (0 + ∑ cc : Fin 512, k1_pay10 (F := Ideal) arg1 qs kt m (ix3 (0 : Fin 1) r cc)) := by
  rw [zero_add]; exact pay11_apply arg1 qs kt m m' l r

/-- The running maximum after this tile, at row r: the larger of the stored maximum and the tile's row maximum (the fold
    of max from −∞ over the tile's 512 masked scores). -/
theorem pay14_apply (arg1 : BitVec 32) (qs kt : FVec Ideal S1x512x1024 .bf16) (m : FVec Ideal S1x512x1 .f32) (r : Fin 512) :
    k1_pay14 (F := Ideal) arg1 qs kt m (ix3 (0 : Fin 1) r (0 : Fin 1))
      = max (m (ix3 (0 : Fin 1) r (0 : Fin 1)))
          ((Finset.univ : Finset (Fin 512)).fold max ⊥ fun cc => k1_pay13 (F := Ideal) arg1 qs kt (ix3 (0 : Fin 1) r cc)) := by
  unfold k1_pay14
  refine (maximumf_apply _ _ _).trans (congrArg (max (m (ix3 (0 : Fin 1) r (0 : Fin 1)))) ?_)
  refine (shapeCast_ma_ma1_apply _ _ (0 : Fin 1) r (0 : Fin 1)).trans ?_
  refine (multiReduction_maximumf_last _ _ _ _ _ (0 : Fin 1) r).trans ?_
  exact congrArg (fun b : EReal => (Finset.univ : Finset (Fin 512)).fold max b
    fun cc => k1_pay13 (F := Ideal) arg1 qs kt (ix3 (0 : Fin 1) r cc)) ofBits_neg_inf

/-- The rescaling factor: the exponential of (the second stored maximum minus the new maximum), at any index. -/
theorem pay15_apply (arg1 : BitVec 32) (qs kt : FVec Ideal S1x512x1024 .bf16) (m m' : FVec Ideal S1x512x1 .f32)
    (i : S1x512x1.Idx) :
    k1_pay15 (F := Ideal) arg1 qs kt m m' i = Ideal.exp (m' i - k1_pay14 (F := Ideal) arg1 qs kt m i) := rfl

/-- The tile's unnormalised weights at (0, r, c): the exponential of the masked score minus the new maximum of row r. -/
theorem pay16_apply (arg1 : BitVec 32) (qs kt : FVec Ideal S1x512x1024 .bf16) (m : FVec Ideal S1x512x1 .f32) (r cc : Fin 512) :
    k1_pay16 (F := Ideal) arg1 qs kt m (ix3 (0 : Fin 1) r cc)
      = Ideal.exp (k1_pay13 (F := Ideal) arg1 qs kt (ix3 (0 : Fin 1) r cc)
          - k1_pay14 (F := Ideal) arg1 qs kt m (ix3 (0 : Fin 1) r (0 : Fin 1))) := by
  unfold k1_pay16
  exact congrArg (fun b : EReal => Ideal.exp (k1_pay13 (F := Ideal) arg1 qs kt (ix3 (0 : Fin 1) r cc) - b))
    (broadcastTo_ma1_mab_apply _ _ (0 : Fin 1) r cc)

/-- The denominator after this tile, at row r: the stored denominator rescaled, plus the sum of the tile's weights. -/
theorem pay17_apply (arg1 : BitVec 32) (qs kt : FVec Ideal S1x512x1024 .bf16) (m m' l : FVec Ideal S1x512x1 .f32) (r : Fin 512) :
    k1_pay17 (F := Ideal) arg1 qs kt m m' l (ix3 (0 : Fin 1) r (0 : Fin 1))
      = k1_pay15 (F := Ideal) arg1 qs kt m m' (ix3 (0 : Fin 1) r (0 : Fin 1)) * l (ix3 (0 : Fin 1) r (0 : Fin 1))
          + ∑ cc : Fin 512, k1_pay16 (F := Ideal) arg1 qs kt m (ix3 (0 : Fin 1) r cc) := by
  unfold k1_pay17
  refine (congrFun (shapeCast_self _ _) _).trans ?_
  refine (addf_apply _ _ _).trans (congrArg (k1_pay15 (F := Ideal) arg1 qs kt m m' (ix3 (0 : Fin 1) r (0 : Fin 1))
    * l (ix3 (0 : Fin 1) r (0 : Fin 1)) + ·) ?_)
  refine (shapeCast_ma_ma1_apply _ _ (0 : Fin 1) r (0 : Fin 1)).trans ?_
  exact multiReduction_add_last _ _ _ _ _ (0 : Fin 1) r

/-- The same with the sum written onto an initial 0. -/
theorem pay17_apply_zero (arg1 : BitVec 32) (qs kt : FVec Ideal S1x512x1024 .bf16) (m m' l : FVec Ideal S1x512x1 .f32) (r : Fin 512) :
    k1_pay17 (F := Ideal) arg1 qs kt m m' l (ix3 (0 : Fin 1) r (0 : Fin 1))
      = k1_pay15 (F := Ideal) arg1 qs kt m m' (ix3 (0 : Fin 1) r (0 : Fin 1)) * l (ix3 (0 : Fin 1) r (0 : Fin 1))
          + (0 + ∑ cc : Fin 512, k1_pay16 (F := Ideal) arg1 qs kt m (ix3 (0 : Fin 1) r cc)) := by
  rw [zero_add]; exact pay17_apply arg1 qs kt m m' l r

/-- The running maximum after this tile, at row r: the larger of the stored maximum and the tile's row maximum (the fold
    of max from −∞ over the tile's 512 masked scores). -/
theorem pay20_apply (arg1 : BitVec 32) (qs kt : FVec Ideal S1x512x1024 .bf16) (m : FVec Ideal S1x512x1 .f32) (r : Fin 512) :
    k1_pay20 (F := Ideal) arg1 qs kt m (ix3 (0 : Fin 1) r (0 : Fin 1))
      = max (m (ix3 (0 : Fin 1) r (0 : Fin 1)))
          ((Finset.univ : Finset (Fin 512)).fold max ⊥ fun cc => k1_pay19 (F := Ideal) arg1 qs kt (ix3 (0 : Fin 1) r cc)) := by
  unfold k1_pay20
  refine (maximumf_apply _ _ _).trans (congrArg (max (m (ix3 (0 : Fin 1) r (0 : Fin 1)))) ?_)
  refine (shapeCast_ma_ma1_apply _ _ (0 : Fin 1) r (0 : Fin 1)).trans ?_
  refine (multiReduction_maximumf_last _ _ _ _ _ (0 : Fin 1) r).trans ?_
  exact congrArg (fun b : EReal => (Finset.univ : Finset (Fin 512)).fold max b
    fun cc => k1_pay19 (F := Ideal) arg1 qs kt (ix3 (0 : Fin 1) r cc)) ofBits_neg_inf

/-- The rescaling factor: the exponential of (the second stored maximum minus the new maximum), at any index. -/
theorem pay21_apply (arg1 : BitVec 32) (qs kt : FVec Ideal S1x512x1024 .bf16) (m m' : FVec Ideal S1x512x1 .f32)
    (i : S1x512x1.Idx) :
    k1_pay21 (F := Ideal) arg1 qs kt m m' i = Ideal.exp (m' i - k1_pay20 (F := Ideal) arg1 qs kt m i) := rfl

/-- The tile's unnormalised weights at (0, r, c): the exponential of the masked score minus the new maximum of row r. -/
theorem pay22_apply (arg1 : BitVec 32) (qs kt : FVec Ideal S1x512x1024 .bf16) (m : FVec Ideal S1x512x1 .f32) (r cc : Fin 512) :
    k1_pay22 (F := Ideal) arg1 qs kt m (ix3 (0 : Fin 1) r cc)
      = Ideal.exp (k1_pay19 (F := Ideal) arg1 qs kt (ix3 (0 : Fin 1) r cc)
          - k1_pay20 (F := Ideal) arg1 qs kt m (ix3 (0 : Fin 1) r (0 : Fin 1))) := by
  unfold k1_pay22
  exact congrArg (fun b : EReal => Ideal.exp (k1_pay19 (F := Ideal) arg1 qs kt (ix3 (0 : Fin 1) r cc) - b))
    (broadcastTo_ma1_mab_apply _ _ (0 : Fin 1) r cc)

/-- The denominator after this tile, at row r: the stored denominator rescaled, plus the sum of the tile's weights. -/
theorem pay23_apply (arg1 : BitVec 32) (qs kt : FVec Ideal S1x512x1024 .bf16) (m m' l : FVec Ideal S1x512x1 .f32) (r : Fin 512) :
    k1_pay23 (F := Ideal) arg1 qs kt m m' l (ix3 (0 : Fin 1) r (0 : Fin 1))
      = k1_pay21 (F := Ideal) arg1 qs kt m m' (ix3 (0 : Fin 1) r (0 : Fin 1)) * l (ix3 (0 : Fin 1) r (0 : Fin 1))
          + ∑ cc : Fin 512, k1_pay22 (F := Ideal) arg1 qs kt m (ix3 (0 : Fin 1) r cc) := by
  unfold k1_pay23
  refine (congrFun (shapeCast_self _ _) _).trans ?_
  refine (addf_apply _ _ _).trans (congrArg (k1_pay21 (F := Ideal) arg1 qs kt m m' (ix3 (0 : Fin 1) r (0 : Fin 1))
    * l (ix3 (0 : Fin 1) r (0 : Fin 1)) + ·) ?_)
  refine (shapeCast_ma_ma1_apply _ _ (0 : Fin 1) r (0 : Fin 1)).trans ?_
  exact multiReduction_add_last _ _ _ _ _ (0 : Fin 1) r

/-- The same with the sum written onto an initial 0. -/
theorem pay23_apply_zero (arg1 : BitVec 32) (qs kt : FVec Ideal S1x512x1024 .bf16) (m m' l : FVec Ideal S1x512x1 .f32) (r : Fin 512) :
    k1_pay23 (F := Ideal) arg1 qs kt m m' l (ix3 (0 : Fin 1) r (0 : Fin 1))
      = k1_pay21 (F := Ideal) arg1 qs kt m m' (ix3 (0 : Fin 1) r (0 : Fin 1)) * l (ix3 (0 : Fin 1) r (0 : Fin 1))
          + (0 + ∑ cc : Fin 512, k1_pay22 (F := Ideal) arg1 qs kt m (ix3 (0 : Fin 1) r cc)) := by
  rw [zero_add]; exact pay23_apply arg1 qs kt m m' l r

/-- The running maximum after this tile, at row r: the larger of the stored maximum and the tile's row maximum (the fold
    of max from −∞ over the tile's 512 masked scores). -/
theorem pay26_apply (arg1 : BitVec 32) (qs kt : FVec Ideal S1x512x1024 .bf16) (m : FVec Ideal S1x512x1 .f32) (r : Fin 512) :
    k1_pay26 (F := Ideal) arg1 qs kt m (ix3 (0 : Fin 1) r (0 : Fin 1))
      = max (m (ix3 (0 : Fin 1) r (0 : Fin 1)))
          ((Finset.univ : Finset (Fin 512)).fold max ⊥ fun cc => k1_pay25 (F := Ideal) arg1 qs kt (ix3 (0 : Fin 1) r cc)) := by
  unfold k1_pay26
  refine (maximumf_apply _ _ _).trans (congrArg (max (m (ix3 (0 : Fin 1) r (0 : Fin 1)))) ?_)
  refine (shapeCast_ma_ma1_apply _ _ (0 : Fin 1) r (0 : Fin 1)).trans ?_
  refine (multiReduction_maximumf_last _ _ _ _ _ (0 : Fin 1) r).trans ?_
  exact congrArg (fun b : EReal => (Finset.univ : Finset (Fin 512)).fold max b
    fun cc => k1_pay25 (F := Ideal) arg1 qs kt (ix3 (0 : Fin 1) r cc)) ofBits_neg_inf

/-- The rescaling factor: the exponential of (the second stored maximum minus the new maximum), at any index. -/
theorem pay27_apply (arg1 : BitVec 32) (qs kt : FVec Ideal S1x512x1024 .bf16) (m m' : FVec Ideal S1x512x1 .f32)
    (i : S1x512x1.Idx) :
    k1_pay27 (F := Ideal) arg1 qs kt m m' i = Ideal.exp (m' i - k1_pay26 (F := Ideal) arg1 qs kt m i) := rfl

/-- The tile's unnormalised weights at (0, r, c): the exponential of the masked score minus the new maximum of row r. -/
theorem pay28_apply (arg1 : BitVec 32) (qs kt : FVec Ideal S1x512x1024 .bf16) (m : FVec Ideal S1x512x1 .f32) (r cc : Fin 512) :
    k1_pay28 (F := Ideal) arg1 qs kt m (ix3 (0 : Fin 1) r cc)
      = Ideal.exp (k1_pay25 (F := Ideal) arg1 qs kt (ix3 (0 : Fin 1) r cc)
          - k1_pay26 (F := Ideal) arg1 qs kt m (ix3 (0 : Fin 1) r (0 : Fin 1))) := by
  unfold k1_pay28
  exact congrArg (fun b : EReal => Ideal.exp (k1_pay25 (F := Ideal) arg1 qs kt (ix3 (0 : Fin 1) r cc) - b))
    (broadcastTo_ma1_mab_apply _ _ (0 : Fin 1) r cc)

/-- The denominator after this tile, at row r: the stored denominator rescaled, plus the sum of the tile's weights. -/
theorem pay29_apply (arg1 : BitVec 32) (qs kt : FVec Ideal S1x512x1024 .bf16) (m m' l : FVec Ideal S1x512x1 .f32) (r : Fin 512) :
    k1_pay29 (F := Ideal) arg1 qs kt m m' l (ix3 (0 : Fin 1) r (0 : Fin 1))
      = k1_pay27 (F := Ideal) arg1 qs kt m m' (ix3 (0 : Fin 1) r (0 : Fin 1)) * l (ix3 (0 : Fin 1) r (0 : Fin 1))
          + ∑ cc : Fin 512, k1_pay28 (F := Ideal) arg1 qs kt m (ix3 (0 : Fin 1) r cc) := by
  unfold k1_pay29
  refine (congrFun (shapeCast_self _ _) _).trans ?_
  refine (addf_apply _ _ _).trans (congrArg (k1_pay27 (F := Ideal) arg1 qs kt m m' (ix3 (0 : Fin 1) r (0 : Fin 1))
    * l (ix3 (0 : Fin 1) r (0 : Fin 1)) + ·) ?_)
  refine (shapeCast_ma_ma1_apply _ _ (0 : Fin 1) r (0 : Fin 1)).trans ?_
  exact multiReduction_add_last _ _ _ _ _ (0 : Fin 1) r

/-- The same with the sum written onto an initial 0. -/
theorem pay29_apply_zero (arg1 : BitVec 32) (qs kt : FVec Ideal S1x512x1024 .bf16) (m m' l : FVec Ideal S1x512x1 .f32) (r : Fin 512) :
    k1_pay29 (F := Ideal) arg1 qs kt m m' l (ix3 (0 : Fin 1) r (0 : Fin 1))
      = k1_pay27 (F := Ideal) arg1 qs kt m m' (ix3 (0 : Fin 1) r (0 : Fin 1)) * l (ix3 (0 : Fin 1) r (0 : Fin 1))
          + (0 + ∑ cc : Fin 512, k1_pay28 (F := Ideal) arg1 qs kt m (ix3 (0 : Fin 1) r cc)) := by
  rw [zero_add]; exact pay29_apply arg1 qs kt m m' l r

end Cert.KernelIdeal.PayRead

end
-- ==== Proof.PayReadAcc.lean ====
/-
  The remaining values of the attention kernel, read at an index: the numerator's step, the values passed through
  same-shape casts, the final quotient, the start state, and the scaled query.

    numerator   a' (r, d) = α (r) · a (r, d) + ∑_c p (r, c) · v (c, d)      (weights times the value tile),
    quotient    out (r, d) = a (r, d) / l (r)                                (the denominator column broadcast),
    start       m = −∞ (pattern 0xFF800000), l = 0, a = 0,
    query       q (r, d) · 2⁻⁵   (the bf16 pattern 0x3D00 is 1/32 = 1/√1024).
-/
import proofs.«176692_j9783935500852_2_alg».proof.Proof.Gen.KernelIdeal.Skeleton
import proofs.«176692_j9783935500852_2_alg».proof.Proof.PayReadLayout
import proofs.«176692_j9783935500852_2_alg».proof.Proof.PayReadDots

noncomputable section

open scoped BigOperators

namespace Cert.KernelIdeal.PayRead

open Idealize.ShloMosaic Idealize.ShloMosaic.ValueIdx Cert.KernelIdeal Cert.KernelIdeal.Gen

/-! ## The numerator -/

/-- The numerator after a tile, at (0, r, d): the stored numerator rescaled by the row's factor, plus the tile's weights
    against column d of the value tile. -/
theorem pay34_apply (vt : FVec Ideal S1x512x1024 .bf16) (al : FVec Ideal S1x512x1 .f32) (p : FVec Ideal S1x512x512 .f32)
    (acc : FVec Ideal S1x512x1024 .f32) (r : Fin 512) (d : Fin 1024) :
    k1_pay34 (F := Ideal) vt al p acc (ix3 (0 : Fin 1) r d)
      = al (ix3 (0 : Fin 1) r (0 : Fin 1)) * acc (ix3 (0 : Fin 1) r d)
          + ∑ cc : Fin 512, p (ix3 (0 : Fin 1) r cc) * vt (ix3 (0 : Fin 1) cc d) := by
  unfold k1_pay34
  refine (congrFun (shapeCast_self _ _) _).trans ?_
  refine (addf_apply _ _ _).trans (congrArg₂ (· + ·) ?_ ?_)
  · exact (mulf_apply _ _ _).trans (congrArg (· * acc (ix3 (0 : Fin 1) r d)) (broadcastTo_ma1_mab_apply _ _ (0 : Fin 1) r d))
  · exact (matmul_pv_apply _ vt r d).trans (Finset.sum_congr rfl fun c _ => rfl)

/-- The numerator after a tile, at (0, r, d): the stored numerator rescaled by the row's factor, plus the tile's weights
    against column d of the value tile. -/
theorem pay36_apply (vt : FVec Ideal S1x512x1024 .bf16) (al : FVec Ideal S1x512x1 .f32) (p : FVec Ideal S1x512x512 .f32)
    (acc : FVec Ideal S1x512x1024 .f32) (r : Fin 512) (d : Fin 1024) :
    k1_pay36 (F := Ideal) vt al p acc (ix3 (0 : Fin 1) r d)
      = al (ix3 (0 : Fin 1) r (0 : Fin 1)) * acc (ix3 (0 : Fin 1) r d)
          + ∑ cc : Fin 512, p (ix3 (0 : Fin 1) r cc) * vt (ix3 (0 : Fin 1) cc d) := by
  unfold k1_pay36
  refine (congrFun (shapeCast_self _ _) _).trans ?_
  refine (addf_apply _ _ _).trans (congrArg₂ (· + ·) ?_ ?_)
  · exact (mulf_apply _ _ _).trans (congrArg (· * acc (ix3 (0 : Fin 1) r d)) (broadcastTo_ma1_mab_apply _ _ (0 : Fin 1) r d))
  · exact (matmul_pv_apply _ vt r d).trans (Finset.sum_congr rfl fun c _ => rfl)

/-- The numerator after a tile, at (0, r, d): the stored numerator rescaled by the row's factor, plus the tile's weights
    against column d of the value tile. -/
theorem pay1_apply (vt : FVec Ideal S1x512x1024 .bf16) (al : FVec Ideal S1x512x1 .f32) (p : FVec Ideal S1x512x512 .f32)
    (acc : FVec Ideal S1x512x1024 .f32) (r : Fin 512) (d : Fin 1024) :
    k1_pay1 (F := Ideal) vt al p acc (ix3 (0 : Fin 1) r d)
      = al (ix3 (0 : Fin 1) r (0 : Fin 1)) * acc (ix3 (0 : Fin 1) r d)
          + ∑ cc : Fin 512, p (ix3 (0 : Fin 1) r cc) * vt (ix3 (0 : Fin 1) cc d) := by
  unfold k1_pay1
  refine (congrFun (shapeCast_self _ _) _).trans ?_
  refine (addf_apply _ _ _).trans (congrArg₂ (· + ·) ?_ ?_)
  · exact (mulf_apply _ _ _).trans (congrArg (· * acc (ix3 (0 : Fin 1) r d)) (broadcastTo_ma1_mab_apply _ _ (0 : Fin 1) r d))
  · exact (matmul_pv_apply _ vt r d).trans (Finset.sum_congr rfl fun c _ => rfl)

/-- The numerator after a tile, at (0, r, d): the stored numerator rescaled by the row's factor, plus the tile's weights
    against column d of the value tile. -/
theorem pay3_apply (vt : FVec Ideal S1x512x1024 .bf16) (al : FVec Ideal S1x512x1 .f32) (p : FVec Ideal S1x512x512 .f32)
    (acc : FVec Ideal S1x512x1024 .f32) (r : Fin 512) (d : Fin 1024) :
    k1_pay3 (F := Ideal) vt al p acc (ix3 (0 : Fin 1) r d)
      = al (ix3 (0 : Fin 1) r (0 : Fin 1)) * acc (ix3 (0 : Fin 1) r d)
          + ∑ cc : Fin 512, p (ix3 (0 : Fin 1) r cc) * vt (ix3 (0 : Fin 1) cc d) := by
  unfold k1_pay3
  refine (congrFun (shapeCast_self _ _) _).trans ?_
  refine (addf_apply _ _ _).trans (congrArg₂ (· + ·) ?_ ?_)
  · exact (mulf_apply _ _ _).trans (congrArg (· * acc (ix3 (0 : Fin 1) r d)) (broadcastTo_ma1_mab_apply _ _ (0 : Fin 1) r d))
  · exact (matmul_pv_apply _ vt r d).trans (Finset.sum_congr rfl fun c _ => rfl)

/-! ## Values passed through a same-shape cast -/

/-- The value tile is passed on unchanged. -/
theorem pay6_eq (v : FVec Ideal S1x512x1024 .bf16) : k1_pay6 (F := Ideal) v = v := shapeCast_self _ _

/-- The same at an index. -/
theorem pay6_apply (v : FVec Ideal S1x512x1024 .bf16) (i : S1x512x1024.Idx) : k1_pay6 (F := Ideal) v i = v i :=
  congrFun (pay6_eq v) i

/-- The value tile is passed on unchanged. -/
theorem pay12_eq (v : FVec Ideal S1x512x1024 .bf16) : k1_pay12 (F := Ideal) v = v := shapeCast_self _ _

/-- The same at an index. -/
theorem pay12_apply (v : FVec Ideal S1x512x1024 .bf16) (i : S1x512x1024.Idx) : k1_pay12 (F := Ideal) v i = v i :=
  congrFun (pay12_eq v) i

/-- The value tile is passed on unchanged. -/
theorem pay18_eq (v : FVec Ideal S1x512x1024 .bf16) : k1_pay18 (F := Ideal) v = v := shapeCast_self _ _

/-- The same at an index. -/
theorem pay18_apply (v : FVec Ideal S1x512x1024 .bf16) (i : S1x512x1024.Idx) : k1_pay18 (F := Ideal) v i = v i :=
  congrFun (pay18_eq v) i

/-- The value tile is passed on unchanged. -/
theorem pay24_eq (v : FVec Ideal S1x512x1024 .bf16) : k1_pay24 (F := Ideal) v = v := shapeCast_self _ _

/-- The same at an index. -/
theorem pay24_apply (v : FVec Ideal S1x512x1024 .bf16) (i : S1x512x1024.Idx) : k1_pay24 (F := Ideal) v i = v i :=
  congrFun (pay24_eq v) i

/-- The new row maximum is stored unchanged. -/
theorem pay35_eq (v : FVec Ideal S1x512x1 .f32) : k1_pay35 (F := Ideal) v = v := shapeCast_self _ _

/-- The same at an index. -/
theorem pay35_apply (v : FVec Ideal S1x512x1 .f32) (i : S1x512x1.Idx) : k1_pay35 (F := Ideal) v i = v i :=
  congrFun (pay35_eq v) i

/-- The new row maximum is stored unchanged. -/
theorem pay37_eq (v : FVec Ideal S1x512x1 .f32) : k1_pay37 (F := Ideal) v = v := shapeCast_self _ _

/-- The same at an index. -/
theorem pay37_apply (v : FVec Ideal S1x512x1 .f32) (i : S1x512x1.Idx) : k1_pay37 (F := Ideal) v i = v i :=
  congrFun (pay37_eq v) i

/-- The new row maximum is stored unchanged. -/
theorem pay2_eq (v : FVec Ideal S1x512x1 .f32) : k1_pay2 (F := Ideal) v = v := shapeCast_self _ _

/-- The same at an index. -/
theorem pay2_apply (v : FVec Ideal S1x512x1 .f32) (i : S1x512x1.Idx) : k1_pay2 (F := Ideal) v i = v i :=
  congrFun (pay2_eq v) i

/-- The new row maximum is stored unchanged. -/
theorem pay4_eq (v : FVec Ideal S1x512x1 .f32) : k1_pay4 (F := Ideal) v = v := shapeCast_self _ _

/-- The same at an index. -/
theorem pay4_apply (v : FVec Ideal S1x512x1 .f32) (i : S1x512x1.Idx) : k1_pay4 (F := Ideal) v i = v i :=
  congrFun (pay4_eq v) i

/-! ## The final quotient -/

/-- The output at (0, r, d): the numerator divided by the row's denominator. -/
theorem pay5_apply (acc : FVec Ideal S1x512x1024 .f32) (l : FVec Ideal S1x512x1 .f32) (r : Fin 512) (d : Fin 1024) :
    k1_pay5 (F := Ideal) acc l (ix3 (0 : Fin 1) r d)
      = Ideal.div (acc (ix3 (0 : Fin 1) r d)) (l (ix3 (0 : Fin 1) r (0 : Fin 1))) := by
  unfold k1_pay5
  exact (divf_apply _ _ _).trans (congrArg (Ideal.div (acc (ix3 (0 : Fin 1) r d))) (broadcastTo_ma1_mab_apply _ _ (0 : Fin 1) r d))

/-! ## The start state -/

/-- The running maximum starts at −∞. -/
theorem pay30_apply (i : S1x512x1.Idx) : k1_pay30 (F := Ideal) i = (⊥ : EReal) := by
  unfold k1_pay30
  exact (congrFun (shapeCast_self _ _) i).trans ofBits_neg_inf

/-- The denominator starts at 0. -/
theorem pay31_apply (i : S1x512x1.Idx) : k1_pay31 (F := Ideal) i = (0 : EReal) := by
  unfold k1_pay31
  exact (congrFun (shapeCast_self _ _) i).trans ofBits_zero

/-- The numerator starts at 0. -/
theorem pay32_apply (i : S1x512x1024.Idx) : k1_pay32 (F := Ideal) i = (0 : EReal) := by
  unfold k1_pay32
  exact (congrFun (shapeCast_self _ _) i).trans ofBits_zero

/-! ## The scaled query -/

/-- The bf16 pattern 0x3D00 denotes 2⁻⁵ = 1/32. -/
theorem ofBits_inv32 : Ideal.ofBits .bf16 0x3D00#16 = (((1 / 32 : ℝ) : ℝ) : EReal) := by
  simp [Ideal.ofBits, Ideal.ieee, -EReal.coe_mul]
  norm_num

/-- The scaled query at an index: the query times 1/32. -/
theorem pay33_apply (q : FVec Ideal S1x512x1024 .bf16) (i : S1x512x1024.Idx) :
    k1_pay33 (F := Ideal) q i = q i * (((1 / 32 : ℝ) : ℝ) : EReal) := by
  unfold k1_pay33
  refine (mulf_apply _ _ _).trans ?_
  exact congrArg₂ (· * ·) (congrFun (shapeCast_self q _) i) ofBits_inv32

end Cert.KernelIdeal.PayRead

end
-- ==== Proof.LibChunkLoad.lean ====
/-
  A load through a unit-stride rectangle that takes a run of consecutive columns of a matrix, or a run of consecutive
  rows of the middle axis of a one-slab rank-3 array, read at an index: the run's offset is added to the coordinate on
  that axis, the other coordinates are kept.
-/
import Idealize.ShloMosaic.Lib.Pipeline.FrameBody
import Idealize.ShloMosaic.Lib.ValueIdx

noncomputable section

namespace Idealize.ShloMosaic.LibChunkLoad

open Idealize.ShloMosaic Idealize.ShloMosaic.ValueIdx

variable {Val : EltTy → Type} {e : EltTy}

/-- Columns `[o, o + w)` of an `[n0, n1]` array, loaded as an `[n0, w]` block, read at `(p, q)`: the array at
    `(p, o + q)`. -/
theorem ld_cols {n0 n1 w : Nat} (X : (⟨2, ![n0, n1]⟩ : Shape).Idx → Val e) (off : Fin 2 → Nat)
    (inb : ∀ a, off a + (⟨2, ![n0, w]⟩ : Shape).size a ≤ (⟨2, ![n0, n1]⟩ : Shape).size a)
    (o : Nat) (h0 : off 0 = 0) (h1 : off 1 = o) (p : Fin n0) (q : Fin w) (c : Fin n1) (hc : c.val = o + q.val) :
    View.ld X (Rect.unit (s := ⟨2, ![n0, n1]⟩) off (⟨2, ![n0, w]⟩ : Shape).size inb) (ix2 p q) = X (ix2 p c) := by
  show X _ = X _
  congr 1
  funext a; apply Fin.ext
  match a with
  | ⟨0, _⟩ => show off 0 + 1 * p.val = p.val; omega
  | ⟨1, _⟩ => show off 1 + 1 * q.val = c.val; omega

/-- Rows `[o, o + w)` of the middle axis of a `[1, n1, n2]` array, loaded as a `[1, w, n2]` block, read at `(u, q, d)`:
    the array at `(0, o + q, d)`. -/
theorem ld_rows3 {n1 n2 w : Nat} (X : (⟨3, ![1, n1, n2]⟩ : Shape).Idx → Val e) (off : Fin 3 → Nat)
    (inb : ∀ a, off a + (⟨3, ![1, w, n2]⟩ : Shape).size a ≤ (⟨3, ![1, n1, n2]⟩ : Shape).size a)
    (o : Nat) (h0 : off 0 = 0) (h1 : off 1 = o) (h2 : off 2 = 0) (u : Fin 1) (q : Fin w) (d : Fin n2) (r : Fin n1)
    (hr : r.val = o + q.val) :
    View.ld X (Rect.unit (s := ⟨3, ![1, n1, n2]⟩) off (⟨3, ![1, w, n2]⟩ : Shape).size inb) (ix3 u q d)
      = X (ix3 (0 : Fin 1) r d) := by
  show X _ = X _
  congr 1
  funext a; apply Fin.ext
  match a with
  | ⟨0, _⟩ => show off 0 + 1 * u.val = 0; omega
  | ⟨1, _⟩ => show off 1 + 1 * q.val = r.val; omega
  | ⟨2, _⟩ => show off 2 + 1 * d.val = d.val; omega

end Idealize.ShloMosaic.LibChunkLoad

end
-- ==== Proof.AttnMath.lean ====
/-
  The attention body's chain of tile steps is the masked softmax-weighted sum of the values.

  Fix a query block qi < 4, a row r of the block (query 512·qi + r) and an output column d, and let every entry of
  the queries q, the keys kk and the values vv be a real number.  The masked logit of key k is
      σ k = ∑_{d'} (q (r, d') · 1/32) · kk (k, d')   if k ≤ 512·qi + r + 1,      −∞ otherwise,
  and the claim is that the body's output at (r, d) is
      ∑_k  exp (σ k − M) / (0 + ∑_j exp (σ j − M)) · vv (k, d),       M = max (−∞, max_k σ k),
  the form the reference computes.

  Each tile step reads (PayRead*) as one step of the online accumulation over the tile's 512 positions; the positions
  are the keys off … off + 511 (AttnMathTiles), so the state after the tiles 0 … j represents the keys below
  512·(j + 1): tile 0 always has the legal key 0 (first step), the later tiles may have no legal key at all.  The
  body stops after tile min (qi + 1, 3); the keys it has not visited are all illegal (512·qi + r + 1 < 512·(qi + 2)),
  so every legal key has been seen and the quotient numerator / denominator is the softmax-weighted sum, which is
  also the value of the one-pass form (LibMaskedSoftmax.online_eq_reference).
-/
import proofs.«176692_j9783935500852_2_alg».proof.Proof.AttnChain
import proofs.«176692_j9783935500852_2_alg».proof.Proof.AttnMathTiles
import proofs.«176692_j9783935500852_2_alg».proof.Proof.PayReadScore
import proofs.«176692_j9783935500852_2_alg».proof.Proof.PayReadStep
import proofs.«176692_j9783935500852_2_alg».proof.Proof.PayReadAcc
import proofs.«176692_j9783935500852_2_alg».proof.Proof.LibChunkLoad
import Idealize.ShloMosaic.Lib.Pipeline.Value

noncomputable section

open scoped BigOperators

namespace Cert.KernelIdeal.Attn

open Idealize.ShloMosaic Idealize.ShloMosaic.ValueIdx Idealize.SL.Sem Cert.KernelIdeal Cert.KernelIdeal.Gen
  Cert.KernelIdeal.PayRead LibMaskedSoftmax

/-- The masked logit of key k for the query in row r of block qi. -/
def sigma (qi : ℕ) (q : FVec Ideal S1x512x1024 .bf16) (kk : FVec Ideal S1x2048x1024 .bf16) (r : Fin 512) (k : Fin 2048) : EReal :=
  if k.val ≤ 512 * qi + r.val + 1 then
    ∑ d' : Fin 1024, (q (ix3 (0 : Fin 1) r d') * (((1 / 32 : ℝ) : ℝ) : EReal)) * kk (ix3 (0 : Fin 1) k d')
  else ⊥

/-- The one-pass masked softmax-weighted sum of the values, at row r and column d. -/
def target (qi : ℕ) (q : FVec Ideal S1x512x1024 .bf16) (kk vv : FVec Ideal S1x2048x1024 .bf16) (r : Fin 512) (d : Fin 1024) : EReal :=
  ∑ k : Fin 2048,
    Ideal.div (Ideal.exp (sigma qi q kk r k - max ⊥ ((Finset.univ : Finset (Fin 2048)).fold max ⊥ (sigma qi q kk r))))
      (0 + ∑ j : Fin 2048, Ideal.exp (sigma qi q kk r j - max ⊥ ((Finset.univ : Finset (Fin 2048)).fold max ⊥ (sigma qi q kk r))))
    * vv (ix3 (0 : Fin 1) k d)

/-- All-zero offsets, however spelt. -/
theorem zero_off3 : (![0, 0, 0] : Fin 3 → ℕ) = fun _ => 0 := by
  funext a; match a with | ⟨0, _⟩ => rfl | ⟨1, _⟩ => rfl | ⟨2, _⟩ => rfl

/-- The scaled queries at an index: the query times 1/32. -/
theorem qs_apply (q : Vec Ideal S1x512x1024 .bf16) (i : S1x512x1024.Idx) :
    qs (F := Ideal) q i = q i * (((1 / 32 : ℝ) : ℝ) : EReal) := by
  unfold qs
  exact (pay33_apply _ i).trans
    (congrArg (· * (((1 / 32 : ℝ) : ℝ) : EReal)) (congrFun (View.ld_unit_zero (Val := Elt Ideal) zero_off3 _ q) i))

/-- A tile of 512 keys loaded from the [1, 2048, 1024] array, at position c and column d: the array at key off + c. -/
theorem tile_ld (X : Vec Ideal S1x2048x1024 .bf16) (off : ℕ) (hoff : off + 512 ≤ 2048)
    (inb : ∀ a, (![0, off, 0] : Fin 3 → ℕ) a + S1x512x1024.size a ≤ S1x2048x1024.size a) (cc : Fin 512) (d : Fin 1024) :
    View.ld (Val := Elt Ideal) X (Rect.unit (s := S1x2048x1024) ![0, off, 0] S1x512x1024.size inb) (ix3 (0 : Fin 1) cc d)
      = X (ix3 (0 : Fin 1) (emb off hoff cc) d) :=
  LibChunkLoad.ld_rows3 (Val := Elt Ideal) (n1 := 2048) (n2 := 1024) (w := 512) X ![0, off, 0] inb off rfl rfl rfl
    (0 : Fin 1) cc d (emb off hoff cc) rfl

/-- The three components of step 1. -/
theorem step1_m (a : BitVec 32) (qv : FVec Ideal S1x512x1024 .bf16) (kt vt : Vec Ideal S1x512x1024 .bf16) (s : St Ideal) :
    (step1 a qv kt vt s).m = k1_pay35 (F := Ideal) (k1_pay8 (F := Ideal) a qv kt s.m) := rfl
theorem step1_l (a : BitVec 32) (qv : FVec Ideal S1x512x1024 .bf16) (kt vt : Vec Ideal S1x512x1024 .bf16) (s : St Ideal) :
    (step1 a qv kt vt s).l = k1_pay11 (F := Ideal) a qv kt s.m s.m s.l := rfl
theorem step1_acc (a : BitVec 32) (qv : FVec Ideal S1x512x1024 .bf16) (kt vt : Vec Ideal S1x512x1024 .bf16) (s : St Ideal) :
    (step1 a qv kt vt s).acc = k1_pay34 (F := Ideal) (k1_pay6 (F := Ideal) vt) (k1_pay9 (F := Ideal) a qv kt s.m s.m)
      (k1_pay10 (F := Ideal) a qv kt s.m) s.acc := rfl

/-- The three components of step 2. -/
theorem step2_m (a : BitVec 32) (qv : FVec Ideal S1x512x1024 .bf16) (kt vt : Vec Ideal S1x512x1024 .bf16) (s : St Ideal) :
    (step2 a qv kt vt s).m = k1_pay37 (F := Ideal) (k1_pay14 (F := Ideal) a qv kt s.m) := rfl
theorem step2_l (a : BitVec 32) (qv : FVec Ideal S1x512x1024 .bf16) (kt vt : Vec Ideal S1x512x1024 .bf16) (s : St Ideal) :
    (step2 a qv kt vt s).l = k1_pay17 (F := Ideal) a qv kt s.m s.m s.l := rfl
theorem step2_acc (a : BitVec 32) (qv : FVec Ideal S1x512x1024 .bf16) (kt vt : Vec Ideal S1x512x1024 .bf16) (s : St Ideal) :
    (step2 a qv kt vt s).acc = k1_pay36 (F := Ideal) (k1_pay12 (F := Ideal) vt) (k1_pay15 (F := Ideal) a qv kt s.m s.m)
      (k1_pay16 (F := Ideal) a qv kt s.m) s.acc := rfl

/-- The three components of step 3. -/
theorem step3_m (a : BitVec 32) (qv : FVec Ideal S1x512x1024 .bf16) (kt vt : Vec Ideal S1x512x1024 .bf16) (s : St Ideal) :
    (step3 a qv kt vt s).m = k1_pay2 (F := Ideal) (k1_pay20 (F := Ideal) a qv kt s.m) := rfl
theorem step3_l (a : BitVec 32) (qv : FVec Ideal S1x512x1024 .bf16) (kt vt : Vec Ideal S1x512x1024 .bf16) (s : St Ideal) :
    (step3 a qv kt vt s).l = k1_pay23 (F := Ideal) a qv kt s.m s.m s.l := rfl
theorem step3_acc (a : BitVec 32) (qv : FVec Ideal S1x512x1024 .bf16) (kt vt : Vec Ideal S1x512x1024 .bf16) (s : St Ideal) :
    (step3 a qv kt vt s).acc = k1_pay1 (F := Ideal) (k1_pay18 (F := Ideal) vt) (k1_pay21 (F := Ideal) a qv kt s.m s.m)
      (k1_pay22 (F := Ideal) a qv kt s.m) s.acc := rfl

/-- The three components of step 4. -/
theorem step4_m (a : BitVec 32) (qv : FVec Ideal S1x512x1024 .bf16) (kt vt : Vec Ideal S1x512x1024 .bf16) (s : St Ideal) :
    (step4 a qv kt vt s).m = k1_pay4 (F := Ideal) (k1_pay26 (F := Ideal) a qv kt s.m) := rfl
theorem step4_l (a : BitVec 32) (qv : FVec Ideal S1x512x1024 .bf16) (kt vt : Vec Ideal S1x512x1024 .bf16) (s : St Ideal) :
    (step4 a qv kt vt s).l = k1_pay29 (F := Ideal) a qv kt s.m s.m s.l := rfl
theorem step4_acc (a : BitVec 32) (qv : FVec Ideal S1x512x1024 .bf16) (kt vt : Vec Ideal S1x512x1024 .bf16) (s : St Ideal) :
    (step4 a qv kt vt s).acc = k1_pay3 (F := Ideal) (k1_pay24 (F := Ideal) vt) (k1_pay27 (F := Ideal) a qv kt s.m s.m)
      (k1_pay28 (F := Ideal) a qv kt s.m) s.acc := rfl

/-- The data of one output entry: the block number, the three input blocks with their real entries, the row and
    the column. -/
structure Ctx where
  qi : ℕ
  hq4 : qi < 4
  q : Vec Ideal S1x512x1024 .bf16
  kk : Vec Ideal S1x2048x1024 .bf16
  vv : Vec Ideal S1x2048x1024 .bf16
  qR : S1x512x1024.Idx → ℝ
  kR : S1x2048x1024.Idx → ℝ
  vR : S1x2048x1024.Idx → ℝ
  hqR : ∀ i, q i = ((qR i : ℝ) : EReal)
  hkR : ∀ i, kk i = ((kR i : ℝ) : EReal)
  hvR : ∀ i, vv i = ((vR i : ℝ) : EReal)
  r : Fin 512
  d : Fin 1024

namespace Ctx

/-- The real logit of key k. -/
def t (c : Ctx) (k : Fin 2048) : ℝ :=
  ∑ d' : Fin 1024, c.qR (ix3 (0 : Fin 1) c.r d') * (1 / 32) * c.kR (ix3 (0 : Fin 1) k d')

/-- The real value of key k in column d. -/
def w (c : Ctx) (k : Fin 2048) : ℝ := c.vR (ix3 (0 : Fin 1) k c.d)

/-- The legal keys of the row's query. -/
def S (c : Ctx) : Finset (Fin 2048) := legal (512 * c.qi + c.r.val + 1)

/-- The state's entries for row r and column d represent the seen set P. -/
def Rep (c : Ctx) (P : Finset (Fin 2048)) (s : St Ideal) : Prop :=
  Represents c.S c.t c.w P (s.m (ix3 (0 : Fin 1) c.r (0 : Fin 1))) (s.l (ix3 (0 : Fin 1) c.r (0 : Fin 1)))
    (s.acc (ix3 (0 : Fin 1) c.r c.d))

/-- The masked logits are the real logits masked outside the legal keys. -/
theorem masked (c : Ctx) : IsMasked c.S c.t (sigma c.qi c.q c.kk c.r) := by
  refine IsMasked.of_cases (fun k hk => ?_) (fun k hk => ?_)
  · unfold sigma
    rw [if_pos (mem_legal.mp hk)]
    unfold Ctx.t
    rw [LibOnlineSoftmax.coe_sum]
    exact Finset.sum_congr rfl fun d' _ => by rw [c.hqR, c.hkR, ← EReal.coe_mul, ← EReal.coe_mul]
  · unfold sigma
    rw [if_neg (fun h => hk (mem_legal.mpr h))]

end Ctx

/-- Tile 0's masked score at position c of row r is the masked logit of key 0 + c. -/
theorem score1 (c : Ctx) (cc : Fin 512) :
    k1_pay7 (F := Ideal) (BitVec.ofNat 32 c.qi) (qs (F := Ideal) c.q) (View.ld (Val := Elt Ideal) c.kk rT0) (ix3 (0 : Fin 1) c.r cc)
      = sigma c.qi c.q c.kk c.r (emb 0 (by omega) cc) := by
  refine (pay7_apply c.qi c.hq4 _ _ c.r cc).trans ?_
  unfold sigma
  exact congrArg (fun s : EReal => if 0 + cc.val ≤ 512 * c.qi + c.r.val + 1 then s else ⊥)
    (Finset.sum_congr rfl fun d' _ => congrArg₂ (· * ·) (qs_apply c.q _) (tile_ld c.kk 0 (by omega) _ cc d'))

/-- Tile 0's values at position c, column d: the real value of key 0 + c. -/
theorem value1 (c : Ctx) (cc : Fin 512) :
    k1_pay6 (F := Ideal) (View.ld (Val := Elt Ideal) c.vv rT0) (ix3 (0 : Fin 1) cc c.d)
      = ((c.w (emb 0 (by omega) cc) : ℝ) : EReal) :=
  (pay6_apply _ _).trans ((tile_ld c.vv 0 (by omega) _ cc c.d).trans (c.hvR _))

/-- Tile 1's masked score at position c of row r is the masked logit of key 512 + c. -/
theorem score2 (c : Ctx) (cc : Fin 512) :
    k1_pay13 (F := Ideal) (BitVec.ofNat 32 c.qi) (qs (F := Ideal) c.q) (View.ld (Val := Elt Ideal) c.kk rT1) (ix3 (0 : Fin 1) c.r cc)
      = sigma c.qi c.q c.kk c.r (emb 512 (by omega) cc) := by
  refine (pay13_apply c.qi c.hq4 _ _ c.r cc).trans ?_
  unfold sigma
  exact congrArg (fun s : EReal => if 512 + cc.val ≤ 512 * c.qi + c.r.val + 1 then s else ⊥)
    (Finset.sum_congr rfl fun d' _ => congrArg₂ (· * ·) (qs_apply c.q _) (tile_ld c.kk 512 (by omega) _ cc d'))

/-- Tile 1's values at position c, column d: the real value of key 512 + c. -/
theorem value2 (c : Ctx) (cc : Fin 512) :
    k1_pay12 (F := Ideal) (View.ld (Val := Elt Ideal) c.vv rT1) (ix3 (0 : Fin 1) cc c.d)
      = ((c.w (emb 512 (by omega) cc) : ℝ) : EReal) :=
  (pay12_apply _ _).trans ((tile_ld c.vv 512 (by omega) _ cc c.d).trans (c.hvR _))

/-- Tile 2's masked score at position c of row r is the masked logit of key 1024 + c. -/
theorem score3 (c : Ctx) (cc : Fin 512) :
    k1_pay19 (F := Ideal) (BitVec.ofNat 32 c.qi) (qs (F := Ideal) c.q) (View.ld (Val := Elt Ideal) c.kk rT2) (ix3 (0 : Fin 1) c.r cc)
      = sigma c.qi c.q c.kk c.r (emb 1024 (by omega) cc) := by
  refine (pay19_apply c.qi c.hq4 _ _ c.r cc).trans ?_
  unfold sigma
  exact congrArg (fun s : EReal => if 1024 + cc.val ≤ 512 * c.qi + c.r.val + 1 then s else ⊥)
    (Finset.sum_congr rfl fun d' _ => congrArg₂ (· * ·) (qs_apply c.q _) (tile_ld c.kk 1024 (by omega) _ cc d'))

/-- Tile 2's values at position c, column d: the real value of key 1024 + c. -/
theorem value3 (c : Ctx) (cc : Fin 512) :
    k1_pay18 (F := Ideal) (View.ld (Val := Elt Ideal) c.vv rT2) (ix3 (0 : Fin 1) cc c.d)
      = ((c.w (emb 1024 (by omega) cc) : ℝ) : EReal) :=
  (pay18_apply _ _).trans ((tile_ld c.vv 1024 (by omega) _ cc c.d).trans (c.hvR _))

/-- Tile 3's masked score at position c of row r is the masked logit of key 1536 + c. -/
theorem score4 (c : Ctx) (cc : Fin 512) :
    k1_pay25 (F := Ideal) (BitVec.ofNat 32 c.qi) (qs (F := Ideal) c.q) (View.ld (Val := Elt Ideal) c.kk rT3) (ix3 (0 : Fin 1) c.r cc)
      = sigma c.qi c.q c.kk c.r (emb 1536 (by omega) cc) := by
  refine (pay25_apply c.qi c.hq4 _ _ c.r cc).trans ?_
  unfold sigma
  exact congrArg (fun s : EReal => if 1536 + cc.val ≤ 512 * c.qi + c.r.val + 1 then s else ⊥)
    (Finset.sum_congr rfl fun d' _ => congrArg₂ (· * ·) (qs_apply c.q _) (tile_ld c.kk 1536 (by omega) _ cc d'))

/-- Tile 3's values at position c, column d: the real value of key 1536 + c. -/
theorem value4 (c : Ctx) (cc : Fin 512) :
    k1_pay24 (F := Ideal) (View.ld (Val := Elt Ideal) c.vv rT3) (ix3 (0 : Fin 1) cc c.d)
      = ((c.w (emb 1536 (by omega) cc) : ℝ) : EReal) :=
  (pay24_apply _ _).trans ((tile_ld c.vv 1536 (by omega) _ cc c.d).trans (c.hvR _))

/-- Step 1 from the start state represents the keys below 512: key 0 is always legal. -/
theorem rep_step1 (c : Ctx) :
    c.Rep (seen 512) (step1 (BitVec.ofNat 32 c.qi) (qs (F := Ideal) c.q) (View.ld (Val := Elt Ideal) c.kk rT0)
      (View.ld (Val := Elt Ideal) c.vv rT0) (st0 (F := Ideal))) := by
  unfold Ctx.Rep
  rw [step1_m, step1_l, step1_acc, pay35_apply, ← tile_zero]
  exact tile_first c.masked 0 (by omega) (tile_zero_inter_legal_nonempty _)
    (fun cc => k1_pay7 (F := Ideal) (BitVec.ofNat 32 c.qi) (qs (F := Ideal) c.q) (View.ld (Val := Elt Ideal) c.kk rT0) (ix3 (0 : Fin 1) c.r cc))
    (fun cc => k1_pay10 (F := Ideal) (BitVec.ofNat 32 c.qi) (qs (F := Ideal) c.q) (View.ld (Val := Elt Ideal) c.kk rT0) (st0 (F := Ideal)).m (ix3 (0 : Fin 1) c.r cc))
    (fun cc => k1_pay6 (F := Ideal) (View.ld (Val := Elt Ideal) c.vv rT0) (ix3 (0 : Fin 1) cc c.d))
    ((st0 (F := Ideal)).m (ix3 (0 : Fin 1) c.r (0 : Fin 1))) ((st0 (F := Ideal)).l (ix3 (0 : Fin 1) c.r (0 : Fin 1)))
    ((st0 (F := Ideal)).acc (ix3 (0 : Fin 1) c.r c.d)) _
    (k1_pay9 (F := Ideal) (BitVec.ofNat 32 c.qi) (qs (F := Ideal) c.q) (View.ld (Val := Elt Ideal) c.kk rT0) (st0 (F := Ideal)).m (st0 (F := Ideal)).m (ix3 (0 : Fin 1) c.r (0 : Fin 1)))
    _ _ (pay30_apply (ix3 (0 : Fin 1) c.r (0 : Fin 1))) (score1 c) (value1 c)
    (pay8_apply _ _ _ _ c.r) (pay9_apply _ _ _ _ _ _) (fun cc => pay10_apply _ _ _ _ c.r cc)
    (pay11_apply_zero _ _ _ _ _ _ c.r) (pay34_apply _ _ _ _ c.r c.d)

/-- Step 2 keeps the representation: from a state representing the keys below 512 to one representing the keys below
    1024. -/
theorem rep_step2 (c : Ctx) (s : St Ideal) (hrep : c.Rep (seen 512) s) :
    c.Rep (seen 1024) (step2 (BitVec.ofNat 32 c.qi) (qs (F := Ideal) c.q) (View.ld (Val := Elt Ideal) c.kk rT1)
      (View.ld (Val := Elt Ideal) c.vv rT1) s) := by
  unfold Ctx.Rep
  rw [step2_m, step2_l, step2_acc, pay37_apply, ← seen_union_tile 512 (by omega)]
  exact tile_later c.masked 512 (by omega) (disjoint_seen_tile 512 (by omega))
    (fun cc => k1_pay13 (F := Ideal) (BitVec.ofNat 32 c.qi) (qs (F := Ideal) c.q) (View.ld (Val := Elt Ideal) c.kk rT1) (ix3 (0 : Fin 1) c.r cc))
    (fun cc => k1_pay16 (F := Ideal) (BitVec.ofNat 32 c.qi) (qs (F := Ideal) c.q) (View.ld (Val := Elt Ideal) c.kk rT1) s.m (ix3 (0 : Fin 1) c.r cc))
    (fun cc => k1_pay12 (F := Ideal) (View.ld (Val := Elt Ideal) c.vv rT1) (ix3 (0 : Fin 1) cc c.d))
    _ _ _ _
    (k1_pay15 (F := Ideal) (BitVec.ofNat 32 c.qi) (qs (F := Ideal) c.q) (View.ld (Val := Elt Ideal) c.kk rT1) s.m s.m (ix3 (0 : Fin 1) c.r (0 : Fin 1)))
    _ _ hrep (score2 c) (value2 c)
    (pay14_apply _ _ _ _ c.r) (pay15_apply _ _ _ _ _ _) (fun cc => pay16_apply _ _ _ _ c.r cc)
    (pay17_apply_zero _ _ _ _ _ _ c.r) (pay36_apply _ _ _ _ c.r c.d)

/-- Step 3 keeps the representation: from a state representing the keys below 1024 to one representing the keys below
    1536. -/
theorem rep_step3 (c : Ctx) (s : St Ideal) (hrep : c.Rep (seen 1024) s) :
    c.Rep (seen 1536) (step3 (BitVec.ofNat 32 c.qi) (qs (F := Ideal) c.q) (View.ld (Val := Elt Ideal) c.kk rT2)
      (View.ld (Val := Elt Ideal) c.vv rT2) s) := by
  unfold Ctx.Rep
  rw [step3_m, step3_l, step3_acc, pay2_apply, ← seen_union_tile 1024 (by omega)]
  exact tile_later c.masked 1024 (by omega) (disjoint_seen_tile 1024 (by omega))
    (fun cc => k1_pay19 (F := Ideal) (BitVec.ofNat 32 c.qi) (qs (F := Ideal) c.q) (View.ld (Val := Elt Ideal) c.kk rT2) (ix3 (0 : Fin 1) c.r cc))
    (fun cc => k1_pay22 (F := Ideal) (BitVec.ofNat 32 c.qi) (qs (F := Ideal) c.q) (View.ld (Val := Elt Ideal) c.kk rT2) s.m (ix3 (0 : Fin 1) c.r cc))
    (fun cc => k1_pay18 (F := Ideal) (View.ld (Val := Elt Ideal) c.vv rT2) (ix3 (0 : Fin 1) cc c.d))
    _ _ _ _
    (k1_pay21 (F := Ideal) (BitVec.ofNat 32 c.qi) (qs (F := Ideal) c.q) (View.ld (Val := Elt Ideal) c.kk rT2) s.m s.m (ix3 (0 : Fin 1) c.r (0 : Fin 1)))
    _ _ hrep (score3 c) (value3 c)
    (pay20_apply _ _ _ _ c.r) (pay21_apply _ _ _ _ _ _) (fun cc => pay22_apply _ _ _ _ c.r cc)
    (pay23_apply_zero _ _ _ _ _ _ c.r) (pay1_apply _ _ _ _ c.r c.d)

/-- Step 4 keeps the representation: from a state representing the keys below 1536 to one representing the keys below
    2048. -/
theorem rep_step4 (c : Ctx) (s : St Ideal) (hrep : c.Rep (seen 1536) s) :
    c.Rep (seen 2048) (step4 (BitVec.ofNat 32 c.qi) (qs (F := Ideal) c.q) (View.ld (Val := Elt Ideal) c.kk rT3)
      (View.ld (Val := Elt Ideal) c.vv rT3) s) := by
  unfold Ctx.Rep
  rw [step4_m, step4_l, step4_acc, pay4_apply, ← seen_union_tile 1536 (by omega)]
  exact tile_later c.masked 1536 (by omega) (disjoint_seen_tile 1536 (by omega))
    (fun cc => k1_pay25 (F := Ideal) (BitVec.ofNat 32 c.qi) (qs (F := Ideal) c.q) (View.ld (Val := Elt Ideal) c.kk rT3) (ix3 (0 : Fin 1) c.r cc))
    (fun cc => k1_pay28 (F := Ideal) (BitVec.ofNat 32 c.qi) (qs (F := Ideal) c.q) (View.ld (Val := Elt Ideal) c.kk rT3) s.m (ix3 (0 : Fin 1) c.r cc))
    (fun cc => k1_pay24 (F := Ideal) (View.ld (Val := Elt Ideal) c.vv rT3) (ix3 (0 : Fin 1) cc c.d))
    _ _ _ _
    (k1_pay27 (F := Ideal) (BitVec.ofNat 32 c.qi) (qs (F := Ideal) c.q) (View.ld (Val := Elt Ideal) c.kk rT3) s.m s.m (ix3 (0 : Fin 1) c.r (0 : Fin 1)))
    _ _ hrep (score4 c) (value4 c)
    (pay26_apply _ _ _ _ c.r) (pay27_apply _ _ _ _ _ _) (fun cc => pay28_apply _ _ _ _ c.r cc)
    (pay29_apply_zero _ _ _ _ _ _ c.r) (pay3_apply _ _ _ _ c.r c.d)

/-- The output of a state that represents a set containing every legal key is the one-pass form. -/
theorem out_of_rep (c : Ctx) {P : Finset (Fin 2048)} (s : St Ideal) (hrep : c.Rep P s) (hP : c.S ⊆ P) :
    outOf (F := Ideal) s (ix3 (0 : Fin 1) c.r c.d) = target c.qi c.q c.kk c.vv c.r c.d := by
  unfold outOf
  refine (pay5_apply _ _ c.r c.d).trans ?_
  refine (online_eq_reference c.masked c.w (z := 0) rfl hrep hP).trans ?_
  unfold target
  exact Finset.sum_congr rfl fun k _ => by rw [c.hvR]; rfl

end Cert.KernelIdeal.Attn

end
-- ==== Proof.AttnMathChains.lean ====
/-
  The three control cases of the attention body against the one-pass masked softmax.

  Query block 0 visits tiles 0 and 1 (keys below 1024), block 1 tiles 0 … 2 (keys below 1536), blocks 2 and 3 all four
  tiles.  In each case the legal keys of row r — those up to 512·qi + r + 1 — lie below the last visited key, so the
  state after the last visited tile represents a set containing every legal key (after all four tiles: every key),
  and the output is the one-pass form.  The hypothesis that every input entry is a real number is turned into real-valued functions once.
-/
import proofs.«176692_j9783935500852_2_alg».proof.Proof.AttnMath

noncomputable section

open scoped BigOperators

namespace Cert.KernelIdeal.Attn

open Idealize.ShloMosaic Idealize.ShloMosaic.ValueIdx Idealize.SL.Sem Cert.KernelIdeal Cert.KernelIdeal.Gen
  Cert.KernelIdeal.PayRead LibMaskedSoftmax

/-- The block's number as a word, given the grid coordinate. -/
theorem word_eq (i : grid1.Coords) (qi : ℕ) (hi : (i 1).val = qi) : word i = BitVec.ofNat 32 qi := by
  unfold word; rw [hi]

/-- Query block 0, over a packaged entry. -/
theorem chainA_ctx (c : Ctx) (i : grid1.Coords) (hi : (i 1).val = c.qi) (hqi : c.qi = 0) :
    chainA (F := Ideal) i c.q c.kk c.vv (ix3 (0 : Fin 1) c.r c.d) = target c.qi c.q c.kk c.vv c.r c.d := by
  unfold chainA
  rw [word_eq i c.qi hi]
  refine out_of_rep c _ (rep_step2 c _ (rep_step1 c)) (legal_subset_seen ?_)
  have := c.r.isLt
  omega

/-- Query block 1, over a packaged entry. -/
theorem chainB_ctx (c : Ctx) (i : grid1.Coords) (hi : (i 1).val = c.qi) (hqi : c.qi = 1) :
    chainB (F := Ideal) i c.q c.kk c.vv (ix3 (0 : Fin 1) c.r c.d) = target c.qi c.q c.kk c.vv c.r c.d := by
  unfold chainB
  rw [word_eq i c.qi hi]
  refine out_of_rep c _ (rep_step3 c _ (rep_step2 c _ (rep_step1 c))) (legal_subset_seen ?_)
  have := c.r.isLt
  omega

/-- Query blocks 2 and 3, over a packaged entry. -/
theorem chainC_ctx (c : Ctx) (i : grid1.Coords) (hi : (i 1).val = c.qi) :
    chainC (F := Ideal) i c.q c.kk c.vv (ix3 (0 : Fin 1) c.r c.d) = target c.qi c.q c.kk c.vv c.r c.d := by
  unfold chainC
  rw [word_eq i c.qi hi]
  exact out_of_rep c _ (rep_step4 c _ (rep_step3 c _ (rep_step2 c _ (rep_step1 c)))) (fun k _ => mem_seen.mpr k.isLt)

/-- An entry packaged from inputs whose entries are all real. -/
def mkCtx (qi : ℕ) (hq4 : qi < 4) (q : Vec Ideal S1x512x1024 .bf16) (kk vv : Vec Ideal S1x2048x1024 .bf16)
    (hq : ∀ j, ∃ x : ℝ, q j = ((x : ℝ) : EReal)) (hk : ∀ j, ∃ x : ℝ, kk j = ((x : ℝ) : EReal))
    (hv : ∀ j, ∃ x : ℝ, vv j = ((x : ℝ) : EReal)) (r : Fin 512) (d : Fin 1024) : Ctx where
  qi := qi
  hq4 := hq4
  q := q
  kk := kk
  vv := vv
  qR := fun j => (hq j).choose
  kR := fun j => (hk j).choose
  vR := fun j => (hv j).choose
  hqR := fun j => (hq j).choose_spec
  hkR := fun j => (hk j).choose_spec
  hvR := fun j => (hv j).choose_spec
  r := r
  d := d

/-- QUERY BLOCK 0: tiles 0 and 1. -/
theorem chainA_eq (i : grid1.Coords) (qi : ℕ) (hi : (i 1).val = qi) (hqi : qi = 0)
    (q : Vec Ideal S1x512x1024 .bf16) (kk vv : Vec Ideal S1x2048x1024 .bf16)
    (hq : ∀ j, ∃ x : ℝ, q j = ((x : ℝ) : EReal)) (hk : ∀ j, ∃ x : ℝ, kk j = ((x : ℝ) : EReal))
    (hv : ∀ j, ∃ x : ℝ, vv j = ((x : ℝ) : EReal)) (r : Fin 512) (d : Fin 1024) :
    chainA (F := Ideal) i q kk vv (ix3 (0 : Fin 1) r d) = target qi q kk vv r d :=
  chainA_ctx (mkCtx qi (by omega) q kk vv hq hk hv r d) i hi hqi

/-- QUERY BLOCK 1: tiles 0, 1 and 2. -/
theorem chainB_eq (i : grid1.Coords) (qi : ℕ) (hi : (i 1).val = qi) (hqi : qi = 1)
    (q : Vec Ideal S1x512x1024 .bf16) (kk vv : Vec Ideal S1x2048x1024 .bf16)
    (hq : ∀ j, ∃ x : ℝ, q j = ((x : ℝ) : EReal)) (hk : ∀ j, ∃ x : ℝ, kk j = ((x : ℝ) : EReal))
    (hv : ∀ j, ∃ x : ℝ, vv j = ((x : ℝ) : EReal)) (r : Fin 512) (d : Fin 1024) :
    chainB (F := Ideal) i q kk vv (ix3 (0 : Fin 1) r d) = target qi q kk vv r d :=
  chainB_ctx (mkCtx qi (by omega) q kk vv hq hk hv r d) i hi hqi

/-- QUERY BLOCKS 2 AND 3: all four tiles. -/
theorem chainC_eq (i : grid1.Coords) (qi : ℕ) (hi : (i 1).val = qi) (hqi : 2 ≤ qi) (hq4 : qi < 4)
    (q : Vec Ideal S1x512x1024 .bf16) (kk vv : Vec Ideal S1x2048x1024 .bf16)
    (hq : ∀ j, ∃ x : ℝ, q j = ((x : ℝ) : EReal)) (hk : ∀ j, ∃ x : ℝ, kk j = ((x : ℝ) : EReal))
    (hv : ∀ j, ∃ x : ℝ, vv j = ((x : ℝ) : EReal)) (r : Fin 512) (d : Fin 1024) :
    chainC (F := Ideal) i q kk vv (ix3 (0 : Fin 1) r d) = target qi q kk vv r d :=
  chainC_ctx (mkCtx qi hq4 q kk vv hq hk hv r d) i hi

end Cert.KernelIdeal.Attn

end
-- ==== Proof.AttnBlocks.lean ====
import proofs.«176692_j9783935500852_2_alg».proof.Proof.Gen.KernelIdeal.Launch
import proofs.«176692_j9783935500852_2_alg».proof.Proof.Gen.KernelIdeal.Points
import Idealize.ShloMosaic.Lib.Pipeline.Value
import Idealize.ShloMosaic.Lib.ValueIdx

/-!
The attention region's windows over its arrays. The grid has 4 × 4 points; point t has coordinates
(t / 4, t % 4) = (batch, query tile). The query window's block at t is rows 512·(t % 4) … of batch t / 4, the key
and value windows' blocks are the whole slab of batch t / 4, and the output window's block is rows 512·(t % 4) … of
batch t / 4 of the result. The 16 output blocks tile the result: entry (b, q, d) lies in the block of point
4·b + q / 512.
-/

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: every window sits at batch t / 4; the query and output windows at tile t % 4 of
    the rows, the key and value windows at the whole slab; every window at the whole feature axis. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-! ## The input blocks -/

/-- The query window's block at point t is rows 512·(t % 4) … of batch t / 4. -/
theorem blk0_apply (c : Dev nD) (t : Fin cfg1.N) (j : S1x512x1024.Idx) (k : S4x2048x1024.Idx)
    (hk0 : (k 0).val = t.val / 4) (hk1 : (k 1).val = 512 * (t.val % 4) + (j 1).val) (hk2 : (k 2).val = (j 2).val) :
    (((cfg1.win 0).blk t).view.read (Elt Ideal) (V c (Pipeline.arrRef spec1 0)) : Vec Ideal S1x512x1024 .bf16) j
      = (V c main_v8 : S4x2048x1024.Idx → EReal) k := by
  obtain ⟨e0, e1, e2, -⟩ := idx_facts t
  rw [View.read_apply]
  show V c main_v8 _ = V c main_v8 _
  congr 1
  funext a
  apply Fin.ext
  have hj0 : (j 0).val < 1 := (j 0).isLt
  match a with
  | ⟨0, _⟩ => show win1_0.index t 0 * 1 + 1 * (j 0).val = (k 0).val; rw [e0, hk0]; omega
  | ⟨1, _⟩ => show win1_0.index t 1 * 512 + 1 * (j 1).val = (k 1).val; rw [e1, hk1]; omega
  | ⟨2, _⟩ => show win1_0.index t 2 * 1024 + 1 * (j 2).val = (k 2).val; rw [e2, hk2]; omega

/-- At point 4·b + qi the query block's row r is row 512·qi + r of batch b. -/
theorem blk0_ix (c : Dev nD) (t : Fin cfg1.N) (b : Fin 4) (qi : Fin 4) (ht : t.val = 4 * b.val + qi.val)
    (r : Fin 512) (d : Fin 1024) (q : Fin 2048) (hq : q.val = 512 * qi.val + r.val) :
    (((cfg1.win 0).blk t).view.read (Elt Ideal) (V c (Pipeline.arrRef spec1 0)) : Vec Ideal S1x512x1024 .bf16) (ix3 (0 : Fin 1) r d)
      = (V c main_v8 : S4x2048x1024.Idx → EReal) (ix3 b q d) :=
  blk0_apply V c t (ix3 (0 : Fin 1) r d) (ix3 b q d) (by show b.val = t.val / 4; have := qi.isLt; omega)
    (by show q.val = 512 * (t.val % 4) + r.val; have := qi.isLt; rw [hq]; omega) rfl

/-- The key window's block at point t is the whole [2048, 1024] slab of batch t / 4. -/
theorem blk1_apply (c : Dev nD) (t : Fin cfg1.N) (j : S1x2048x1024.Idx) (k : S4x2048x1024.Idx)
    (hk0 : (k 0).val = t.val / 4) (hk1 : (k 1).val = (j 1).val) (hk2 : (k 2).val = (j 2).val) :
    (((cfg1.win 1).blk t).view.read (Elt Ideal) (V c (Pipeline.arrRef spec1 1)) : Vec Ideal S1x2048x1024 .bf16) j
      = (V c main_v9 : S4x2048x1024.Idx → EReal) k := by
  obtain ⟨-, -, -, e3, e4, e5, -⟩ := idx_facts t
  rw [View.read_apply]
  show V c main_v9 _ = V c main_v9 _
  congr 1
  funext a
  apply Fin.ext
  have hj0 : (j 0).val < 1 := (j 0).isLt
  match a with
  | ⟨0, _⟩ => show win1_1.index t 0 * 1 + 1 * (j 0).val = (k 0).val; rw [e3, hk0]; omega
  | ⟨1, _⟩ => show win1_1.index t 1 * 2048 + 1 * (j 1).val = (k 1).val; rw [e4, hk1]; omega
  | ⟨2, _⟩ => show win1_1.index t 2 * 1024 + 1 * (j 2).val = (k 2).val; rw [e5, hk2]; omega

/-- At point 4·b + qi the key block's row k is row k of batch b. -/
theorem blk1_ix (c : Dev nD) (t : Fin cfg1.N) (b : Fin 4) (qi : Fin 4) (ht : t.val = 4 * b.val + qi.val) (k : Fin 2048) (d : Fin 1024) :
    (((cfg1.win 1).blk t).view.read (Elt Ideal) (V c (Pipeline.arrRef spec1 1)) : Vec Ideal S1x2048x1024 .bf16) (ix3 (0 : Fin 1) k d)
      = (V c main_v9 : S4x2048x1024.Idx → EReal) (ix3 b k d) :=
  blk1_apply V c t (ix3 (0 : Fin 1) k d) (ix3 b k d) (by show b.val = t.val / 4; have := qi.isLt; omega) rfl rfl

/-- The value window's block at point t is the whole [2048, 1024] slab of batch t / 4. -/
theorem blk2_apply (c : Dev nD) (t : Fin cfg1.N) (j : S1x2048x1024.Idx) (k : S4x2048x1024.Idx)
    (hk0 : (k 0).val = t.val / 4) (hk1 : (k 1).val = (j 1).val) (hk2 : (k 2).val = (j 2).val) :
    (((cfg1.win 2).blk t).view.read (Elt Ideal) (V c (Pipeline.arrRef spec1 2)) : Vec Ideal S1x2048x1024 .bf16) j
      = (V c main_v10 : S4x2048x1024.Idx → EReal) k := by
  obtain ⟨-, -, -, -, -, -, e6, e7, e8, -⟩ := idx_facts t
  rw [View.read_apply]
  show V c main_v10 _ = V c main_v10 _
  congr 1
  funext a
  apply Fin.ext
  have hj0 : (j 0).val < 1 := (j 0).isLt
  match a with
  | ⟨0, _⟩ => show win1_2.index t 0 * 1 + 1 * (j 0).val = (k 0).val; rw [e6, hk0]; omega
  | ⟨1, _⟩ => show win1_2.index t 1 * 2048 + 1 * (j 1).val = (k 1).val; rw [e7, hk1]; omega
  | ⟨2, _⟩ => show win1_2.index t 2 * 1024 + 1 * (j 2).val = (k 2).val; rw [e8, hk2]; omega

/-- At point 4·b + qi the value block's row k is row k of batch b. -/
theorem blk2_ix (c : Dev nD) (t : Fin cfg1.N) (b : Fin 4) (qi : Fin 4) (ht : t.val = 4 * b.val + qi.val) (k : Fin 2048) (d : Fin 1024) :
    (((cfg1.win 2).blk t).view.read (Elt Ideal) (V c (Pipeline.arrRef spec1 2)) : Vec Ideal S1x2048x1024 .bf16) (ix3 (0 : Fin 1) k d)
      = (V c main_v10 : S4x2048x1024.Idx → EReal) (ix3 b k d) :=
  blk2_apply V c t (ix3 (0 : Fin 1) k d) (ix3 b k d) (by show b.val = t.val / 4; have := qi.isLt; omega) rfl rfl

/-! ## The output blocks -/

/-- Where the output block's entry j sits in the result: batch t / 4, row 512·(t % 4) + its row, its own feature. -/
theorem emb3_val (t : Fin cfg1.N) (j : S1x512x1024.Idx) :
    ((((cfg1.win 3).blk t).view.emb j) 0).val = t.val / 4
    ∧ ((((cfg1.win 3).blk t).view.emb j) 1).val = 512 * (t.val % 4) + (j 1).val
    ∧ ((((cfg1.win 3).blk t).view.emb j) 2).val = (j 2).val := by
  obtain ⟨-, -, -, -, -, -, -, -, -, e9, e10, e11⟩ := idx_facts t
  have hj0 : (j 0).val < 1 := (j 0).isLt
  refine ⟨?_, ?_, ?_⟩
  · show win1_3.index t 0 * 1 + 1 * (j 0).val = t.val / 4; rw [e9]; omega
  · show win1_3.index t 1 * 512 + 1 * (j 1).val = 512 * (t.val % 4) + (j 1).val; rw [e10]; omega
  · show win1_3.index t 2 * 1024 + 1 * (j 2).val = (j 2).val; rw [e11]; omega

/-- An index of the result is in point t's block iff each coordinate is in the block's range on its axis. -/
theorem mem_blk3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v11).slice (win1_3.rect t)).set ↔ _
  rw [View.set_slice_whole, Rect.mem_set_unit]
  exact Iff.rfl

/-- Every entry (b, q, d) of the result is in the block of point 4·b + q / 512, which is written back. -/
theorem cover3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 16 := N_1
  refine ⟨⟨4 * (i 0).val + (i 1).val / 512, by rw [hN]; omega⟩, flush1_3 _, ?_⟩
  rw [mem_blk3]
  obtain ⟨-, -, -, -, -, -, -, -, -, e9, e10, e11⟩ := idx_facts ⟨4 * (i 0).val + (i 1).val / 512, by rw [hN]; omega⟩
  intro a
  match a with
  | ⟨0, _⟩ => show win1_3.index _ (0 : Fin 3) * 1 ≤ (i 0).val ∧ (i 0).val < win1_3.index _ (0 : Fin 3) * 1 + 1; rw [e9]; show (4 * (i 0).val + (i 1).val / 512) / 4 * 1 ≤ (i 0).val ∧ (i 0).val < (4 * (i 0).val + (i 1).val / 512) / 4 * 1 + 1; omega
  | ⟨1, _⟩ => show win1_3.index _ (1 : Fin 3) * 512 ≤ (i 1).val ∧ (i 1).val < win1_3.index _ (1 : Fin 3) * 512 + 512; rw [e10]; show (4 * (i 0).val + (i 1).val / 512) % 4 * 512 ≤ (i 1).val ∧ (i 1).val < (4 * (i 0).val + (i 1).val / 512) % 4 * 512 + 512; omega
  | ⟨2, _⟩ => show win1_3.index _ (2 : Fin 3) * 1024 ≤ (i 2).val ∧ (i 2).val < win1_3.index _ (2 : Fin 3) * 1024 + 1024; rw [e11]; omega

end Cert.KernelIdeal.AttnValue

end
-- ==== Proof.RefReadSpec.lean ====
import Idealize.ShloMosaic.Lib.ValueIdx
import Idealize.ShloMosaic.PureOps.Ideal.Laws

/-!
Causal attention over the extended reals, entry by entry: the projections x Wᵀ, the scaled scores,
the causal mask (key k is admitted for query q when k ≤ q + 1), and the softmax-weighted sum of
the value rows, written as one closed expression of the four argument arrays.
-/

noncomputable section

open scoped BigOperators

namespace Cert.ReferenceIdeal.RefValue

open Idealize.ShloMosaic Idealize.ShloMosaic.ValueIdx

/-- A linear projection y = x Wᵀ at batch `b`, row `t`, output feature `e`: the row of `x` against row `e` of `w`.
    The queries, keys and values are this function at the three weight matrices. -/
def proj (x : FVec Ideal ⟨3, ![4, 2048, 1024]⟩ .f32) (w : FVec Ideal ⟨2, ![1024, 1024]⟩ .f32)
    (b : Fin 4) (t : Fin 2048) (e : Fin 1024) : EReal :=
  ∑ d : Fin 1024, x (ix3 b t d) * w (ix2 e d)

/-- The scores' divisor, as the program computes it: the square root of the constant 1024. -/
def scale : EReal := Ideal.sqrt (Ideal.ofBits .f32 0x44800000#32)

/-- The word `0x44800000` is 1024. -/
theorem ofBits_1024 : Ideal.ofBits .f32 0x44800000#32 = ((1024 : ℝ) : EReal) := by
  simp [Ideal.ofBits, Ideal.ieee, -EReal.coe_mul]; norm_num

/-- √1024 = 32. -/
theorem scale_eq : scale = ((32 : ℝ) : EReal) := by
  unfold scale
  rw [ofBits_1024, Ideal.sqrt_coe, if_neg (by norm_num)]
  refine congrArg _ ?_
  rw [show (1024 : ℝ) = 32 ^ 2 by norm_num]
  exact Real.sqrt_sq (by norm_num)

/-- The word `0xFF800000` is -∞, the bottom of the extended reals. -/
theorem ofBits_negInf : Ideal.ofBits .f32 0xFF800000#32 = (⊥ : EReal) := by
  simp [Ideal.ofBits, Ideal.ieee]

/-- The scaled score of query row `q` against key row `k` in batch `b`: (Q_q · K_k) / √1024. -/
def score (x : FVec Ideal ⟨3, ![4, 2048, 1024]⟩ .f32) (wq wk : FVec Ideal ⟨2, ![1024, 1024]⟩ .f32)
    (b : Fin 4) (q k : Fin 2048) : EReal :=
  Ideal.div (∑ d : Fin 1024, proj x wq b q d * proj x wk b k d) scale

/-- The masked score: the score where key `k` is admitted for query `q` (k ≤ q + 1), -∞ elsewhere. -/
def σ (x : FVec Ideal ⟨3, ![4, 2048, 1024]⟩ .f32) (wq wk : FVec Ideal ⟨2, ![1024, 1024]⟩ .f32)
    (b : Fin 4) (q k : Fin 2048) : EReal :=
  if k.val ≤ q.val + 1 then score x wq wk b q k else ⊥

/-- The attention output at batch `b`, query row `q`, feature `d`: each value row weighted by the softmax of the
    masked scores of row `q`, the softmax taken as exp (s - M) / (0 + ∑ exp (s - M)) with M the row's maximum
    (the maximum taken from -∞, and once more against -∞). -/
def attn (x : FVec Ideal ⟨3, ![4, 2048, 1024]⟩ .f32) (wq wk wv : FVec Ideal ⟨2, ![1024, 1024]⟩ .f32)
    (b : Fin 4) (q : Fin 2048) (d : Fin 1024) : EReal :=
  ∑ k : Fin 2048,
    Ideal.div (Ideal.exp (σ x wq wk b q k - max ⊥ (Finset.univ.fold max ⊥ (σ x wq wk b q))))
        (0 + ∑ j : Fin 2048, Ideal.exp (σ x wq wk b q j - max ⊥ (Finset.univ.fold max ⊥ (σ x wq wk b q))))
      * proj x wv b k d

end Cert.ReferenceIdeal.RefValue

end
-- ==== Proof.AttnBridge.lean ====
import proofs.«176692_j9783935500852_2_alg».proof.Proof.RefReadSpec

/-!
The kernel's arrangement of the scores against the reference's, on real inputs. The kernel scales each query
entry by 1/32 before the inner product with the key; the reference divides the inner product by √1024 = 32. On
real numbers the two agree (a factor moved across a finite sum), and a projection of real inputs is real, so with
every input entry real the kernel's masked scores are the reference's and the two attention expressions coincide.
-/

noncomputable section

open scoped BigOperators

namespace Cert.ReferenceIdeal.RefValue

open Idealize.ShloMosaic Idealize.ShloMosaic.ValueIdx

/-- The coercion of the reals into the extended reals commutes with finite sums. -/
theorem coe_sum {ι : Type*} (s : Finset ι) (f : ι → ℝ) : ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A projection of real activations onto real weights is real: a finite sum of products of reals. -/
theorem proj_real (x : FVec Ideal ⟨3, ![4, 2048, 1024]⟩ .f32) (w : FVec Ideal ⟨2, ![1024, 1024]⟩ .f32)
    (hx : ∀ i, ∃ r : ℝ, x i = ((r : ℝ) : EReal)) (hw : ∀ i, ∃ r : ℝ, w i = ((r : ℝ) : EReal))
    (b : Fin 4) (t : Fin 2048) (e : Fin 1024) : ∃ r : ℝ, proj x w b t e = ((r : ℝ) : EReal) := by
  choose a ha using hx
  choose c hc using hw
  refine ⟨∑ d : Fin 1024, a (ix3 b t d) * c (ix2 e d), ?_⟩
  unfold proj
  rw [coe_sum]
  refine Finset.sum_congr rfl fun d _ => ?_
  rw [ha, hc, EReal.coe_mul]

/-- Scaling one factor of each product by 1/32 is dividing the sum of products by 32, on reals. -/
theorem sum_scaled_eq_div (p r : Fin 1024 → EReal) (hp : ∀ d, ∃ a : ℝ, p d = ((a : ℝ) : EReal)) (hr : ∀ d, ∃ a : ℝ, r d = ((a : ℝ) : EReal)) :
    ∑ d : Fin 1024, (p d * (((1 / 32 : ℝ)) : EReal)) * r d = Ideal.div (∑ d : Fin 1024, p d * r d) scale := by
  choose a ha using hp
  choose c hc using hr
  rw [scale_eq, Ideal.div_coe (by norm_num : (32 : ℝ) ≠ 0)]
  have e1 : ∀ d, (p d * (((1 / 32 : ℝ)) : EReal)) * r d = (((a d * (1 / 32) * c d : ℝ)) : EReal) := fun d => by
    rw [ha, hc, EReal.coe_mul, EReal.coe_mul]
  have e2 : ∀ d, p d * r d = (((a d * c d : ℝ)) : EReal) := fun d => by rw [ha, hc, EReal.coe_mul]
  simp only [e1, e2]
  rw [← coe_sum, ← coe_sum, ← EReal.coe_mul]
  refine congrArg _ ?_
  rw [Finset.sum_mul]
  exact Finset.sum_congr rfl fun d _ => by ring

/-- The kernel's scaled inner product of a query row with a key row is the reference's score. -/
theorem scaled_score (x : FVec Ideal ⟨3, ![4, 2048, 1024]⟩ .f32) (wq wk : FVec Ideal ⟨2, ![1024, 1024]⟩ .f32)
    (hx : ∀ i, ∃ r : ℝ, x i = ((r : ℝ) : EReal)) (hq : ∀ i, ∃ r : ℝ, wq i = ((r : ℝ) : EReal)) (hk : ∀ i, ∃ r : ℝ, wk i = ((r : ℝ) : EReal))
    (b : Fin 4) (q k : Fin 2048) :
    ∑ d' : Fin 1024, (proj x wq b q d' * (((1 / 32 : ℝ)) : EReal)) * proj x wk b k d' = score x wq wk b q k :=
  sum_scaled_eq_div _ _ (fun d => proj_real x wq hx hq b q d) (fun d => proj_real x wk hx hk b k d)

/-- The masked score as the kernel arranges it: the scaled inner product where key k is admitted for query q. -/
def σK (x : FVec Ideal ⟨3, ![4, 2048, 1024]⟩ .f32) (wq wk : FVec Ideal ⟨2, ![1024, 1024]⟩ .f32)
    (b : Fin 4) (q k : Fin 2048) : EReal :=
  if k.val ≤ q.val + 1 then ∑ d' : Fin 1024, (proj x wq b q d' * (((1 / 32 : ℝ)) : EReal)) * proj x wk b k d' else ⊥

/-- On real inputs the kernel's masked scores of a row are the reference's. -/
theorem σK_eq (x : FVec Ideal ⟨3, ![4, 2048, 1024]⟩ .f32) (wq wk : FVec Ideal ⟨2, ![1024, 1024]⟩ .f32)
    (hx : ∀ i, ∃ r : ℝ, x i = ((r : ℝ) : EReal)) (hq : ∀ i, ∃ r : ℝ, wq i = ((r : ℝ) : EReal)) (hk : ∀ i, ∃ r : ℝ, wk i = ((r : ℝ) : EReal))
    (b : Fin 4) (q : Fin 2048) : σK x wq wk b q = σ x wq wk b q := by
  funext k
  unfold σK σ
  rw [scaled_score x wq wk hx hq hk]

/-- The attention expression over the kernel's masked scores. -/
def attnK (x : FVec Ideal ⟨3, ![4, 2048, 1024]⟩ .f32) (wq wk wv : FVec Ideal ⟨2, ![1024, 1024]⟩ .f32)
    (b : Fin 4) (q : Fin 2048) (d : Fin 1024) : EReal :=
  ∑ k : Fin 2048,
    Ideal.div (Ideal.exp (σK x wq wk b q k - max ⊥ (Finset.univ.fold max ⊥ (σK x wq wk b q))))
        (0 + ∑ j : Fin 2048, Ideal.exp (σK x wq wk b q j - max ⊥ (Finset.univ.fold max ⊥ (σK x wq wk b q))))
      * proj x wv b k d

/-- On real inputs the attention expression over the kernel's masked scores is the reference's. -/
theorem attnK_eq (x : FVec Ideal ⟨3, ![4, 2048, 1024]⟩ .f32) (wq wk wv : FVec Ideal ⟨2, ![1024, 1024]⟩ .f32)
    (hx : ∀ i, ∃ r : ℝ, x i = ((r : ℝ) : EReal)) (hq : ∀ i, ∃ r : ℝ, wq i = ((r : ℝ) : EReal)) (hk : ∀ i, ∃ r : ℝ, wk i = ((r : ℝ) : EReal))
    (b : Fin 4) (q : Fin 2048) (d : Fin 1024) : attnK x wq wk wv b q d = attn x wq wk wv b q d := by
  unfold attnK attn
  rw [σK_eq x wq wk hx hq hk b q]

end Cert.ReferenceIdeal.RefValue

end
-- ==== Proof.AttnClosed.lean ====
import proofs.«176692_j9783935500852_2_alg».proof.Proof.AttnBridge

/-!
The attention expression over three arrays of queries, keys and values [4, 2048, 1024], as the kernel arranges
it: each query entry scaled by 1/32 before the inner product with the key, the causal mask, the softmax and the
weighted sum of the value rows. When the three arrays are the projections of real activations onto real weight
matrices this is the reference's attention expression of the activations and the weights.
-/

noncomputable section

open scoped BigOperators

namespace Cert.ReferenceIdeal.RefValue

open Idealize.ShloMosaic Idealize.ShloMosaic.ValueIdx

/-- The masked score of query row q against key row k in batch b, over arrays of queries and keys. -/
def sigmaA (Q K : (⟨3, ![4, 2048, 1024]⟩ : Shape).Idx → EReal) (b : Fin 4) (q k : Fin 2048) : EReal :=
  if k.val ≤ q.val + 1 then ∑ d' : Fin 1024, (Q (ix3 b q d') * (((1 / 32 : ℝ)) : EReal)) * K (ix3 b k d') else ⊥

/-- The attention output at (b, q, d), over arrays of queries, keys and values. -/
def attnA (Q K Vv : (⟨3, ![4, 2048, 1024]⟩ : Shape).Idx → EReal) (b : Fin 4) (q : Fin 2048) (d : Fin 1024) : EReal :=
  ∑ k : Fin 2048,
    Ideal.div (Ideal.exp (sigmaA Q K b q k - max ⊥ (Finset.univ.fold max ⊥ (sigmaA Q K b q))))
        (0 + ∑ j : Fin 2048, Ideal.exp (sigmaA Q K b q j - max ⊥ (Finset.univ.fold max ⊥ (sigmaA Q K b q))))
      * Vv (ix3 b k d)

/-- The same as an array: entry i at its three coordinates. -/
def attnArr (Q K Vv : (⟨3, ![4, 2048, 1024]⟩ : Shape).Idx → EReal) : (⟨3, ![4, 2048, 1024]⟩ : Shape).Idx → EReal :=
  fun i => attnA Q K Vv (i 0 : Fin 4) (i 1 : Fin 2048) (i 2 : Fin 1024)

theorem attnArr_apply (Q K Vv : (⟨3, ![4, 2048, 1024]⟩ : Shape).Idx → EReal) (b : Fin 4) (q : Fin 2048) (d : Fin 1024) :
    attnArr Q K Vv (ix3 b q d) = attnA Q K Vv b q d := rfl

/-- Over the projections, the masked scores are the kernel-arranged masked scores of the activations and weights. -/
theorem sigmaA_proj (x : FVec Ideal ⟨3, ![4, 2048, 1024]⟩ .f32) (wq wk : FVec Ideal ⟨2, ![1024, 1024]⟩ .f32)
    (Q K : (⟨3, ![4, 2048, 1024]⟩ : Shape).Idx → EReal)
    (hQ : ∀ (b : Fin 4) (t : Fin 2048) (e : Fin 1024), Q (ix3 b t e) = proj x wq b t e)
    (hK : ∀ (b : Fin 4) (t : Fin 2048) (e : Fin 1024), K (ix3 b t e) = proj x wk b t e)
    (b : Fin 4) (q : Fin 2048) : sigmaA Q K b q = σK x wq wk b q := by
  funext k
  unfold sigmaA σK
  simp only [hQ, hK]

/-- Over the projections, the attention output is the kernel-arranged attention expression. -/
theorem attnA_proj (x : FVec Ideal ⟨3, ![4, 2048, 1024]⟩ .f32) (wq wk wv : FVec Ideal ⟨2, ![1024, 1024]⟩ .f32)
    (Q K Vv : (⟨3, ![4, 2048, 1024]⟩ : Shape).Idx → EReal)
    (hQ : ∀ (b : Fin 4) (t : Fin 2048) (e : Fin 1024), Q (ix3 b t e) = proj x wq b t e)
    (hK : ∀ (b : Fin 4) (t : Fin 2048) (e : Fin 1024), K (ix3 b t e) = proj x wk b t e)
    (hV : ∀ (b : Fin 4) (t : Fin 2048) (e : Fin 1024), Vv (ix3 b t e) = proj x wv b t e)
    (b : Fin 4) (q : Fin 2048) (d : Fin 1024) : attnA Q K Vv b q d = attnK x wq wk wv b q d := by
  unfold attnA attnK
  rw [sigmaA_proj x wq wk Q K hQ hK b q]
  simp only [hV]

/-- An array that is a projection of real activations onto real weights has every entry real. -/
theorem proj_array_real (x : FVec Ideal ⟨3, ![4, 2048, 1024]⟩ .f32) (w : FVec Ideal ⟨2, ![1024, 1024]⟩ .f32)
    (hx : ∀ i, ∃ r : ℝ, x i = ((r : ℝ) : EReal)) (hw : ∀ i, ∃ r : ℝ, w i = ((r : ℝ) : EReal))
    (Q : (⟨3, ![4, 2048, 1024]⟩ : Shape).Idx → EReal)
    (hQ : ∀ (b : Fin 4) (t : Fin 2048) (e : Fin 1024), Q (ix3 b t e) = proj x w b t e) :
    ∀ i, ∃ r : ℝ, Q i = ((r : ℝ) : EReal) := fun i => by
  obtain ⟨b, t, e, rfl⟩ : ∃ (b : Fin 4) (t : Fin 2048) (e : Fin 1024), i = ix3 b t e := ⟨i 0, i 1, i 2, eq_ix3 i⟩
  rw [hQ]
  exact proj_real x w hx hw b t e

/-- Over the projections of real activations onto real weights, the attention array is the reference's attention
    expression of the activations and the weights, entry by entry. -/
theorem attnArr_proj (x : FVec Ideal ⟨3, ![4, 2048, 1024]⟩ .f32) (wq wk wv : FVec Ideal ⟨2, ![1024, 1024]⟩ .f32)
    (hx : ∀ i, ∃ r : ℝ, x i = ((r : ℝ) : EReal)) (hq : ∀ i, ∃ r : ℝ, wq i = ((r : ℝ) : EReal)) (hk : ∀ i, ∃ r : ℝ, wk i = ((r : ℝ) : EReal))
    (Q K Vv : (⟨3, ![4, 2048, 1024]⟩ : Shape).Idx → EReal)
    (hQ : ∀ (b : Fin 4) (t : Fin 2048) (e : Fin 1024), Q (ix3 b t e) = proj x wq b t e)
    (hK : ∀ (b : Fin 4) (t : Fin 2048) (e : Fin 1024), K (ix3 b t e) = proj x wk b t e)
    (hV : ∀ (b : Fin 4) (t : Fin 2048) (e : Fin 1024), Vv (ix3 b t e) = proj x wv b t e) :
    attnArr Q K Vv = fun i => attn x wq wk wv (i 0 : Fin 4) (i 1 : Fin 2048) (i 2 : Fin 1024) := by
  funext i
  obtain ⟨b, t, e, rfl⟩ : ∃ (b : Fin 4) (t : Fin 2048) (e : Fin 1024), i = ix3 b t e := ⟨i 0, i 1, i 2, eq_ix3 i⟩
  exact (attnA_proj x wq wk wv Q K Vv hQ hK hV b t e).trans (attnK_eq x wq wk wv hx hq hk b t e)

end Cert.ReferenceIdeal.RefValue

end
-- ==== Proof.AttnValue.lean ====
import proofs.«176692_j9783935500852_2_alg».proof.Proof.AttnData
import proofs.«176692_j9783935500852_2_alg».proof.Proof.AttnMathChains
import proofs.«176692_j9783935500852_2_alg».proof.Proof.AttnBlocks
import proofs.«176692_j9783935500852_2_alg».proof.Proof.AttnClosed
import Idealize.ShloMosaic.Lib.Pipeline.Value

/-!
The attention region from blocks to the result array. At point t = 4·b + qi the body leaves in the output block
the chain of tile steps of the point's control case over the point's three input blocks; on real inputs that chain
is, at row r and column d, the one-pass masked softmax-weighted sum for query 512·qi + r of batch b. The input
blocks are rows of the region's three input arrays, and the 16 output blocks tile the result, so the result array
ends at the attention expression of the three input arrays, entry by entry.
-/

noncomputable section

open scoped BigOperators

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.RefValue (sigmaA attnA attnArr attnArr_apply)

variable (V : (c : Dev nD) → (b : Ref sig .tc) → Buf (Elt Ideal) ((c : Thread nD τ).loc b))

/-- The grid's second coordinate at point t is the query tile t % 4. -/
theorem coords1 : ∀ t : Fin cfg1.N, ((grid1.coords t) 1).val = t.val % 4 :=
  (by decide +kernel : ∀ t : Fin grid1.N, ((grid1.coords t) 1).val = t.val % 4)

/-! ## The one-pass form over blocks is the attention expression over the arrays -/

/-- On a query block that is rows 512·qi … of batch b of Q and key and value blocks that are batch b of K and Vv,
    the block form of the masked softmax-weighted sum at row r is the array form at query row 512·qi + r. -/
theorem target_eq (qi : ℕ) (x : Vec Ideal S1x512x1024 .bf16) (kk vv : Vec Ideal S1x2048x1024 .bf16)
    (Q K Vv : S4x2048x1024.Idx → EReal) (b : Fin 4)
    (hx : ∀ (r : Fin 512) (d : Fin 1024) (q : Fin 2048), q.val = 512 * qi + r.val → x (ix3 (0 : Fin 1) r d) = Q (ix3 b q d))
    (hk : ∀ (k : Fin 2048) (d : Fin 1024), kk (ix3 (0 : Fin 1) k d) = K (ix3 b k d))
    (hv : ∀ (k : Fin 2048) (d : Fin 1024), vv (ix3 (0 : Fin 1) k d) = Vv (ix3 b k d))
    (r : Fin 512) (d : Fin 1024) (q : Fin 2048) (hq : q.val = 512 * qi + r.val) :
    Attn.target qi x kk vv r d = attnA Q K Vv b q d := by
  have hs : Attn.sigma qi x kk r = sigmaA Q K b q := by
    funext k
    unfold Attn.sigma sigmaA
    rw [hq]
    by_cases h : k.val ≤ 512 * qi + r.val + 1
    · rw [if_pos h, if_pos h]
      exact Finset.sum_congr rfl fun d' _ => by rw [hx r d' q hq, hk]
    · rw [if_neg h, if_neg h]
  unfold Attn.target attnA
  rw [hs]
  exact Finset.sum_congr rfl fun k _ => by rw [hv]

/-! ## What a point leaves in the output block -/

/-- On real input arrays, the output block after the body at point t holds, at each entry, the attention expression
    of the three input arrays at the entry of the result it sits at. -/
theorem out_entry (c : Dev nD)
    (hQ : ∀ i, ∃ r : ℝ, (V c main_v8 : S4x2048x1024.Idx → EReal) i = ((r : ℝ) : EReal))
    (hK : ∀ i, ∃ r : ℝ, (V c main_v9 : S4x2048x1024.Idx → EReal) i = ((r : ℝ) : EReal))
    (hV : ∀ i, ∃ r : ℝ, (V c main_v10 : S4x2048x1024.Idx → EReal) i = ((r : ℝ) : EReal))
    (t : Fin cfg1.N) (j : S1x512x1024.Idx) (k : S4x2048x1024.Idx)
    (hk0 : (k 0).val = t.val / 4) (hk1 : (k 1).val = 512 * (t.val % 4) + (j 1).val) (hk2 : (k 2).val = (j 2).val) :
    Attn.outAt V c t j = attnArr (V c main_v8) (V c main_v9) (V c main_v10) k := by
  obtain ⟨z, r, d, rfl⟩ : ∃ (z : Fin 1) (r : Fin 512) (d : Fin 1024), j = ix3 z r d := ⟨j 0, j 1, j 2, eq_ix3 j⟩
  obtain rfl : z = 0 := Subsingleton.elim _ _
  obtain ⟨b, q, d', rfl⟩ : ∃ (b : Fin 4) (q : Fin 2048) (d' : Fin 1024), k = ix3 b q d' := ⟨k 0, k 1, k 2, eq_ix3 k⟩
  obtain rfl : d = d' := (Fin.ext hk2).symm
  have hb : b.val = t.val / 4 := hk0
  have hq : q.val = 512 * (t.val % 4) + r.val := hk1
  have hlt : t.val % 4 < 4 := Nat.mod_lt _ (by norm_num)
  have ht : t.val = 4 * b.val + t.val % 4 := by omega
  -- the three blocks have real entries, being read off real arrays
  have hq0 : ∀ j, ∃ x : ℝ, (Attn.iblk V c 0 t : Vec Ideal S1x512x1024 .bf16) j = ((x : ℝ) : EReal) := fun j => hQ _
  have hk0' : ∀ j, ∃ x : ℝ, (Attn.iblk V c 1 t : Vec Ideal S1x2048x1024 .bf16) j = ((x : ℝ) : EReal) := fun j => hK _
  have hv0 : ∀ j, ∃ x : ℝ, (Attn.iblk V c 2 t : Vec Ideal S1x2048x1024 .bf16) j = ((x : ℝ) : EReal) := fun j => hV _
  -- the chain of the point's case is the block form of the sum
  have hchain : Attn.outAt V c t (ix3 (0 : Fin 1) r d)
      = Attn.target (t.val % 4) (Attn.iblk V c 0 t) (Attn.iblk V c 1 t) (Attn.iblk V c 2 t) r d := by
    unfold Attn.outAt
    by_cases h2 : Attn.guard 2#32 (grid1.coords t)
    · by_cases h3 : Attn.guard 3#32 (grid1.coords t)
      · rw [if_pos h2, if_pos h3]
        exact Attn.chainC_eq (grid1.coords t) (t.val % 4) (coords1 t) ((Attn.guard3_iff t).mp h3) hlt
          (Attn.iblk V c 0 t) (Attn.iblk V c 1 t) (Attn.iblk V c 2 t) hq0 hk0' hv0 r d
      · rw [if_pos h2, if_neg h3]
        have h1 : t.val % 4 = 1 := by
          have a := (Attn.guard2_iff t).mp h2
          have b' : ¬ 2 ≤ t.val % 4 := fun h => h3 ((Attn.guard3_iff t).mpr h)
          omega
        exact Attn.chainB_eq (grid1.coords t) (t.val % 4) (coords1 t) h1
          (Attn.iblk V c 0 t) (Attn.iblk V c 1 t) (Attn.iblk V c 2 t) hq0 hk0' hv0 r d
    · rw [if_neg h2]
      have h0 : t.val % 4 = 0 := by
        have a : ¬ 1 ≤ t.val % 4 := fun h => h2 ((Attn.guard2_iff t).mpr h)
        omega
      exact Attn.chainA_eq (grid1.coords t) (t.val % 4) (coords1 t) h0
        (Attn.iblk V c 0 t) (Attn.iblk V c 1 t) (Attn.iblk V c 2 t) hq0 hk0' hv0 r d
  rw [hchain, attnArr_apply]
  refine target_eq (t.val % 4) (Attn.iblk V c 0 t) (Attn.iblk V c 1 t) (Attn.iblk V c 2 t)
    (V c main_v8) (V c main_v9) (V c main_v10) b ?_ ?_ ?_ r d q hq
  · intro r' d'' q' hq'
    exact blk0_ix V c t b ⟨t.val % 4, hlt⟩ ht r' d'' q' hq'
  · intro k' d''
    exact blk1_ix V c t b ⟨t.val % 4, hlt⟩ ht k' d''
  · intro k' d''
    exact blk2_ix V c t b ⟨t.val % 4, hlt⟩ ht k' d''

/-- What point t writes back is block t of the attention array of the three input arrays. -/
theorem flushed3_eq (c : Dev nD)
    (hQ : ∀ i, ∃ r : ℝ, (V c main_v8 : S4x2048x1024.Idx → EReal) i = ((r : ℝ) : EReal))
    (hK : ∀ i, ∃ r : ℝ, (V c main_v9 : S4x2048x1024.Idx → EReal) i = ((r : ℝ) : EReal))
    (hV : ∀ i, ∃ r : ℝ, (V c main_v10 : S4x2048x1024.Idx → EReal) i = ((r : ℝ) : EReal))
    (t : Fin cfg1.N) :
    (Attn.dat V c).flushed 3 t = ((cfg1.win 3).blk t).view.read (Elt Ideal) (attnArr (V c main_v8) (V c main_v9) (V c main_v10)) := by
  show (cfg1.win 3).cut (grid1.coords t) ((Attn.dat V c).after 3 t) = _
  rw [Attn.after_3]
  funext j
  show Attn.outAt V c t j = attnArr (V c main_v8) (V c main_v9) (V c main_v10) (((cfg1.win 3).blk t).view.emb j)
  exact out_entry V c hQ hK hV t j (((cfg1.win 3).blk t).view.emb j) (emb3_val t j).1 (emb3_val t j).2.1 (emb3_val t j).2.2

/-- The result array after the attention region, on real input arrays: the attention expression of the three
    input arrays as the region finds them, entry by entry. -/
theorem final3 (c : Dev nD)
    (hQ : ∀ i, ∃ r : ℝ, (V c main_v8 : S4x2048x1024.Idx → EReal) i = ((r : ℝ) : EReal))
    (hK : ∀ i, ∃ r : ℝ, (V c main_v9 : S4x2048x1024.Idx → EReal) i = ((r : ℝ) : EReal))
    (hV : ∀ i, ∃ r : ℝ, (V c main_v10 : S4x2048x1024.Idx → EReal) i = ((r : ℝ) : EReal)) :
    (Attn.dat V c).arrAt 3 cfg1.N = attnArr (V c main_v8) (V c main_v9) (V c main_v10) :=
  (Attn.dat V c).arrAt_eq_of_cover 3 (attnArr (V c main_v8) (V c main_v9) (V c main_v10))
    (fun t _ => flushed3_eq V c hQ hK hV t) cover3

end Cert.KernelIdeal.AttnValue

end
-- ==== Proof.AttnValueEntry.lean ====
import proofs.«176692_j9783935500852_2_alg».proof.Proof.Gen.KernelIdeal.Launch
import Idealize.ShloMosaic.Lib.Pipeline.Value
import Idealize.ShloMosaic.Lib.StableHlo.Run
import Idealize.ShloMosaic.Lib.ValueIdx

/-!
What the attention region finds in its three input arrays: the three host operations before it recast each flat
[8192, 1024] output of the projection region to [4, 2048, 1024], so that entry (b, t, d) of each is row 2048·b + t,
column d of the flat array, from any contents W of the buffers.
-/

noncomputable section

namespace Cert.KernelIdeal.AttnValue

open Cert.KernelIdeal Cert.KernelIdeal.Gen
open Idealize.ShloMosaic Idealize.ShloMosaic.TcCoe Idealize.ShloMosaic.ValueIdx Idealize.SL.Sem

variable (W : Valuation τ sig (Elt Ideal))

/-- After the second host stretch the query buffer holds the region's query output cast to [4, 2048, 1024]. -/
theorem entry_v8_eq : (StableHlo.after (hostOps1 (F := Ideal)) W (Proc.devRef .tc main_v8) : S4x2048x1024.Idx → EReal)
    = shapeCast S4x2048x1024 (W (Proc.devRef .tc main_v7_0) : S8192x1024.Idx → EReal) shapeCasts_S8192x1024_S4x2048x1024 := by
  after_results
  rfl

/-- At (b, t, d) it reads row 2048·b + t of the flat query array: the two entries have the same row-major position. -/
theorem entry_v8_apply (b : Fin 4) (t : Fin 2048) (d : Fin 1024) (p : Fin 8192) (hp : p.val = 2048 * b.val + t.val) :
    (StableHlo.after (hostOps1 (F := Ideal)) W (Proc.devRef .tc main_v8) : S4x2048x1024.Idx → EReal) (ix3 b t d)
      = (W (Proc.devRef .tc main_v7_0) : S8192x1024.Idx → EReal) (ix2 p d) := by
  rw [entry_v8_eq]
  refine shapeCast_apply _ _ (ix3 b t d) (ix2 p d) ?_
  rw [Shape.rowMajor_val_two, Shape.rowMajor_val_three]
  show p.val * 1024 + d.val = ((b.val * 2048 + t.val) * 1024 + d.val)
  rw [hp]; ring

/-- After the second host stretch the key buffer holds the region's key output cast to [4, 2048, 1024]. -/
theorem entry_v9_eq : (StableHlo.after (hostOps1 (F := Ideal)) W (Proc.devRef .tc main_v9) : S4x2048x1024.Idx → EReal)
    = shapeCast S4x2048x1024 (W (Proc.devRef .tc main_v7_1) : S8192x1024.Idx → EReal) shapeCasts_S8192x1024_S4x2048x1024 := by
  after_results
  rfl

/-- At (b, t, d) it reads row 2048·b + t of the flat key array: the two entries have the same row-major position. -/
theorem entry_v9_apply (b : Fin 4) (t : Fin 2048) (d : Fin 1024) (p : Fin 8192) (hp : p.val = 2048 * b.val + t.val) :
    (StableHlo.after (hostOps1 (F := Ideal)) W (Proc.devRef .tc main_v9) : S4x2048x1024.Idx → EReal) (ix3 b t d)
      = (W (Proc.devRef .tc main_v7_1) : S8192x1024.Idx → EReal) (ix2 p d) := by
  rw [entry_v9_eq]
  refine shapeCast_apply _ _ (ix3 b t d) (ix2 p d) ?_
  rw [Shape.rowMajor_val_two, Shape.rowMajor_val_three]
  show p.val * 1024 + d.val = ((b.val * 2048 + t.val) * 1024 + d.val)
  rw [hp]; ring

/-- After the second host stretch the value buffer holds the region's value output cast to [4, 2048, 1024]. -/
theorem entry_v10_eq : (StableHlo.after (hostOps1 (F := Ideal)) W (Proc.devRef .tc main_v10) : S4x2048x1024.Idx → EReal)
    = shapeCast S4x2048x1024 (W (Proc.devRef .tc main_v7_2) : S8192x1024.Idx → EReal) shapeCasts_S8192x1024_S4x2048x1024 := by
  after_results
  rfl

/-- At (b, t, d) it reads row 2048·b + t of the flat value array: the two entries have the same row-major position. -/
theorem entry_v10_apply (b : Fin 4) (t : Fin 2048) (d : Fin 1024) (p : Fin 8192) (hp : p.val = 2048 * b.val + t.val) :
    (StableHlo.after (hostOps1 (F := Ideal)) W (Proc.devRef .tc main_v10) : S4x2048x1024.Idx → EReal) (ix3 b t d)
      = (W (Proc.devRef .tc main_v7_2) : S8192x1024.Idx → EReal) (ix2 p d) := by
  rw [entry_v10_eq]
  refine shapeCast_apply _ _ (ix3 b t d) (ix2 p d) ?_
  rw [Shape.rowMajor_val_two, Shape.rowMajor_val_three]
  show p.val * 1024 + d.val = ((b.val * 2048 + t.val) * 1024 + d.val)
  rw [hp]; ring

end Cert.KernelIdeal.AttnValue

end
-- ==== Proof.ProjValuePay.lean ====
import proofs.«176692_j9783935500852_2_alg».proof.Proof.Gen.KernelIdeal.Skeleton
import proofs.«176692_j9783935500852_2_alg».proof.Proof.PayReadDots
import Idealize.ShloMosaic.Lib.Pipeline.Value

/-!
The projection body's three payloads at an entry: over the extended reals the narrowing of the row block and of
the product is the identity, as is a cast between equal shapes, so each payload at (r, e) is the row r of the block
against column e of the weight matrix.
-/

noncomputable section

open scoped BigOperators

namespace Cert.KernelIdeal.ProjValue

open Idealize.ShloMosaic Idealize.ShloMosaic.ValueIdx Cert.KernelIdeal Cert.KernelIdeal.Gen

/-- The narrowed row block is the row block. -/
theorem pay1_eq (x : Vec Ideal S512x1024 .f32) : k0_pay1 (F := Ideal) x = x := by
  unfold k0_pay1
  simp only [shapeCast_self]
  rfl

/-- The query payload at (r, e). -/
theorem pay2_apply (x : Vec Ideal S512x1024 .f32) (w : Vec Ideal S1024x1024 .bf16) (r : Fin 512) (e : Fin 1024) :
    k0_pay2 (F := Ideal) x w (ix2 r e) = ∑ d : Fin 1024, x (ix2 r d) * w (ix2 d e) := by
  unfold k0_pay2
  simp only [shapeCast_self, pay1_eq]
  exact PayRead.matmul_proj_apply (φ₁ := .f32) (φ₂ := .bf16) x w r e

/-- The key payload at (r, e). -/
theorem pay3_apply (x : Vec Ideal S512x1024 .f32) (w : Vec Ideal S1024x1024 .bf16) (r : Fin 512) (e : Fin 1024) :
    k0_pay3 (F := Ideal) x w (ix2 r e) = ∑ d : Fin 1024, x (ix2 r d) * w (ix2 d e) := by
  unfold k0_pay3
  simp only [shapeCast_self, pay1_eq]
  exact PayRead.matmul_proj_apply (φ₁ := .f32) (φ₂ := .bf16) x w r e

/-- The value payload at (r, e). -/
theorem pay4_apply (x : Vec Ideal S512x1024 .f32) (w : Vec Ideal S1024x1024 .bf16) (r : Fin 512) (e : Fin 1024) :
    k0_pay4 (F := Ideal) x w (ix2 r e) = ∑ d : Fin 1024, x (ix2 r d) * w (ix2 d e) := by
  unfold k0_pay4
  simp only [shapeCast_self, pay1_eq]
  exact PayRead.matmul_proj_apply (φ₁ := .f32) (φ₂ := .bf16) x w r e

end Cert.KernelIdeal.ProjValue

end
-- ==== Proof.ProjValue.lean ====
import proofs.«176692_j9783935500852_2_alg».proof.Proof.ProjData
import proofs.«176692_j9783935500852_2_alg».proof.Proof.ProjValuePay
import Idealize.ShloMosaic.Lib.Pipeline.Value

/-!
The projection region from blocks to arrays. Point t of the 16 takes rows 512·t … 512·t + 511 of the flattened
activations and the three weight matrices whole, and writes back, into the same rows of each of three output
arrays, the product of the row block with one matrix. The 16 row blocks tile the 8192 rows (row r lies in the
block of point r / 512), so after the region each output array is, entry by entry, the product of the flattened
activations with its weight matrix, as the region found them.
-/

noncomputable section

open scoped BigOperators

namespace Cert.KernelIdeal.ProjValue

open Cert.KernelIdeal Cert.KernelIdeal.Gen Cert.KernelIdeal.Proj
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The flattened activations times a weight matrix, entry by entry: at (p, e) row p against column e. -/
def G (a : S8192x1024.Idx → EReal) (w : S1024x1024.Idx → EReal) : S8192x1024.Idx → EReal :=
  fun j => ∑ d : Fin 1024, a (ix2 (j 0 : Fin 8192) d) * w (ix2 d (j 1 : Fin 1024))

theorem G_apply (a : S8192x1024.Idx → EReal) (w : S1024x1024.Idx → EReal) (p : Fin 8192) (e : Fin 1024) :
    G a w (ix2 p e) = ∑ d : Fin 1024, a (ix2 p d) * w (ix2 d e) := rfl

/-- The index maps over the grid: the row windows (the activations' and the three outputs') sit at block row t,
    block column 0; the weight windows at block (0, 0) throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks -/

/-- The row block at point t is rows 512·t … of the flattened activations. -/
theorem iblk0_apply (c : Dev nD) (t : Fin cfg0.N) (j : S512x1024.Idx) (k : S8192x1024.Idx)
    (hk0 : (k 0).val = 512 * t.val + (j 0).val) (hk1 : (k 1).val = (j 1).val) :
    (iblk V c 0 t : Vec Ideal S512x1024 .f32) j = (V c main_v6 : S8192x1024.Idx → EReal) k := by
  obtain ⟨e0, e1, -⟩ := idx_facts t
  unfold iblk
  rw [View.read_apply]
  show V c main_v6 _ = V c main_v6 _
  congr 1
  funext a
  apply Fin.ext
  match a with
  | ⟨0, _⟩ => show win0_0.index t 0 * 512 + 1 * (j 0).val = (k 0).val; rw [e0, hk0]; omega
  | ⟨1, _⟩ => show win0_0.index t 1 * 1024 + 1 * (j 1).val = (k 1).val; rw [e1, hk1]; omega

/-- Weight window 1's block at any point is its whole matrix. -/
theorem iblk1_apply (c : Dev nD) (t : Fin cfg0.N) (j : S1024x1024.Idx) :
    (iblk V c 1 t : Vec Ideal S1024x1024 .bf16) j = (V c main_v1 : S1024x1024.Idx → EReal) j := by
  obtain ⟨-, -, e2, e3, -⟩ := idx_facts t
  unfold iblk
  rw [View.read_apply]
  show V c main_v1 _ = V c main_v1 _
  congr 1
  funext a
  apply Fin.ext
  match a with
  | ⟨0, _⟩ => show win0_1.index t 0 * 1024 + 1 * (j 0).val = (j 0).val; rw [e2]; omega
  | ⟨1, _⟩ => show win0_1.index t 1 * 1024 + 1 * (j 1).val = (j 1).val; rw [e3]; omega

/-- Weight window 2's block at any point is its whole matrix. -/
theorem iblk2_apply (c : Dev nD) (t : Fin cfg0.N) (j : S1024x1024.Idx) :
    (iblk V c 2 t : Vec Ideal S1024x1024 .bf16) j = (V c main_v3 : S1024x1024.Idx → EReal) j := by
  obtain ⟨-, -, -, -, e4, e5, -⟩ := idx_facts t
  unfold iblk
  rw [View.read_apply]
  show V c main_v3 _ = V c main_v3 _
  congr 1
  funext a
  apply Fin.ext
  match a with
  | ⟨0, _⟩ => show win0_2.index t 0 * 1024 + 1 * (j 0).val = (j 0).val; rw [e4]; omega
  | ⟨1, _⟩ => show win0_2.index t 1 * 1024 + 1 * (j 1).val = (j 1).val; rw [e5]; omega

/-- Weight window 3's block at any point is its whole matrix. -/
theorem iblk3_apply (c : Dev nD) (t : Fin cfg0.N) (j : S1024x1024.Idx) :
    (iblk V c 3 t : Vec Ideal S1024x1024 .bf16) j = (V c main_v5 : S1024x1024.Idx → EReal) j := by
  obtain ⟨-, -, -, -, -, -, e6, e7, -⟩ := idx_facts t
  unfold iblk
  rw [View.read_apply]
  show V c main_v5 _ = V c main_v5 _
  congr 1
  funext a
  apply Fin.ext
  match a with
  | ⟨0, _⟩ => show win0_3.index t 0 * 1024 + 1 * (j 0).val = (j 0).val; rw [e6]; omega
  | ⟨1, _⟩ => show win0_3.index t 1 * 1024 + 1 * (j 1).val = (j 1).val; rw [e7]; omega

/-! ## A block's product sits in the array's product -/

/-- A payload that is the product of its two blocks, on a row block that is rows 512·n … of A and a matrix block
    that is W, is at each entry the entry of the product of A and W it sits at. -/
theorem block_product (pay : Vec Ideal S512x1024 .f32 → Vec Ideal S1024x1024 .bf16 → FVec Ideal S512x1024 .bf16)
    (hpay : ∀ x w (r : Fin 512) (e : Fin 1024), pay x w (ix2 r e) = ∑ d : Fin 1024, x (ix2 r d) * w (ix2 d e))
    (x : Vec Ideal S512x1024 .f32) (w : Vec Ideal S1024x1024 .bf16)
    (A : S8192x1024.Idx → EReal) (W : S1024x1024.Idx → EReal) (n : Nat)
    (hx : ∀ (j : S512x1024.Idx) (k : S8192x1024.Idx), (k 0).val = 512 * n + (j 0).val → (k 1).val = (j 1).val → x j = A k)
    (hw : ∀ j : S1024x1024.Idx, w j = W j)
    (j : S512x1024.Idx) (k : S8192x1024.Idx) (hk0 : (k 0).val = 512 * n + (j 0).val) (hk1 : (k 1).val = (j 1).val) :
    pay x w j = G A W k := by
  obtain ⟨r, e, rfl⟩ : ∃ (r : Fin 512) (e : Fin 1024), j = ix2 r e := ⟨j 0, j 1, eq_ix2 j⟩
  obtain ⟨p, e', rfl⟩ : ∃ (p : Fin 8192) (e' : Fin 1024), k = ix2 p e' := ⟨k 0, k 1, eq_ix2 k⟩
  obtain rfl : e' = e := Fin.ext hk1
  rw [hpay, G_apply]
  refine Finset.sum_congr rfl fun d _ => ?_
  rw [hx (ix2 r d) (ix2 p d) hk0 rfl, hw]

/-! ## The query array -/

/-- What point t writes back into the query array is block t of the product of the flattened activations with the
    first weight matrix, as the region finds them. -/
theorem flushed4_eq (c : Dev nD) (t : Fin cfg0.N) :
    (dat V c).flushed 4 t = ((cfg0.win 4).blk t).view.read (Elt Ideal) (G (V c main_v6) (V c main_v1)) := by
  show (cfg0.win 4).cut (grid0.coords t) ((dat V c).after 4 t) = _
  rw [after_4]
  unfold outQ
  rw [View.canon_unit_zero hz]
  simp only [View.ld_unit_zero (S := S512x1024) hz, View.ld_unit_zero (S := S1024x1024) hz]
  obtain ⟨-, -, -, -, -, -, -, -, e8, e9, -⟩ := idx_facts t
  funext j
  show k0_pay2 (iblk V c 0 t) (iblk V c 1 t) j = G (V c main_v6) (V c main_v1) (((cfg0.win 4).blk t).view.emb j)
  refine block_product k0_pay2 pay2_apply (iblk V c 0 t) (iblk V c 1 t) (V c main_v6) (V c main_v1) t.val
    (iblk0_apply V c t) (iblk1_apply V c t) j (((cfg0.win 4).blk t).view.emb j) ?_ ?_
  · show win0_4.index t 0 * 512 + 1 * (j 0).val = 512 * t.val + (j 0).val
    rw [e8]; omega
  · show win0_4.index t 1 * 1024 + 1 * (j 1).val = (j 1).val
    rw [e9]; omega

/-- An index of the query array is in point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v7_0).slice (win0_4.rect t)).set ↔ _
  rw [View.set_slice_whole, Rect.mem_set_unit]
  exact Iff.rfl

/-- Every entry of the query array is in the block of the point its row index divided by 512 names. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_4 _, ?_⟩
  rw [mem_blk4]
  obtain ⟨-, -, -, -, -, -, -, -, e8, e9, -⟩ := idx_facts ⟨(i 0).val / 512, by rw [hN]; omega⟩
  intro a
  match a with
  | ⟨0, _⟩ => show win0_4.index _ (0 : Fin 2) * 512 ≤ (i 0).val ∧ (i 0).val < win0_4.index _ (0 : Fin 2) * 512 + 512; rw [e8]; show (i 0).val / 512 * 512 ≤ (i 0).val ∧ (i 0).val < (i 0).val / 512 * 512 + 512; omega
  | ⟨1, _⟩ => show win0_4.index _ (1 : Fin 2) * 1024 ≤ (i 1).val ∧ (i 1).val < win0_4.index _ (1 : Fin 2) * 1024 + 1024; rw [e9]; omega

/-- The query array after the region: the flattened activations times the first weight matrix. -/
theorem final4 (c : Dev nD) : (dat V c).arrAt 4 cfg0.N = G (V c main_v6) (V c main_v1) :=
  (dat V c).arrAt_eq_of_cover 4 (G (V c main_v6) (V c main_v1)) (fun t _ => flushed4_eq V c t) cover4

/-! ## The key array -/

/-- What point t writes back into the key array is block t of the product of the flattened activations with the
    second weight matrix, as the region finds them. -/
theorem flushed5_eq (c : Dev nD) (t : Fin cfg0.N) :
    (dat V c).flushed 5 t = ((cfg0.win 5).blk t).view.read (Elt Ideal) (G (V c main_v6) (V c main_v3)) := by
  show (cfg0.win 5).cut (grid0.coords t) ((dat V c).after 5 t) = _
  rw [after_5]
  unfold outK
  rw [View.canon_unit_zero hz]
  simp only [View.ld_unit_zero (S := S512x1024) hz, View.ld_unit_zero (S := S1024x1024) hz]
  obtain ⟨-, -, -, -, -, -, -, -, -, -, e10, e11, -⟩ := idx_facts t
  funext j
  show k0_pay3 (iblk V c 0 t) (iblk V c 2 t) j = G (V c main_v6) (V c main_v3) (((cfg0.win 5).blk t).view.emb j)
  refine block_product k0_pay3 pay3_apply (iblk V c 0 t) (iblk V c 2 t) (V c main_v6) (V c main_v3) t.val
    (iblk0_apply V c t) (iblk2_apply V c t) j (((cfg0.win 5).blk t).view.emb j) ?_ ?_
  · show win0_5.index t 0 * 512 + 1 * (j 0).val = 512 * t.val + (j 0).val
    rw [e10]; omega
  · show win0_5.index t 1 * 1024 + 1 * (j 1).val = (j 1).val
    rw [e11]; omega

/-- An index of the key array is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7_1).slice (win0_5.rect t)).set ↔ _
  rw [View.set_slice_whole, Rect.mem_set_unit]
  exact Iff.rfl

/-- Every entry of the key array is in the block of the point its row index divided by 512 names. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_5 _, ?_⟩
  rw [mem_blk5]
  obtain ⟨-, -, -, -, -, -, -, -, -, -, e10, e11, -⟩ := idx_facts ⟨(i 0).val / 512, by rw [hN]; omega⟩
  intro a
  match a with
  | ⟨0, _⟩ => show win0_5.index _ (0 : Fin 2) * 512 ≤ (i 0).val ∧ (i 0).val < win0_5.index _ (0 : Fin 2) * 512 + 512; rw [e10]; show (i 0).val / 512 * 512 ≤ (i 0).val ∧ (i 0).val < (i 0).val / 512 * 512 + 512; omega
  | ⟨1, _⟩ => show win0_5.index _ (1 : Fin 2) * 1024 ≤ (i 1).val ∧ (i 1).val < win0_5.index _ (1 : Fin 2) * 1024 + 1024; rw [e11]; omega

/-- The key array after the region: the flattened activations times the second weight matrix. -/
theorem final5 (c : Dev nD) : (dat V c).arrAt 5 cfg0.N = G (V c main_v6) (V c main_v3) :=
  (dat V c).arrAt_eq_of_cover 5 (G (V c main_v6) (V c main_v3)) (fun t _ => flushed5_eq V c t) cover5

/-! ## The value array -/

/-- What point t writes back into the value array is block t of the product of the flattened activations with the
    third weight matrix, as the region finds them. -/
theorem flushed6_eq (c : Dev nD) (t : Fin cfg0.N) :
    (dat V c).flushed 6 t = ((cfg0.win 6).blk t).view.read (Elt Ideal) (G (V c main_v6) (V c main_v5)) := by
  show (cfg0.win 6).cut (grid0.coords t) ((dat V c).after 6 t) = _
  rw [after_6]
  unfold outV
  rw [View.canon_unit_zero hz]
  simp only [View.ld_unit_zero (S := S512x1024) hz, View.ld_unit_zero (S := S1024x1024) hz]
  obtain ⟨-, -, -, -, -, -, -, -, -, -, -, -, e12, e13⟩ := idx_facts t
  funext j
  show k0_pay4 (iblk V c 0 t) (iblk V c 3 t) j = G (V c main_v6) (V c main_v5) (((cfg0.win 6).blk t).view.emb j)
  refine block_product k0_pay4 pay4_apply (iblk V c 0 t) (iblk V c 3 t) (V c main_v6) (V c main_v5) t.val
    (iblk0_apply V c t) (iblk3_apply V c t) j (((cfg0.win 6).blk t).view.emb j) ?_ ?_
  · show win0_6.index t 0 * 512 + 1 * (j 0).val = 512 * t.val + (j 0).val
    rw [e12]; omega
  · show win0_6.index t 1 * 1024 + 1 * (j 1).val = (j 1).val
    rw [e13]; omega

/-- An index of the value array is in point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7_2).slice (win0_6.rect t)).set ↔ _
  rw [View.set_slice_whole, Rect.mem_set_unit]
  exact Iff.rfl

/-- Every entry of the value array is in the block of the point its row index divided by 512 names. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_6 _, ?_⟩
  rw [mem_blk6]
  obtain ⟨-, -, -, -, -, -, -, -, -, -, -, -, e12, e13⟩ := idx_facts ⟨(i 0).val / 512, by rw [hN]; omega⟩
  intro a
  match a with
  | ⟨0, _⟩ => show win0_6.index _ (0 : Fin 2) * 512 ≤ (i 0).val ∧ (i 0).val < win0_6.index _ (0 : Fin 2) * 512 + 512; rw [e12]; show (i 0).val / 512 * 512 ≤ (i 0).val ∧ (i 0).val < (i 0).val / 512 * 512 + 512; omega
  | ⟨1, _⟩ => show win0_6.index _ (1 : Fin 2) * 1024 ≤ (i 1).val ∧ (i 1).val < win0_6.index _ (1 : Fin 2) * 1024 + 1024; rw [e13]; omega

/-- The value array after the region: the flattened activations times the third weight matrix. -/
theorem final6 (c : Dev nD) : (dat V c).arrAt 6 cfg0.N = G (V c main_v6) (V c main_v5) :=
  (dat V c).arrAt_eq_of_cover 6 (G (V c main_v6) (V c main_v5)) (fun t _ => flushed6_eq V c t) cover6

end Cert.KernelIdeal.ProjValue

end
-- ==== Proof.ProjValueEntry.lean ====
import proofs.«176692_j9783935500852_2_alg».proof.Proof.Gen.KernelIdeal.Launch
import Idealize.ShloMosaic.Lib.Pipeline.Value
import Idealize.ShloMosaic.Lib.StableHlo.Run
import Idealize.ShloMosaic.Lib.ValueIdx

/-!
What the projection region finds in its four input arrays: the seven host operations before it leave, from any
contents W of the buffers, the activations flattened (row 2048·b + t of the flat array is row t of batch b) and each
weight matrix transposed (entry (d, e) is the matrix's entry (e, d)); the narrowing of the transposed matrices is
the identity over the extended reals.
-/

noncomputable section

namespace Cert.KernelIdeal.ProjValue

open Cert.KernelIdeal Cert.KernelIdeal.Gen
open Idealize.ShloMosaic Idealize.ShloMosaic.TcCoe Idealize.ShloMosaic.ValueIdx Idealize.SL.Sem

variable (W : Valuation τ sig (Elt Ideal))

/-- After the first host stretch the flattened buffer holds the activations cast to [8192, 1024]. -/
theorem entry_v6_eq : (StableHlo.after (hostOps0 (F := Ideal)) W (Proc.devRef .tc main_v6) : S8192x1024.Idx → EReal)
    = shapeCast S8192x1024 (W (Proc.devRef .tc main_arg0) : S4x2048x1024.Idx → EReal) shapeCasts_S4x2048x1024_S8192x1024 := by
  after_results
  rfl

/-- The flattened activations at row 2048·b + t are the activations at (b, t): the two entries have the same
    row-major position. -/
theorem entry_v6_apply (b : Fin 4) (t : Fin 2048) (d : Fin 1024) (p : Fin 8192) (hp : p.val = 2048 * b.val + t.val) :
    (StableHlo.after (hostOps0 (F := Ideal)) W (Proc.devRef .tc main_v6) : S8192x1024.Idx → EReal) (ix2 p d)
      = (W (Proc.devRef .tc main_arg0) : S4x2048x1024.Idx → EReal) (ix3 b t d) := by
  rw [entry_v6_eq]
  refine shapeCast_apply _ _ (ix2 p d) (ix3 b t d) ?_
  rw [Shape.rowMajor_val_two, Shape.rowMajor_val_three]
  show ((b.val * 2048 + t.val) * 1024 + d.val) = p.val * 1024 + d.val
  rw [hp]; ring

/-- After the first host stretch the first weight buffer holds the first weight matrix transposed (the narrowing
    that follows the transposition is the identity over the extended reals). -/
theorem entry_v1_eq : (StableHlo.after (hostOps0 (F := Ideal)) W (Proc.devRef .tc main_v1) : S1024x1024.Idx → EReal)
    = transpose S1024x1024 [1, 0] (W (Proc.devRef .tc main_arg1) : S1024x1024.Idx → EReal) transposes_S1024x1024_S1024x1024_1_0 := by
  after_results
  rfl

/-- At (d, e) it reads the first weight matrix at (e, d). -/
theorem entry_v1_apply (d e : Fin 1024) :
    (StableHlo.after (hostOps0 (F := Ideal)) W (Proc.devRef .tc main_v1) : S1024x1024.Idx → EReal) (ix2 d e)
      = (W (Proc.devRef .tc main_arg1) : S1024x1024.Idx → EReal) (ix2 e d) := by
  rw [entry_v1_eq]
  refine transpose_apply _ _ _ (ix2 d e) (ix2 e d) fun b => ?_
  match b with
  | ⟨0, _⟩ => rfl
  | ⟨1, _⟩ => rfl

/-- After the first host stretch the second weight buffer holds the second weight matrix transposed (the narrowing
    that follows the transposition is the identity over the extended reals). -/
theorem entry_v3_eq : (StableHlo.after (hostOps0 (F := Ideal)) W (Proc.devRef .tc main_v3) : S1024x1024.Idx → EReal)
    = transpose S1024x1024 [1, 0] (W (Proc.devRef .tc main_arg2) : S1024x1024.Idx → EReal) transposes_S1024x1024_S1024x1024_1_0 := by
  after_results
  rfl

/-- At (d, e) it reads the second weight matrix at (e, d). -/
theorem entry_v3_apply (d e : Fin 1024) :
    (StableHlo.after (hostOps0 (F := Ideal)) W (Proc.devRef .tc main_v3) : S1024x1024.Idx → EReal) (ix2 d e)
      = (W (Proc.devRef .tc main_arg2) : S1024x1024.Idx → EReal) (ix2 e d) := by
  rw [entry_v3_eq]
  refine transpose_apply _ _ _ (ix2 d e) (ix2 e d) fun b => ?_
  match b with
  | ⟨0, _⟩ => rfl
  | ⟨1, _⟩ => rfl

/-- After the first host stretch the third weight buffer holds the third weight matrix transposed (the narrowing
    that follows the transposition is the identity over the extended reals). -/
theorem entry_v5_eq : (StableHlo.after (hostOps0 (F := Ideal)) W (Proc.devRef .tc main_v5) : S1024x1024.Idx → EReal)
    = transpose S1024x1024 [1, 0] (W (Proc.devRef .tc main_arg3) : S1024x1024.Idx → EReal) transposes_S1024x1024_S1024x1024_1_0 := by
  after_results
  rfl

/-- At (d, e) it reads the third weight matrix at (e, d). -/
theorem entry_v5_apply (d e : Fin 1024) :
    (StableHlo.after (hostOps0 (F := Ideal)) W (Proc.devRef .tc main_v5) : S1024x1024.Idx → EReal) (ix2 d e)
      = (W (Proc.devRef .tc main_arg3) : S1024x1024.Idx → EReal) (ix2 e d) := by
  rw [entry_v5_eq]
  refine transpose_apply _ _ _ (ix2 d e) (ix2 e d) fun b => ?_
  match b with
  | ⟨0, _⟩ => rfl
  | ⟨1, _⟩ => rfl

end Cert.KernelIdeal.ProjValue

end
-- ==== Proof.ProjValueProj.lean ====
import proofs.«176692_j9783935500852_2_alg».proof.Proof.ProjValue
import proofs.«176692_j9783935500852_2_alg».proof.Proof.ProjValueEntry
import proofs.«176692_j9783935500852_2_alg».proof.Proof.RefReadSpec

/-!
The projection region's three output arrays in terms of the launch arguments: entered after the host
operations that flatten the activations and transpose the weights, the region leaves in row 2048·b + t, column e
of each output the projection of the activations' row (b, t) onto row e of the corresponding weight matrix.
-/

noncomputable section

open scoped BigOperators

namespace Cert.KernelIdeal.ProjValue

open Cert.KernelIdeal Cert.KernelIdeal.Gen
open Idealize.ShloMosaic Idealize.ShloMosaic.TcCoe Idealize.ShloMosaic.ValueIdx Idealize.SL.Sem
open Cert.ReferenceIdeal (RefValue.proj)

/-- The TensorCore's buffers as the projection region finds them, from contents W at launch: the first host
    stretch applied. -/
abbrev entry (W : Dev nD → Valuation τ sig (Elt Ideal)) : (c : Dev nD) → (b : Ref sig .tc) → Buf (Elt Ideal) ((c : Thread nD τ).loc b) :=
  fun c b => StableHlo.after (hostOps0 (F := Ideal)) (W c) (Proc.devRef .tc b)

variable (W : Dev nD → Valuation τ sig (Elt Ideal))

/-- The queries array after the projection region, at row 2048·b + t and feature e, is the first projection of the
    launch arguments at (b, t, e). -/
theorem queries_apply (c : Dev nD) (b : Fin 4) (t : Fin 2048) (e : Fin 1024) (p : Fin 8192) (hp : p.val = 2048 * b.val + t.val) :
    ((Proj.dat (F := Ideal) (entry W) c).arrAt 4 cfg0.N : S8192x1024.Idx → EReal) (ix2 p e)
      = RefValue.proj (W c (Proc.devRef .tc main_arg0)) (W c (Proc.devRef .tc main_arg1)) b t e := by
  rw [final4]
  refine (G_apply _ _ p e).trans ?_
  unfold RefValue.proj
  refine Finset.sum_congr rfl fun d _ => ?_
  exact congrArg₂ (· * ·) (entry_v6_apply (W c) b t d p hp) (entry_v1_apply (W c) d e)

/-- The keys array after the projection region, at row 2048·b + t and feature e, is the second projection of the
    launch arguments at (b, t, e). -/
theorem keys_apply (c : Dev nD) (b : Fin 4) (t : Fin 2048) (e : Fin 1024) (p : Fin 8192) (hp : p.val = 2048 * b.val + t.val) :
    ((Proj.dat (F := Ideal) (entry W) c).arrAt 5 cfg0.N : S8192x1024.Idx → EReal) (ix2 p e)
      = RefValue.proj (W c (Proc.devRef .tc main_arg0)) (W c (Proc.devRef .tc main_arg2)) b t e := by
  rw [final5]
  refine (G_apply _ _ p e).trans ?_
  unfold RefValue.proj
  refine Finset.sum_congr rfl fun d _ => ?_
  exact congrArg₂ (· * ·) (entry_v6_apply (W c) b t d p hp) (entry_v3_apply (W c) d e)

/-- The values array after the projection region, at row 2048·b + t and feature e, is the third projection of the
    launch arguments at (b, t, e). -/
theorem values_apply (c : Dev nD) (b : Fin 4) (t : Fin 2048) (e : Fin 1024) (p : Fin 8192) (hp : p.val = 2048 * b.val + t.val) :
    ((Proj.dat (F := Ideal) (entry W) c).arrAt 6 cfg0.N : S8192x1024.Idx → EReal) (ix2 p e)
      = RefValue.proj (W c (Proc.devRef .tc main_arg0)) (W c (Proc.devRef .tc main_arg3)) b t e := by
  rw [final6]
  refine (G_apply _ _ p e).trans ?_
  unfold RefValue.proj
  refine Finset.sum_congr rfl fun d _ => ?_
  exact congrArg₂ (· * ·) (entry_v6_apply (W c) b t d p hp) (entry_v5_apply (W c) d e)

end Cert.KernelIdeal.ProjValue

end
-- ==== Proof.WholeValue.lean ====
import proofs.«176692_j9783935500852_2_alg».proof.Proof.WholeFrame
import proofs.«176692_j9783935500852_2_alg».proof.Proof.AttnValue
import proofs.«176692_j9783935500852_2_alg».proof.Proof.AttnValueEntry
import proofs.«176692_j9783935500852_2_alg».proof.Proof.ProjValueProj

/-!
The whole program's value over the extended reals. The projection region leaves the three projections of the
activations in its flat outputs; the host recasts them to [4, 2048, 1024]; the attention region, finding three real
arrays, leaves the attention expression over them in the result. So with every entry of the four arguments real,
the result buffer ends at the reference's attention expression of the arguments, entry by entry, and every
execution ends with that result and the arguments unchanged.
-/

noncomputable section

namespace Cert.KernelIdeal.WholeValue

open Cert.KernelIdeal Cert.KernelIdeal.Gen Cert.KernelIdeal.Whole
open Idealize.ShloMosaic Idealize.ShloMosaic.TcCoe Idealize.ShloMosaic.ValueIdx Idealize.SL.Sem
open Cert.ReferenceIdeal (RefValue.proj RefValue.attn RefValue.attnArr)

variable (m : (ℓ : Loc nD τ sig) → Buf (Elt Ideal) ℓ) (ρ : Dev nD → PrngReg)

/-! ## The projection region's outputs -/

/-- The flat query array at the projection region's exit, at row 2048·b + t: the first projection of the arguments. -/
theorem v7_0_apply (c : Dev nD) (b : Fin 4) (t : Fin 2048) (e : Fin 1024) (p : Fin 8192) (hp : p.val = 2048 * b.val + t.val) :
    (W2 m ρ c (Proc.devRef .tc main_v7_0) : S8192x1024.Idx → EReal) (ix2 p e)
      = RefValue.proj (m ((c : Thread nD τ).loc main_arg0)) (m ((c : Thread nD τ).loc main_arg1)) b t e := by
  rw [show W2 m ρ c (Proc.devRef .tc main_v7_0) = (Proj.dat (V1 m ρ) c).arrAt 4 cfg0.N from W2_arr m ρ c 4]
  exact ProjValue.queries_apply (W0 m ρ) c b t e p hp

/-- The flat key array at the projection region's exit: the second projection. -/
theorem v7_1_apply (c : Dev nD) (b : Fin 4) (t : Fin 2048) (e : Fin 1024) (p : Fin 8192) (hp : p.val = 2048 * b.val + t.val) :
    (W2 m ρ c (Proc.devRef .tc main_v7_1) : S8192x1024.Idx → EReal) (ix2 p e)
      = RefValue.proj (m ((c : Thread nD τ).loc main_arg0)) (m ((c : Thread nD τ).loc main_arg2)) b t e := by
  rw [show W2 m ρ c (Proc.devRef .tc main_v7_1) = (Proj.dat (V1 m ρ) c).arrAt 5 cfg0.N from W2_arr m ρ c 5]
  exact ProjValue.keys_apply (W0 m ρ) c b t e p hp

/-- The flat value array at the projection region's exit: the third projection. -/
theorem v7_2_apply (c : Dev nD) (b : Fin 4) (t : Fin 2048) (e : Fin 1024) (p : Fin 8192) (hp : p.val = 2048 * b.val + t.val) :
    (W2 m ρ c (Proc.devRef .tc main_v7_2) : S8192x1024.Idx → EReal) (ix2 p e)
      = RefValue.proj (m ((c : Thread nD τ).loc main_arg0)) (m ((c : Thread nD τ).loc main_arg3)) b t e := by
  rw [show W2 m ρ c (Proc.devRef .tc main_v7_2) = (Proj.dat (V1 m ρ) c).arrAt 6 cfg0.N from W2_arr m ρ c 6]
  exact ProjValue.values_apply (W0 m ρ) c b t e p hp

/-! ## The attention region's inputs -/

/-- The query array the attention region finds, at (b, t, e): the first projection of the arguments. -/
theorem v8_apply (c : Dev nD) (b : Fin 4) (t : Fin 2048) (e : Fin 1024) :
    (V3 m ρ c main_v8 : S4x2048x1024.Idx → EReal) (ix3 b t e)
      = RefValue.proj (m ((c : Thread nD τ).loc main_arg0)) (m ((c : Thread nD τ).loc main_arg1)) b t e :=
  (AttnValue.entry_v8_apply (W2 m ρ c) b t e ⟨2048 * b.val + t.val, by have := b.isLt; have := t.isLt; omega⟩ rfl).trans
    (v7_0_apply m ρ c b t e _ rfl)

/-- The key array the attention region finds: the second projection. -/
theorem v9_apply (c : Dev nD) (b : Fin 4) (t : Fin 2048) (e : Fin 1024) :
    (V3 m ρ c main_v9 : S4x2048x1024.Idx → EReal) (ix3 b t e)
      = RefValue.proj (m ((c : Thread nD τ).loc main_arg0)) (m ((c : Thread nD τ).loc main_arg2)) b t e :=
  (AttnValue.entry_v9_apply (W2 m ρ c) b t e ⟨2048 * b.val + t.val, by have := b.isLt; have := t.isLt; omega⟩ rfl).trans
    (v7_1_apply m ρ c b t e _ rfl)

/-- The value array the attention region finds: the third projection. -/
theorem v10_apply (c : Dev nD) (b : Fin 4) (t : Fin 2048) (e : Fin 1024) :
    (V3 m ρ c main_v10 : S4x2048x1024.Idx → EReal) (ix3 b t e)
      = RefValue.proj (m ((c : Thread nD τ).loc main_arg0)) (m ((c : Thread nD τ).loc main_arg3)) b t e :=
  (AttnValue.entry_v10_apply (W2 m ρ c) b t e ⟨2048 * b.val + t.val, by have := b.isLt; have := t.isLt; omega⟩ rfl).trans
    (v7_2_apply m ρ c b t e _ rfl)

/-! ## The result -/

/-- With every entry of the four arguments real, the result buffer at the last valuation is the reference's attention
    expression of the arguments, entry by entry. -/
theorem result_eq (c : Dev nD)
    (hx : ∀ i, ∃ r : ℝ, (m ((c : Thread nD τ).loc main_arg0) : S4x2048x1024.Idx → EReal) i = ((r : ℝ) : EReal))
    (hq : ∀ i, ∃ r : ℝ, (m ((c : Thread nD τ).loc main_arg1) : S1024x1024.Idx → EReal) i = ((r : ℝ) : EReal))
    (hk : ∀ i, ∃ r : ℝ, (m ((c : Thread nD τ).loc main_arg2) : S1024x1024.Idx → EReal) i = ((r : ℝ) : EReal))
    (hv : ∀ i, ∃ r : ℝ, (m ((c : Thread nD τ).loc main_arg3) : S1024x1024.Idx → EReal) i = ((r : ℝ) : EReal)) :
    (W4 m ρ c (Proc.devRef .tc main_v11) : S4x2048x1024.Idx → EReal)
      = fun i => RefValue.attn (m ((c : Thread nD τ).loc main_arg0)) (m ((c : Thread nD τ).loc main_arg1))
          (m ((c : Thread nD τ).loc main_arg2)) (m ((c : Thread nD τ).loc main_arg3)) (i 0) (i 1) (i 2) := by
  rw [show W4 m ρ c (Proc.devRef .tc main_v11) = (Attn.dat (V3 m ρ) c).arrAt 3 cfg1.N from W4_arr m ρ c 3]
  rw [AttnValue.final3 (V3 m ρ) c
    (Cert.ReferenceIdeal.RefValue.proj_array_real _ _ hx hq _ (v8_apply m ρ c))
    (Cert.ReferenceIdeal.RefValue.proj_array_real _ _ hx hk _ (v9_apply m ρ c))
    (Cert.ReferenceIdeal.RefValue.proj_array_real _ _ hx hv _ (v10_apply m ρ c))]
  exact Cert.ReferenceIdeal.RefValue.attnArr_proj _ _ _ _ hx hq hk _ _ _ (v8_apply m ρ c) (v9_apply m ρ c) (v10_apply m ρ c)

/-- With every entry of the four arguments real on every device: every weakly fair execution from zero counters
    terminates with the result array at the reference's attention expression of the arguments and the four
    arguments unchanged. -/
theorem run_value
    (hreal : ∀ c : Dev nD,
      (∀ i, ∃ r : ℝ, (m ((c : Thread nD τ).loc main_arg0) : S4x2048x1024.Idx → EReal) i = ((r : ℝ) : EReal))
      ∧ (∀ i, ∃ r : ℝ, (m ((c : Thread nD τ).loc main_arg1) : S1024x1024.Idx → EReal) i = ((r : ℝ) : EReal))
      ∧ (∀ i, ∃ r : ℝ, (m ((c : Thread nD τ).loc main_arg2) : S1024x1024.Idx → EReal) i = ((r : ℝ) : EReal))
      ∧ (∀ i, ∃ r : ℝ, (m ((c : Thread nD τ).loc main_arg3) : S1024x1024.Idx → EReal) i = ((r : ℝ) : EReal))) :
    θ_run (defs (F := Ideal)) (onTc (τ := τ) (main (F := Ideal))) ⟨m, fun _ => 0, ρ⟩ (fun r => ∀ c : Dev nD,
      r.2.mem ((c.tc : Thread nD τ).loc main_v11)
          = (fun i => RefValue.attn (m ((c.tc : Thread nD τ).loc main_arg0)) (m ((c.tc : Thread nD τ).loc main_arg1))
              (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
      ⟨(h c (Proc.devRef .tc main_v11) (WholeFrame.mem_ucRefs main_v11 (by decide))).trans
          (result_eq m ρ c (hreal c).1 (hreal c).2.1 (hreal c).2.2.1 (hreal c).2.2.2),
        (h c (Proc.devRef .tc main_arg0) (WholeFrame.mem_ucRefs main_arg0 (by decide))).trans (WholeFrame.W4_main_arg0 m ρ c),
        (h c (Proc.devRef .tc main_arg1) (WholeFrame.mem_ucRefs main_arg1 (by decide))).trans (WholeFrame.W4_main_arg1 m ρ c),
        (h c (Proc.devRef .tc main_arg2) (WholeFrame.mem_ucRefs main_arg2 (by decide))).trans (WholeFrame.W4_main_arg2 m ρ c),
        (h c (Proc.devRef .tc main_arg3) (WholeFrame.mem_ucRefs main_arg3 (by decide))).trans (WholeFrame.W4_main_arg3 m ρ c)⟩)
    (run_all m ρ)

end Cert.KernelIdeal.WholeValue

end
-- ==== Proof.RefReadStages.lean ====
import proofs.«176692_j9783935500852_2_alg».proof.Proof.Gen.ReferenceIdeal.Read
import proofs.«176692_j9783935500852_2_alg».proof.Proof.RefReadSpec
import Idealize.ShloMosaic.Lib.Affine

/-!
The reference's stages up to the masked scores, each read at an entry: the three products with the weight
matrices are the projections, the divided product of queries and keys is the scaled score, the comparison of
the two broadcast counters is the causal condition on the positions, and the selection between the score and
the broadcast -∞ is the masked score.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The projections -/

/-- The product's left operand is read along row (b, t). -/
theorem lidx_proj (b : Fin 4) (t : Fin 2048) (e d : Fin 1024) : lidx_main_v0 (ix3 b t e) d = ix3 b t d :=
  funext fun a => by match a with | ⟨0, _⟩ => rfl | ⟨1, _⟩ => rfl | ⟨2, _⟩ => rfl

/-- The product's right operand is read along row e of the weights. -/
theorem ridx_proj (b : Fin 4) (t : Fin 2048) (e d : Fin 1024) : ridx_main_v0 (ix3 b t e) d = ix2 e d :=
  funext fun a => by match a with | ⟨0, _⟩ => rfl | ⟨1, _⟩ => rfl

/-- The first product stage at (b, t, e) is the projection. -/
theorem proj_stage (x : FVec Ideal S4x2048x1024 .f32) (w : FVec Ideal S1024x1024 .f32) (b : Fin 4) (t : Fin 2048) (e : Fin 1024) :
    val_main_v0 (F := Ideal) x w (ix3 b t e) = proj x w b t e := by
  rw [val_main_v0_apply]
  exact Finset.sum_congr rfl fun d _ => by rw [lidx_proj, ridx_proj]

/-- The three projection stages are one function of the activations and a weight matrix. -/
theorem v1_eq_v0 (x : FVec Ideal S4x2048x1024 .f32) (w : FVec Ideal S1024x1024 .f32) :
    val_main_v1 (F := Ideal) x w = val_main_v0 (F := Ideal) x w := rfl
theorem v2_eq_v0 (x : FVec Ideal S4x2048x1024 .f32) (w : FVec Ideal S1024x1024 .f32) :
    val_main_v2 (F := Ideal) x w = val_main_v0 (F := Ideal) x w := rfl

/-! ## The scores -/

/-- The score's left operand is read along query row (b, q). -/
theorem lidx_score (b : Fin 4) (q k : Fin 2048) (d : Fin 1024) : lidx_main_v3 (ix3 b q k) d = ix3 b q d :=
  funext fun a => by match a with | ⟨0, _⟩ => rfl | ⟨1, _⟩ => rfl | ⟨2, _⟩ => rfl

/-- The score's right operand is read along key row (b, k). -/
theorem ridx_score (b : Fin 4) (q k : Fin 2048) (d : Fin 1024) : ridx_main_v3 (ix3 b q k) d = ix3 b k d :=
  funext fun a => by match a with | ⟨0, _⟩ => rfl | ⟨1, _⟩ => rfl | ⟨2, _⟩ => rfl

/-- The divided product stage at (b, q, k) is the scaled score. -/
theorem score_stage (x : FVec Ideal S4x2048x1024 .f32) (wq wk : FVec Ideal S1024x1024 .f32) (b : Fin 4) (q k : Fin 2048) :
    val_main_v6 (F := Ideal) x wq wk (ix3 b q k) = score x wq wk b q k := by
  rw [val_main_v6_apply, val_main_v3_apply, val_main_v5_apply, val_main_v4_apply, val_main_cst_apply]
  simp only [Ideal.hostDivf_def, Ideal.hostUnary_sqrt_def, Ideal.ofBits_def]
  unfold score scale
  refine congrArg (fun s => Ideal.div s _) (Finset.sum_congr rfl fun d _ => ?_)
  rw [lidx_score, ridx_score, proj_stage, v1_eq_v0, proj_stage]

/-! ## The causal mask -/

/-- A signed 32-bit comparison of a counter below 2048 with another counter below 2048 plus one is the comparison
    of the natural numbers: every value is far below 2³¹, so nothing wraps and every sign bit is clear. -/
theorem sle_counter (k q : Nat) (hk : k < 2048) (hq : q < 2048) :
    IntOp.cmpi .sle (BitVec.ofNat 32 k) (IntOp.addi (BitVec.ofNat 32 q) 1#32) = if k ≤ q + 1 then 1#1 else 0#1 := by
  have hk' : (BitVec.ofNat 32 k).toInt = (k : Int) := by
    rw [BitVec.toInt_eq_toNat_of_lt (by rw [BitVec.toNat_ofNat]; omega), BitVec.toNat_ofNat]
    omega
  have hq' : (IntOp.addi (BitVec.ofNat 32 q) 1#32).toInt = (q : Int) + 1 := by
    unfold IntOp.addi
    have e : (BitVec.ofNat 32 q + 1#32).toNat = q + 1 := by
      rw [BitVec.toNat_add, BitVec.toNat_ofNat]
      show (q % 2 ^ 32 + 1) % 2 ^ 32 = q + 1
      omega
    rw [BitVec.toInt_eq_toNat_of_lt (by rw [e]; omega), e]
    omega
  by_cases h : k ≤ q + 1
  · rw [if_pos h]
    exact IntOp.cmpi_sle.mpr (by rw [hk', hq']; omega)
  · rw [if_neg h]
    exact eq_zero_of_ne_one fun h1 => h (by have := IntOp.cmpi_sle.mp h1; rw [hk', hq'] at this; omega)

/-- The broadcast mask at batch b, query row q, key k is one exactly when k ≤ q + 1: the key's counter is
    the column's position, the query's the row's position plus one, and the batch axis is a broadcast. -/
theorem mask_stage {F : FTy → Type} [FloatOps F] (b : Fin 4) (q k : Fin 2048) :
    val_main_call0_v1 (F := F) (ix3 b q k) = if k.val ≤ q.val + 1 then 1#1 else 0#1 := by
  rw [val_main_call0_v1_apply, val_main_v15_apply, val_main_v13_apply, val_main_v10_apply, val_main_v9_apply,
    val_main_v14_apply, val_main_v12_apply, val_main_v8_apply, val_main_v7_apply, val_main_v11_apply, val_main_c_apply]
  exact sle_counter k.val q.val k.isLt q.isLt

/-! ## The masked scores -/

/-- The selected stage at (b, q, k) is the masked score. -/
theorem masked_stage (x : FVec Ideal S4x2048x1024 .f32) (wq wk : FVec Ideal S1024x1024 .f32) (b : Fin 4) (q k : Fin 2048) :
    val_main_v16 (F := Ideal) x wq wk (ix3 b q k) = σ x wq wk b q k := by
  rw [val_main_v16_apply, mask_stage, score_stage, val_main_call0_v2_apply, val_main_call0_v0_apply, val_main_cst_0_apply]
  unfold σ
  by_cases h : k.val ≤ q.val + 1
  · rw [if_pos h, if_pos h, select_one]
  · rw [if_neg h, if_neg h, select_zero, Ideal.ofBits_def, ofBits_negInf]

end Cert.ReferenceIdeal.RefValue

end
-- ==== Proof.RefReadSoftmax.lean ====
import proofs.«176692_j9783935500852_2_alg».proof.Proof.RefReadStages

/-!
The reference's softmax and its product with the values, read at an entry: the row maximum of the masked
scores (a fold from -∞, then once more against -∞), the exponentials of the differences, their sum from zero,
the quotients, and the weighted sum of the value rows. Together: the reference's result is the attention
expression of the argument arrays.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The row maximum -/

/-- Row (b, q) with key position k put back on the reduced axis is the entry (b, q, k). -/
theorem lift_row (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  fin_cases c <;> rfl

/-- A maximum-reduce over the key axis, at row (b, q), is the fold of max over the row's 2048 entries from the
    initial value. -/
theorem reduceMax_row (y : FVec Ideal S4x2048x2048 .f32) (init : FVec Ideal S_ .f32)
    (h' : S4x2048x2048.ReducesTo [2] S4x2048) (hu : 0 < S_.numel) (b : Fin 4) (q : Fin 2048) :
    Host.reduce FloatOps.maximumf y init h' hu (ix2 b q)
      = (Finset.univ : Finset (Fin 2048)).fold max (init (Shape.Idx.first hu)) (fun k => y (ix3 b q k)) := by
  have h : S4x2048x2048.Reduces [2] S4x2048 := by decide
  rw [Host.reduce_eq_fold_single FloatOps.maximumf y init h' h hu]
  have hf : (y ∘ h.lift (ix2 b q)) = fun k : Fin 2048 => y (ix3 b q k) := funext fun k => congrArg y (lift_row h b q k)
  exact congrArg (fun f => Finset.fold max (init (Shape.Idx.first hu)) f (Finset.univ : Finset (Fin 2048))) hf

/-- The maximum stage at row (b, q): -∞ against the fold of max from -∞ over the row's masked scores. -/
theorem rowMax_stage (x : FVec Ideal S4x2048x1024 .f32) (wq wk : FVec Ideal S1024x1024 .f32) (b : Fin 4) (q : Fin 2048) :
    val_main_v19 (F := Ideal) x wq wk (ix2 b q) = max ⊥ (Finset.univ.fold max ⊥ (σ x wq wk b q)) := by
  rw [val_main_v19_apply, val_main_v18_apply, val_main_cst_2_apply]
  unfold val_main_v17
  rw [reduceMax_row, val_main_cst_1_apply]
  simp only [Ideal.maximumf_def, Ideal.ofBits_def, ofBits_negInf]
  refine congrArg (max ⊥) (congrArg (fun f => Finset.fold max ⊥ f (Finset.univ : Finset (Fin 2048))) ?_)
  exact funext fun k => masked_stage x wq wk b q k

/-! ## The exponentials, their sum, the quotients -/

/-- The row maximum is broadcast along the key axis: entry (b, q, k) reads row (b, q). -/
theorem idx_rowMax (b : Fin 4) (q k : Fin 2048) : idx_main_v20 (idx_main_v21 (ix3 b q k)) = ix2 b q :=
  funext fun a => by match a with | ⟨0, _⟩ => rfl | ⟨1, _⟩ => rfl

/-- The exponential stage at (b, q, k): the exponential of the masked score less the row maximum. -/
theorem exp_stage (x : FVec Ideal S4x2048x1024 .f32) (wq wk : FVec Ideal S1024x1024 .f32) (b : Fin 4) (q k : Fin 2048) :
    val_main_v23 (F := Ideal) x wq wk (ix3 b q k)
      = Ideal.exp (σ x wq wk b q k - max ⊥ (Finset.univ.fold max ⊥ (σ x wq wk b q))) := by
  rw [val_main_v23_apply, val_main_v22_apply, masked_stage, val_main_v21_apply, val_main_v20_apply, idx_rowMax, rowMax_stage]
  simp only [Ideal.hostUnary_exp_def, Ideal.subf_def]

/-- The sum's operand at row (b, q), key position j, is the entry (b, q, j). -/
theorem idx_rowSum (b : Fin 4) (q j : Fin 2048) : idx_main_v24 (ix2 b q) j = ix3 b q j :=
  funext fun a => by match a with | ⟨0, _⟩ => rfl | ⟨1, _⟩ => rfl | ⟨2, _⟩ => rfl

/-- The sum stage at row (b, q): zero plus the sum of the row's exponentials. -/
theorem rowSum_stage (x : FVec Ideal S4x2048x1024 .f32) (wq wk : FVec Ideal S1024x1024 .f32) (b : Fin 4) (q : Fin 2048) :
    val_main_v24 (F := Ideal) x wq wk (ix2 b q)
      = 0 + ∑ j : Fin 2048, Ideal.exp (σ x wq wk b q j - max ⊥ (Finset.univ.fold max ⊥ (σ x wq wk b q))) := by
  rw [val_main_v24_apply, val_main_cst_3_apply, Ideal.ofBits_def, Ideal.ofBits_zero_f32]
  refine congrArg (0 + ·) (Finset.sum_congr rfl fun j _ => ?_)
  rw [idx_rowSum, exp_stage]

/-- The row sum is broadcast along the key axis: entry (b, q, k) reads row (b, q). -/
theorem idx_rowSumBcast (b : Fin 4) (q k : Fin 2048) : idx_main_v25 (idx_main_v26 (ix3 b q k)) = ix2 b q :=
  funext fun a => by match a with | ⟨0, _⟩ => rfl | ⟨1, _⟩ => rfl

/-- The quotient stage at (b, q, k): the exponential over the row's sum. -/
theorem weight_stage (x : FVec Ideal S4x2048x1024 .f32) (wq wk : FVec Ideal S1024x1024 .f32) (b : Fin 4) (q k : Fin 2048) :
    val_main_v27 (F := Ideal) x wq wk (ix3 b q k)
      = Ideal.div (Ideal.exp (σ x wq wk b q k - max ⊥ (Finset.univ.fold max ⊥ (σ x wq wk b q))))
          (0 + ∑ j : Fin 2048, Ideal.exp (σ x wq wk b q j - max ⊥ (Finset.univ.fold max ⊥ (σ x wq wk b q)))) := by
  rw [val_main_v27_apply, exp_stage, val_main_v26_apply, val_main_v25_apply, idx_rowSumBcast, rowSum_stage]
  simp only [Ideal.hostDivf_def]

/-! ## The result -/

/-- The last product's left operand is read along row (b, q) of the weights. -/
theorem lidx_out (b : Fin 4) (q : Fin 2048) (d : Fin 1024) (k : Fin 2048) : lidx_main_v28 (ix3 b q d) k = ix3 b q k :=
  funext fun a => by match a with | ⟨0, _⟩ => rfl | ⟨1, _⟩ => rfl | ⟨2, _⟩ => rfl

/-- The last product's right operand is read down column d of the values of batch b. -/
theorem ridx_out (b : Fin 4) (q : Fin 2048) (d : Fin 1024) (k : Fin 2048) : ridx_main_v28 (ix3 b q d) k = ix3 b k d :=
  funext fun a => by match a with | ⟨0, _⟩ => rfl | ⟨1, _⟩ => rfl | ⟨2, _⟩ => rfl

/-- The reference's result at (b, q, d) is the attention expression of the four argument arrays. -/
theorem result_apply (x : FVec Ideal S4x2048x1024 .f32) (wq wk wv : FVec Ideal S1024x1024 .f32)
    (b : Fin 4) (q : Fin 2048) (d : Fin 1024) :
    val_main_v28 (F := Ideal) x wq wk wv (ix3 b q d) = attn x wq wk wv b q d := by
  rw [val_main_v28_apply]
  unfold attn
  refine Finset.sum_congr rfl fun k _ => ?_
  rw [lidx_out, ridx_out, weight_stage, v2_eq_v0, proj_stage]

/-- The reference's result, as an array, is the attention expression at each entry's coordinates. -/
theorem result_eq (x : FVec Ideal S4x2048x1024 .f32) (wq wk wv : FVec Ideal S1024x1024 .f32) :
    val_main_v28 (F := Ideal) x wq wk wv = fun i => attn x wq wk wv (i 0) (i 1) (i 2) := by
  funext i
  rw [eq_ix3 i]
  exact result_apply x wq wk wv (i 0) (i 1) (i 2)

end Cert.ReferenceIdeal.RefValue

end
-- ==== Proof.RefRead.lean ====
import proofs.«176692_j9783935500852_2_alg».proof.Defs
import proofs.«176692_j9783935500852_2_alg».proof.Proof.Gen.ReferenceIdeal.Read
import proofs.«176692_j9783935500852_2_alg».proof.Proof.RefReadSoftmax

/-!
The reference's run with its result in closed form: from any memory, every execution ends with the result
array holding the attention expression of the argument arrays at each entry, the arguments unchanged.
-/

noncomputable section

open Idealize.ShloMosaic Idealize.ShloMosaic.TcCoe Idealize.SL.Sem

namespace Cert.ReferenceIdeal.RefValue

open Cert.ReferenceIdeal Cert.ReferenceIdeal.Gen Idealize.ShloMosaic.ValueIdx

/-- Every weakly fair execution of the reference from the memory `m` terminates with the result array at the
    attention expression of the argument arrays as `m` holds them, entry by entry, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = (fun i => attn (m ((c.tc : Thread nD τ).loc main_arg0)) (m ((c.tc : Thread nD τ).loc main_arg1))
              (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans ((Read.val_main_v28_eq m c).trans (result_eq _ _ _ _)), (h c).2⟩)
    (Value.run (F := Ideal) m ρ)

end Cert.ReferenceIdeal.RefValue

end
-- ==== Proof.FiniteInputs.lean ====
/-
  From the stated precondition to "every input entry is a real number".

  The precondition is the conjunction, over the four input arrays, of  all (|v| < +∞) : the absolute value of every
  entry is compared (strictly below) with the float whose pattern is 0x7F800000, the positive infinity, the
  comparisons of one array are folded by "and" from the constant 1, and the four results are joined by "and".  The
  claim assumes this one-bit result is 1.

  On the extended reals: "and" of one-bit words is 1 exactly when both are, so each array's fold is 1; a fold by
  "and" that is 1 met only 1s, so every single comparison holds; the pattern 0x7F800000 denotes ⊤; the absolute
  value is max v (−v), and  max v (−v) < ⊤  fails for v = ⊤ (the maximum is ⊤) and for v = ⊥ (−⊥ = ⊤), so v is
  neither infinity: it is the coercion of a real number.
-/
import Idealize.ShloMosaic.PureOps.Ideal
import Idealize.ShloMosaic.Lib.ReduceAll
import Idealize.ShloMosaic.Lib.ValueIdx
import proofs.«176692_j9783935500852_2_alg».proof.Pre_finite_inputs

noncomputable section

namespace Cert.FiniteInputs

open Idealize.ShloMosaic Cert.Pre_finite_inputs

/-- The rank-0 shape has exactly one index. -/
instance subsingleton_idx0 : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max x (−x) is below +∞ is a real number: the absolute value of either
    infinity is +∞. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The same, read off the one-bit result of the comparison |x| < (the float 0x7F800000). -/
theorem real_of_cmp (x : EReal) (h : Ideal.cmp .olt (max x (-x)) (Ideal.ofBits .f32 0x7F800000#32) = 1#1) :
    ∃ r : ℝ, x = ((r : ℝ) : EReal) := by
  rw [ofBits_inf] at h
  refine real_of_abs_lt_top x ?_
  by_contra hc
  simp [Ideal.cmp, hc] at h

/-- One array: if the fold by "and" of the comparisons |x i| < +∞ over ALL axes is 1, every entry of x is a real
    number. -/
theorem all_real {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant S_ .f32 0x7F800000#32)))
        (constantI S_ 1 1#1) hr hu ValueIdx.ix0 = 1#1) (i : s.Idx) : ∃ r : ℝ, x i = ((r : ℝ) : EReal) :=
  real_of_cmp (x i) (Host.reduce_andi_all _ _ hr hu _ e i)

variable [Facts]

/-- The precondition, at the extended reals, makes every entry of the four inputs a real number. -/
theorem finite_inputs (x : FVec Ideal S4x2048x1024 .f32) (wq wk wv : FVec Ideal S1024x1024 .f32)
    (h : Cert.Pre_finite_inputs.fn (F := Ideal) x wq wk wv = (fun _ => 1#1)) :
    (∀ i, ∃ r : ℝ, x i = ((r : ℝ) : EReal)) ∧ (∀ i, ∃ r : ℝ, wq i = ((r : ℝ) : EReal))
      ∧ (∀ i, ∃ r : ℝ, wk i = ((r : ℝ) : EReal)) ∧ (∀ i, ∃ r : ℝ, wv i = ((r : ℝ) : EReal)) := by
  have h0 := congrFun h ValueIdx.ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨all_real x _ _ _ h1, all_real wq _ _ _ h2, all_real wk _ _ _ h3, all_real wv _ _ _ h4⟩

end Cert.FiniteInputs

end
-- ==== Proof.lean ====
/-
  Causal attention with a one-step look-ahead, computed by two pipelined kernel calls, against its plain reference.

  THE TWO PROGRAMS. The inputs are x : [4, 2048, 1024] and three weight matrices [1024, 1024]. Both programs form the
  projections Q, K, V (b, t, e) = ∑ d, x (b, t, d) · W (e, d), the scores s (b, q, k) = (∑ d, Q (b, q, d) · K (b, k, d)) / √1024,
  mask them to −∞ off the legal keys k ≤ q + 1, and return ∑ k, softmax_k (s (b, q, ·)) · V (b, k, d).
  The reference does this with whole-array operations, the softmax shifted by the row maximum. The kernel's first call
  computes the three projections block by block (512 rows at a time). Its second call takes one block of 512 queries
  and the batch's whole K and V, scales the queries by 1/32, and walks the four tiles of 512 keys keeping a running
  maximum m, a denominator l and a numerator acc per query: on each visited tile, with m' the new maximum,
  l ← exp (m − m') · l + ∑ exp (s − m'), acc ← exp (m − m') · acc + ∑ exp (s − m') · V; tile j is visited only when
  j ≤ (query tile) + 1, the skipped tiles being wholly illegal; at the end it stores acc / l.

  WHY THEY AGREE ON THE EXTENDED REALS. √1024 = 32 exactly, and with finite inputs every projection is a real number,
  so the scaled scores agree term by term. A masked score is −∞ and its exponential 0, so sums over a tile are sums
  over the tile's legal keys. Key 0 is legal for every query, so after the first tile the running maximum is real;
  rescaling by exp (m − m') turns sums shifted by m into sums shifted by m', so after the last visited tile
  l = ∑ exp (s − m) and acc = ∑ exp (s − m) · V over all legal keys, and acc / l does not depend on the shift: it is
  the softmax-weighted sum, which is also what the reference's row-maximum shift gives.

  THE PARTS. Each program runs to its end, nothing faulting, with its arguments unchanged: for the kernel (as printed,
  and idealized) this is the run of @main's four items — host operations, the projection region, host reshapes, the
  attention region — over one valuation of the buffers (WholeRun, at any float instance; the regions' bodies by
  symbolic execution: ProjBody, AttnRunA/B/C, one per control case of the tile guards); for the reference it is its
  generated run. The idealization replaces four copies of one finite stand-in constant by −∞ (`preserves`). The
  values: the kernel's result array read off that run (ProjValue*, AttnValue, WholeValue) against the reference's
  run read at an index (RefRead*), joined by the tile-by-tile softmax identity (LibMaskedSoftmax, AttnMath*).
-/
import proofs.«176692_j9783935500852_2_alg».proof.Defs
import proofs.«176692_j9783935500852_2_alg».proof.Proof.Gen.Kernel
import proofs.«176692_j9783935500852_2_alg».proof.Proof.Gen.KernelIdeal
import proofs.«176692_j9783935500852_2_alg».proof.Proof.Gen.ReferenceIdeal
import proofs.«176692_j9783935500852_2_alg».proof.Proof.Gen.Pre_finite_inputs
import proofs.«176692_j9783935500852_2_alg».proof.Proof.KWholeFrame
import proofs.«176692_j9783935500852_2_alg».proof.Proof.WholeFrame
import proofs.«176692_j9783935500852_2_alg».proof.Proof.WholeValue
import proofs.«176692_j9783935500852_2_alg».proof.Proof.RefRead
import proofs.«176692_j9783935500852_2_alg».proof.Proof.FiniteInputs
import Idealize.ShloMosaic.PureOps.IdealRules
import Idealize.ShloMosaic.Adequacy
import Idealize.ShloMosaic.Init

noncomputable section

namespace Cert.Proof

open Idealize.ShloMosaic Idealize.SL.Sem

/-- The kernel as printed runs to its end with its arguments unchanged. -/
theorem frame_kernel : Cert.frame_Kernel := fun m g _ => Cert.Kernel.WholeFrame.run_frame (F := Bits) m g

/-- So does its idealization. -/
theorem frame_kernelIdeal : Cert.frame_KernelIdeal := fun m g _ => Cert.KernelIdeal.WholeFrame.run_frame (F := Ideal) m g

/-- So does the reference: its run with the result dropped. -/
theorem frame_referenceIdeal : Cert.frame_ReferenceIdeal := fun m g _ =>
  (θ_run Cert.ReferenceIdeal.defs _ _).mono (fun _ h c => (h c).2) (Cert.ReferenceIdeal.RefValue.run m g)

/-- The masking constant, a large negative finite number in the printed kernel, is −∞ in the idealized one. -/
theorem neg_big : IdealRules.named_const.Statement Cert.KernelIdeal.κ "neg_big" .f32 0xFF333332#32 ⊥ :=
  IdealRules.named_const.statement Cert.KernelIdeal.κ "neg_big" .f32 0xFF333332#32 ⊥ rfl

/-- It occurs four times, once per key tile. -/
theorem preserves : Cert.preserves_Kernel_KernelIdeal := ⟨neg_big, neg_big, neg_big, neg_big⟩

/-- From memories agreeing on the (finite) arguments both idealized programs end with the attention array of those
    arguments: the kernel by its run's value, the reference by its run read at an index. -/
theorem algebraic : Cert.algebraic_KernelIdeal_ReferenceIdeal := by
  intro m g m' g' hpre hagree
  refine ⟨fun c => fun i => Cert.ReferenceIdeal.RefValue.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2),
    Cert.KernelIdeal.WholeValue.run_value m g (fun c => Cert.FiniteInputs.finite_inputs _ _ _ _ (hpre c)), ?_⟩
  refine (θ_run Cert.ReferenceIdeal.defs _ _).mono (fun _ h c => ⟨?_, (h c).2⟩) (Cert.ReferenceIdeal.RefValue.run m' g')
  rw [(h c).1, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
